-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_c)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_c) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x100000 : Shape := ⟨2, ![128, 100000]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x100000 : S_.BroadcastsInDim S128x100000 (![] : Fin 0 → Fin S128x100000.rank)
  reducesTo_S128x100000_S_d0_1 : S128x100000.ReducesTo [0, 1] S_

variable [Facts]

def fn {F : FTy → Type} [FloatOps F] (main_arg0 : FVec F S16384x128 .f32) (main_arg1 : FVec F S128x100000 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x100000 .f32 := Host.absf main_arg1
  let main_cst_0 : FVec F S_ .f32 := constant S_ .f32 0x7F800000#32
  let main_v5 : FVec F S128x100000 .f32 := broadcastInDim S128x100000 ![] bcast_S_S128x100000 main_cst_0
  let main_v6 : IVec S128x100000 1 := cmpf .olt main_v4 main_v5
  let main_c_1 : IVec S_ 1 := constantI S_ 1 1#1
  let main_v7 : IVec S_ 1 := (fun x v => Host.reduce IntOp.andi x v reducesTo_S128x100000_S_d0_1 h_S_) main_v6 main_c_1
  let main_v8 : IVec S_ 1 := andi main_v3 main_v7
  main_v8
-- ==== Kernel.lean ====
abbrev S16384x128 : Shape := ⟨2, ![16384, 128]⟩
abbrev S128x100000 : Shape := ⟨2, ![128, 100000]⟩
abbrev S1 : Shape := ⟨1, ![1]⟩
abbrev S2x8x3840 : Shape := ⟨3, ![2, 8, 3840]⟩
abbrev S8x2976 : Shape := ⟨2, ![8, 2976]⟩
abbrev S2 : Shape := ⟨1, ![2]⟩
abbrev S1x8x3840 : Shape := ⟨3, ![1, 8, 3840]⟩
abbrev S8x3840 : Shape := ⟨2, ![8, 3840]⟩
abbrev S_ : Shape := ⟨0, ![]⟩
abbrev S2048x128 : Shape := ⟨2, ![2048, 128]⟩
abbrev S128x2048 : Shape := ⟨2, ![128, 2048]⟩

abbrev nBuf : Table → Nat
  | .hbm => 5
  | .local .tc .vmem => 4
  | .local .scVector .vmem => 2
  | _ => 0

abbrev bufTy : (tb : Table) → Fin (nBuf tb) → BufTy
  | .hbm, ⟨0, _⟩ => ⟨S16384x128, .f32⟩
  | .hbm, ⟨1, _⟩ => ⟨S128x100000, .f32⟩
  | .hbm, ⟨2, _⟩ => ⟨S1, .i32⟩
  | .hbm, ⟨3, _⟩ => ⟨S128x100000, .f32⟩
  | .hbm, ⟨4, _⟩ => ⟨S128x100000, .f32⟩
  | .local .tc .vmem, ⟨0, _⟩ => ⟨S2048x128, .f32⟩
  | .local .tc .vmem, ⟨1, _⟩ => ⟨S2048x128, .f32⟩
  | .local .tc .vmem, ⟨2, _⟩ => ⟨S128x2048, .f32⟩
  | .local .tc .vmem, ⟨3, _⟩ => ⟨S128x2048, .f32⟩
  | .local .scVector .vmem, ⟨0, _⟩ => ⟨S2x8x3840, .f32⟩
  | .local .scVector .vmem, ⟨1, _⟩ => ⟨S8x2976, .f32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_arg1_scv : Ref sig .scVector := ⟨.hbm, 1, rfl⟩
abbrev main_v0_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc1_sem0_0 : DmaSem sig := 6
abbrev cc1_sem0_1 : DmaSem sig := 7
abbrev cc1_sem1_0 : DmaSem sig := 8
abbrev cc1_sem1_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c8_i32 : BitVec 32 := 8#32
  let v0 : BitVec 32 := Scalar.muli arg1 c8_i32
  v0
def k0_mult2 (i : grid0.Coords) : BitVec 32 :=
  let c16384_i32 : BitVec 32 := 16384#32
  let c0_i32 : BitVec 32 := 0#32
  let arg0 : BitVec 32 := BitVec.ofNat 32 (i 0).val
  let v2 : BitVec 32 := Scalar.addi c0_i32 arg0
  let c3840_i32 : BitVec 32 := 3840#32
  let v3 : BitVec 32 := Scalar.muli v2 c3840_i32
  let v4 : BitVec 32 := Scalar.addi c16384_i32 v3
  v4
def k0_off1 (i : grid0.Coords) (c0_i32 : BitVec 32) : Fin 2 → Nat :=
  let arg1 : BitVec 32 := BitVec.ofNat 32 (i 1).val
  let c8_i32 : BitVec 32 := 8#32
  let v0 : BitVec 32 := Scalar.muli arg1 c8_i32
  let v1 : BitVec 32 := v0
  let c16384_i32 : BitVec 32 := 16384#32
  let arg0 : BitVec 32 := BitVec.ofNat 32 (i 0).val
  let v2 : BitVec 32 := Scalar.addi c0_i32 arg0
  let c3840_i32 : BitVec 32 := 3840#32
  let v3 : BitVec 32 := Scalar.muli v2 c3840_i32
  let v4 : BitVec 32 := Scalar.addi c16384_i32 v3
  let v5 : BitVec 32 := v4
  ![v1.toNat, v5.toNat]
def k0_mult3 (i : grid0.Coords) : BitVec 32 :=
  let c16384_i32_7 : BitVec 32 := 16384#32
  let c2_i32 : BitVec 32 := 2#32
  let arg0 : BitVec 32 := BitVec.ofNat 32 (i 0).val
  let v14 : BitVec 32 := Scalar.addi c2_i32 arg0
  let c3840_i32_6 : BitVec 32 := 3840#32
  let v15 : BitVec 32 := Scalar.muli v14 c3840_i32_6
  let v16 : BitVec 32 := Scalar.addi c16384_i32_7 v15
  v16
def k0_mult4 (i : grid0.Coords) : BitVec 32 :=
  let c16384_i32_15 : BitVec 32 := 16384#32
  let c0_i32_13 : BitVec 32 := 0#32
  let arg0 : BitVec 32 := BitVec.ofNat 32 (i 0).val
  let v26 : BitVec 32 := Scalar.addi c0_i32_13 arg0
  let c3840_i32_14 : BitVec 32 := 3840#32
  let v27 : BitVec 32 := Scalar.muli v26 c3840_i32_14
  let v28 : BitVec 32 := Scalar.addi c16384_i32_15 v27
  v28
def k0_mult5 (i : grid0.Coords) : BitVec 32 :=
  let c16384_i32_24 : BitVec 32 := 16384#32
  let c0_i32_22 : BitVec 32 := 0#32
  let arg0 : BitVec 32 := BitVec.ofNat 32 (i 0).val
  let v38 : BitVec 32 := Scalar.addi c0_i32_22 arg0
  let c3840_i32_23 : BitVec 32 := 3840#32
  let v39 : BitVec 32 := Scalar.muli v38 c3840_i32_23
  let v40 : BitVec 32 := Scalar.addi c16384_i32_24 v39
  v40
def k0_mult6 (i : grid0.Coords) : BitVec 32 :=
  let c16384_i32_33 : BitVec 32 := 16384#32
  let c0_i32_31 : BitVec 32 := 0#32
  let arg0 : BitVec 32 := BitVec.ofNat 32 (i 0).val
  let v50 : BitVec 32 := Scalar.addi c0_i32_31 arg0
  let c3840_i32_32 : BitVec 32 := 3840#32
  let v51 : BitVec 32 := Scalar.muli v50 c3840_i32_32
  let v52 : BitVec 32 := Scalar.addi c16384_i32_33 v51
  v52
def k0_mult7 (i : grid0.Coords) : BitVec 32 :=
  let c16384_i32_41 : BitVec 32 := 16384#32
  let c4_i32 : BitVec 32 := 4#32
  let arg0 : BitVec 32 := BitVec.ofNat 32 (i 0).val
  let v62 : BitVec 32 := Scalar.addi c4_i32 arg0
  let c3840_i32_40 : BitVec 32 := 3840#32
  let v63 : BitVec 32 := Scalar.muli v62 c3840_i32_40
  let v64 : BitVec 32 := Scalar.addi c16384_i32_41 v63
  v64
def k0_mult8 (i : grid0.Coords) : BitVec 32 :=
  let c16384_i32_50 : BitVec 32 := 16384#32
  let c2_i32_48 : BitVec 32 := 2#32
  let arg0 : BitVec 32 := BitVec.ofNat 32 (i 0).val
  let v74 : BitVec 32 := Scalar.addi c2_i32_48 arg0
  let c3840_i32_49 : BitVec 32 := 3840#32
  let v75 : BitVec 32 := Scalar.muli v74 c3840_i32_49
  let v76 : BitVec 32 := Scalar.addi c16384_i32_50 v75
  v76
def k0_mult9 (i : grid0.Coords) : BitVec 32 :=
  let c16384_i32_59 : BitVec 32 := 16384#32
  let c2_i32_57 : BitVec 32 := 2#32
  let arg0 : BitVec 32 := BitVec.ofNat 32 (i 0).val
  let v86 : BitVec 32 := Scalar.addi c2_i32_57 arg0
  let c3840_i32_58 : BitVec 32 := 3840#32
  let v87 : BitVec 32 := Scalar.muli v86 c3840_i32_58
  let v88 : BitVec 32 := Scalar.addi c16384_i32_59 v87
  v88
def k0_mult10 (i : grid0.Coords) : BitVec 32 :=
  let c16384_i32_68 : BitVec 32 := 16384#32
  let c2_i32_66 : BitVec 32 := 2#32
  let arg0 : BitVec 32 := BitVec.ofNat 32 (i 0).val
  let v98 : BitVec 32 := Scalar.addi c2_i32_66 arg0
  let c3840_i32_67 : BitVec 32 := 3840#32
  let v99 : BitVec 32 := Scalar.muli v98 c3840_i32_67
  let v100 : BitVec 32 := Scalar.addi c16384_i32_68 v99
  v100
def k0_mult11 (i : grid0.Coords) : BitVec 32 :=
  let c16384_i32_76 : BitVec 32 := 16384#32
  let c6_i32 : BitVec 32 := 6#32
  let arg0 : BitVec 32 := BitVec.ofNat 32 (i 0).val
  let v110 : BitVec 32 := Scalar.addi c6_i32 arg0
  let c3840_i32_75 : BitVec 32 := 3840#32
  let v111 : BitVec 32 := Scalar.muli v110 c3840_i32_75
  let v112 : BitVec 32 := Scalar.addi c16384_i32_76 v111
  v112
def k0_mult12 (i : grid0.Coords) : BitVec 32 :=
  let c16384_i32_85 : BitVec 32 := 16384#32
  let c4_i32_83 : BitVec 32 := 4#32
  let arg0 : BitVec 32 := BitVec.ofNat 32 (i 0).val
  let v122 : BitVec 32 := Scalar.addi c4_i32_83 arg0
  let c3840_i32_84 : BitVec 32 := 3840#32
  let v123 : BitVec 32 := Scalar.muli v122 c3840_i32_84
  let v124 : BitVec 32 := Scalar.addi c16384_i32_85 v123
  v124
def k0_mult13 (i : grid0.Coords) : BitVec 32 :=
  let c16384_i32_94 : BitVec 32 := 16384#32
  let c4_i32_92 : BitVec 32 := 4#32
  let arg0 : BitVec 32 := BitVec.ofNat 32 (i 0).val
  let v134 : BitVec 32 := Scalar.addi c4_i32_92 arg0
  let c3840_i32_93 : BitVec 32 := 3840#32
  let v135 : BitVec 32 := Scalar.muli v134 c3840_i32_93
  let v136 : BitVec 32 := Scalar.addi c16384_i32_94 v135
  v136
def k0_mult14 (i : grid0.Coords) : BitVec 32 :=
  let c16384_i32_103 : BitVec 32 := 16384#32
  let c4_i32_101 : BitVec 32 := 4#32
  let arg0 : BitVec 32 := BitVec.ofNat 32 (i 0).val
  let v146 : BitVec 32 := Scalar.addi c4_i32_101 arg0
  let c3840_i32_102 : BitVec 32 := 3840#32
  let v147 : BitVec 32 := Scalar.muli v146 c3840_i32_102
  let v148 : BitVec 32 := Scalar.addi c16384_i32_103 v147
  v148
def k0_mult15 (i : grid0.Coords) : BitVec 32 :=
  let c16384_i32_112 : BitVec 32 := 16384#32
  let c8_i32_110 : BitVec 32 := 8#32
  let arg0 : BitVec 32 := BitVec.ofNat 32 (i 0).val
  let v158 : BitVec 32 := Scalar.addi c8_i32_110 arg0
  let c3840_i32_111 : BitVec 32 := 3840#32
  let v159 : BitVec 32 := Scalar.muli v158 c3840_i32_111
  let v160 : BitVec 32 := Scalar.addi c16384_i32_112 v159
  v160
def k0_mult16 (i : grid0.Coords) : BitVec 32 :=
  let c16384_i32_121 : BitVec 32 := 16384#32
  let c6_i32_119 : BitVec 32 := 6#32
  let arg0 : BitVec 32 := BitVec.ofNat 32 (i 0).val
  let v170 : BitVec 32 := Scalar.addi c6_i32_119 arg0
  let c3840_i32_120 : BitVec 32 := 3840#32
  let v171 : BitVec 32 := Scalar.muli v170 c3840_i32_120
  let v172 : BitVec 32 := Scalar.addi c16384_i32_121 v171
  v172
def k0_mult17 (i : grid0.Coords) : BitVec 32 :=
  let c16384_i32_130 : BitVec 32 := 16384#32
  let c6_i32_128 : BitVec 32 := 6#32
  let arg0 : BitVec 32 := BitVec.ofNat 32 (i 0).val
  let v182 : BitVec 32 := Scalar.addi c6_i32_128 arg0
  let c3840_i32_129 : BitVec 32 := 3840#32
  let v183 : BitVec 32 := Scalar.muli v182 c3840_i32_129
  let v184 : BitVec 32 := Scalar.addi c16384_i32_130 v183
  v184
def k0_mult18 (i : grid0.Coords) : BitVec 32 :=
  let c16384_i32_139 : BitVec 32 := 16384#32
  let c6_i32_137 : BitVec 32 := 6#32
  let arg0 : BitVec 32 := BitVec.ofNat 32 (i 0).val
  let v194 : BitVec 32 := Scalar.addi c6_i32_137 arg0
  let c3840_i32_138 : BitVec 32 := 3840#32
  let v195 : BitVec 32 := Scalar.muli v194 c3840_i32_138
  let v196 : BitVec 32 := Scalar.addi c16384_i32_139 v195
  v196
def k0_mult19 (i : grid0.Coords) : BitVec 32 :=
  let c16384_i32_147 : BitVec 32 := 16384#32
  let c10_i32 : BitVec 32 := 10#32
  let arg0 : BitVec 32 := BitVec.ofNat 32 (i 0).val
  let v206 : BitVec 32 := Scalar.addi c10_i32 arg0
  let c3840_i32_146 : BitVec 32 := 3840#32
  let v207 : BitVec 32 := Scalar.muli v206 c3840_i32_146
  let v208 : BitVec 32 := Scalar.addi c16384_i32_147 v207
  v208
def k0_mult20 (i : grid0.Coords) : BitVec 32 :=
  let c16384_i32_156 : BitVec 32 := 16384#32
  let c8_i32_154 : BitVec 32 := 8#32
  let arg0 : BitVec 32 := BitVec.ofNat 32 (i 0).val
  let v218 : BitVec 32 := Scalar.addi c8_i32_154 arg0
  let c3840_i32_155 : BitVec 32 := 3840#32
  let v219 : BitVec 32 := Scalar.muli v218 c3840_i32_155
  let v220 : BitVec 32 := Scalar.addi c16384_i32_156 v219
  v220
def k0_mult21 (i : grid0.Coords) : BitVec 32 :=
  let c16384_i32_165 : BitVec 32 := 16384#32
  let c8_i32_163 : BitVec 32 := 8#32
  let arg0 : BitVec 32 := BitVec.ofNat 32 (i 0).val
  let v230 : BitVec 32 := Scalar.addi c8_i32_163 arg0
  let c3840_i32_164 : BitVec 32 := 3840#32
  let v231 : BitVec 32 := Scalar.muli v230 c3840_i32_164
  let v232 : BitVec 32 := Scalar.addi c16384_i32_165 v231
  v232
def k0_mult22 (i : grid0.Coords) : BitVec 32 :=
  let c16384_i32_174 : BitVec 32 := 16384#32
  let c8_i32_172 : BitVec 32 := 8#32
  let arg0 : BitVec 32 := BitVec.ofNat 32 (i 0).val
  let v242 : BitVec 32 := Scalar.addi c8_i32_172 arg0
  let c3840_i32_173 : BitVec 32 := 3840#32
  let v243 : BitVec 32 := Scalar.muli v242 c3840_i32_173
  let v244 : BitVec 32 := Scalar.addi c16384_i32_174 v243
  v244
def k0_mult23 (i : grid0.Coords) : BitVec 32 :=
  let c16384_i32_182 : BitVec 32 := 16384#32
  let c12_i32 : BitVec 32 := 12#32
  let arg0 : BitVec 32 := BitVec.ofNat 32 (i 0).val
  let v254 : BitVec 32 := Scalar.addi c12_i32 arg0
  let c3840_i32_181 : BitVec 32 := 3840#32
  let v255 : BitVec 32 := Scalar.muli v254 c3840_i32_181
  let v256 : BitVec 32 := Scalar.addi c16384_i32_182 v255
  v256
def k0_mult24 (i : grid0.Coords) : BitVec 32 :=
  let c16384_i32_191 : BitVec 32 := 16384#32
  let c10_i32_189 : BitVec 32 := 10#32
  let arg0 : BitVec 32 := BitVec.ofNat 32 (i 0).val
  let v266 : BitVec 32 := Scalar.addi c10_i32_189 arg0
  let c3840_i32_190 : BitVec 32 := 3840#32
  let v267 : BitVec 32 := Scalar.muli v266 c3840_i32_190
  let v268 : BitVec 32 := Scalar.addi c16384_i32_191 v267
  v268
def k0_mult25 (i : grid0.Coords) : BitVec 32 :=
  let c16384_i32_200 : BitVec 32 := 16384#32
  let c10_i32_198 : BitVec 32 := 10#32
  let arg0 : BitVec 32 := BitVec.ofNat 32 (i 0).val
  let v278 : BitVec 32 := Scalar.addi c10_i32_198 arg0
  let c3840_i32_199 : BitVec 32 := 3840#32
  let v279 : BitVec 32 := Scalar.muli v278 c3840_i32_199
  let v280 : BitVec 32 := Scalar.addi c16384_i32_200 v279
  v280
def k0_mult26 (i : grid0.Coords) : BitVec 32 :=
  let c16384_i32_209 : BitVec 32 := 16384#32
  let c10_i32_207 : BitVec 32 := 10#32
  let arg0 : BitVec 32 := BitVec.ofNat 32 (i 0).val
  let v290 : BitVec 32 := Scalar.addi c10_i32_207 arg0
  let c3840_i32_208 : BitVec 32 := 3840#32
  let v291 : BitVec 32 := Scalar.muli v290 c3840_i32_208
  let v292 : BitVec 32 := Scalar.addi c16384_i32_209 v291
  v292
def k0_mult27 (i : grid0.Coords) : BitVec 32 :=
  let c16384_i32_217 : BitVec 32 := 16384#32
  let c14_i32 : BitVec 32 := 14#32
  let arg0 : BitVec 32 := BitVec.ofNat 32 (i 0).val
  let v302 : BitVec 32 := Scalar.addi c14_i32 arg0
  let c3840_i32_216 : BitVec 32 := 3840#32
  let v303 : BitVec 32 := Scalar.muli v302 c3840_i32_216
  let v304 : BitVec 32 := Scalar.addi c16384_i32_217 v303
  v304
def k0_mult28 (i : grid0.Coords) : BitVec 32 :=
  let c16384_i32_226 : BitVec 32 := 16384#32
  let c12_i32_224 : BitVec 32 := 12#32
  let arg0 : BitVec 32 := BitVec.ofNat 32 (i 0).val
  let v314 : BitVec 32 := Scalar.addi c12_i32_224 arg0
  let c3840_i32_225 : BitVec 32 := 3840#32
  let v315 : BitVec 32 := Scalar.muli v314 c3840_i32_225
  let v316 : BitVec 32 := Scalar.addi c16384_i32_226 v315
  v316
def k0_mult29 (i : grid0.Coords) : BitVec 32 :=
  let c16384_i32_235 : BitVec 32 := 16384#32
  let c12_i32_233 : BitVec 32 := 12#32
  let arg0 : BitVec 32 := BitVec.ofNat 32 (i 0).val
  let v326 : BitVec 32 := Scalar.addi c12_i32_233 arg0
  let c3840_i32_234 : BitVec 32 := 3840#32
  let v327 : BitVec 32 := Scalar.muli v326 c3840_i32_234
  let v328 : BitVec 32 := Scalar.addi c16384_i32_235 v327
  v328
def k0_mult30 (i : grid0.Coords) : BitVec 32 :=
  let c16384_i32_244 : BitVec 32 := 16384#32
  let c12_i32_242 : BitVec 32 := 12#32
  let arg0 : BitVec 32 := BitVec.ofNat 32 (i 0).val
  let v338 : BitVec 32 := Scalar.addi c12_i32_242 arg0
  let c3840_i32_243 : BitVec 32 := 3840#32
  let v339 : BitVec 32 := Scalar.muli v338 c3840_i32_243
  let v340 : BitVec 32 := Scalar.addi c16384_i32_244 v339
  v340
def k0_mult31 (i : grid0.Coords) : BitVec 32 :=
  let c16384_i32_252 : BitVec 32 := 16384#32
  let c16_i32 : BitVec 32 := 16#32
  let arg0 : BitVec 32 := BitVec.ofNat 32 (i 0).val
  let v350 : BitVec 32 := Scalar.addi c16_i32 arg0
  let c3840_i32_251 : BitVec 32 := 3840#32
  let v351 : BitVec 32 := Scalar.muli v350 c3840_i32_251
  let v352 : BitVec 32 := Scalar.addi c16384_i32_252 v351
  v352
def k0_mult32 (i : grid0.Coords) : BitVec 32 :=
  let c16384_i32_261 : BitVec 32 := 16384#32
  let c14_i32_259 : BitVec 32 := 14#32
  let arg0 : BitVec 32 := BitVec.ofNat 32 (i 0).val
  let v362 : BitVec 32 := Scalar.addi c14_i32_259 arg0
  let c3840_i32_260 : BitVec 32 := 3840#32
  let v363 : BitVec 32 := Scalar.muli v362 c3840_i32_260
  let v364 : BitVec 32 := Scalar.addi c16384_i32_261 v363
  v364
def k0_mult33 (i : grid0.Coords) : BitVec 32 :=
  let c16384_i32_270 : BitVec 32 := 16384#32
  let c14_i32_268 : BitVec 32 := 14#32
  let arg0 : BitVec 32 := BitVec.ofNat 32 (i 0).val
  let v374 : BitVec 32 := Scalar.addi c14_i32_268 arg0
  let c3840_i32_269 : BitVec 32 := 3840#32
  let v375 : BitVec 32 := Scalar.muli v374 c3840_i32_269
  let v376 : BitVec 32 := Scalar.addi c16384_i32_270 v375
  v376
def k0_mult34 (i : grid0.Coords) : BitVec 32 :=
  let c16384_i32_279 : BitVec 32 := 16384#32
  let c14_i32_277 : BitVec 32 := 14#32
  let arg0 : BitVec 32 := BitVec.ofNat 32 (i 0).val
  let v386 : BitVec 32 := Scalar.addi c14_i32_277 arg0
  let c3840_i32_278 : BitVec 32 := 3840#32
  let v387 : BitVec 32 := Scalar.muli v386 c3840_i32_278
  let v388 : BitVec 32 := Scalar.addi c16384_i32_279 v387
  v388
def k0_mult35 (i : grid0.Coords) : BitVec 32 :=
  let c16384_i32_287 : BitVec 32 := 16384#32
  let c18_i32 : BitVec 32 := 18#32
  let arg0 : BitVec 32 := BitVec.ofNat 32 (i 0).val
  let v398 : BitVec 32 := Scalar.addi c18_i32 arg0
  let c3840_i32_286 : BitVec 32 := 3840#32
  let v399 : BitVec 32 := Scalar.muli v398 c3840_i32_286
  let v400 : BitVec 32 := Scalar.addi c16384_i32_287 v399
  v400
def k0_mult36 (i : grid0.Coords) : BitVec 32 :=
  let c16384_i32_296 : BitVec 32 := 16384#32
  let c16_i32_294 : BitVec 32 := 16#32
  let arg0 : BitVec 32 := BitVec.ofNat 32 (i 0).val
  let v410 : BitVec 32 := Scalar.addi c16_i32_294 arg0
  let c3840_i32_295 : BitVec 32 := 3840#32
  let v411 : BitVec 32 := Scalar.muli v410 c3840_i32_295
  let v412 : BitVec 32 := Scalar.addi c16384_i32_296 v411
  v412
def k0_mult37 (i : grid0.Coords) : BitVec 32 :=
  let c16384_i32_305 : BitVec 32 := 16384#32
  let c16_i32_303 : BitVec 32 := 16#32
  let arg0 : BitVec 32 := BitVec.ofNat 32 (i 0).val
  let v422 : BitVec 32 := Scalar.addi c16_i32_303 arg0
  let c3840_i32_304 : BitVec 32 := 3840#32
  let v423 : BitVec 32 := Scalar.muli v422 c3840_i32_304
  let v424 : BitVec 32 := Scalar.addi c16384_i32_305 v423
  v424
def k0_mult38 (i : grid0.Coords) : BitVec 32 :=
  let c16384_i32_314 : BitVec 32 := 16384#32
  let c18_i32_312 : BitVec 32 := 18#32
  let arg0 : BitVec 32 := BitVec.ofNat 32 (i 0).val
  let v434 : BitVec 32 := Scalar.addi c18_i32_312 arg0
  let c3840_i32_313 : BitVec 32 := 3840#32
  let v435 : BitVec 32 := Scalar.muli v434 c3840_i32_313
  let v436 : BitVec 32 := Scalar.addi c16384_i32_314 v435
  v436
def k0_mult39 (i : grid0.Coords) : BitVec 32 :=
  let c16384_i32_323 : BitVec 32 := 16384#32
  let c18_i32_321 : BitVec 32 := 18#32
  let arg0 : BitVec 32 := BitVec.ofNat 32 (i 0).val
  let v446 : BitVec 32 := Scalar.addi c18_i32_321 arg0
  let c3840_i32_322 : BitVec 32 := 3840#32
  let v447 : BitVec 32 := Scalar.muli v446 c3840_i32_322
  let v448 : BitVec 32 := Scalar.addi c16384_i32_323 v447
  v448
def k0_mult40 (i : grid0.Coords) : BitVec 32 :=
  let c16384_i32_332 : BitVec 32 := 16384#32
  let c16_i32_330 : BitVec 32 := 16#32
  let arg0 : BitVec 32 := BitVec.ofNat 32 (i 0).val
  let v458 : BitVec 32 := Scalar.addi c16_i32_330 arg0
  let c3840_i32_331 : BitVec 32 := 3840#32
  let v459 : BitVec 32 := Scalar.muli v458 c3840_i32_331
  let v460 : BitVec 32 := Scalar.addi c16384_i32_332 v459
  v460
def k0_cond1 (i : grid0.Coords) : BitVec 1 :=
  let arg0 : BitVec 32 := BitVec.ofNat 32 (i 0).val
  let c0_i32_339 : BitVec 32 := 0#32
  let v470 : BitVec 1 := Scalar.cmpi .eq arg0 c0_i32_339
  let v471 : BitVec 32 := Scalar.extui v470
  let c0_i32_340 : BitVec 32 := 0#32
  let v472 : BitVec 1 := Scalar.cmpi .ne v471 c0_i32_340
  v472

def k0_mult41 (i : grid0.Coords) : BitVec 32 :=
  let c16384_i32_353 : BitVec 32 := 16384#32
  let c20_i32 : BitVec 32 := 20#32
  let arg0 : BitVec 32 := BitVec.ofNat 32 (i 0).val
  let v488 : BitVec 32 := Scalar.addi c20_i32 arg0
  let c3840_i32_352 : BitVec 32 := 3840#32
  let v489 : BitVec 32 := Scalar.muli v488 c3840_i32_352
  let v490 : BitVec 32 := Scalar.addi c16384_i32_353 v489
  v490
def k0_off2 (i : grid0.Coords) : Fin 2 → Nat :=
  let arg1 : BitVec 32 := BitVec.ofNat 32 (i 1).val
  let c8_i32 : BitVec 32 := 8#32
  let v0 : BitVec 32 := Scalar.muli arg1 c8_i32
  let v1 : BitVec 32 := v0
  let c16384_i32_353 : BitVec 32 := 16384#32
  let c20_i32 : BitVec 32 := 20#32
  let arg0 : BitVec 32 := BitVec.ofNat 32 (i 0).val
  let v488 : BitVec 32 := Scalar.addi c20_i32 arg0
  let c3840_i32_352 : BitVec 32 := 3840#32
  let v489 : BitVec 32 := Scalar.muli v488 c3840_i32_352
  let v490 : BitVec 32 := Scalar.addi c16384_i32_353 v489
  let v491 : BitVec 32 := v490
  ![v1.toNat, v491.toNat]
def k0_mult42 (i : grid0.Coords) : BitVec 32 :=
  let c16384_i32_362 : BitVec 32 := 16384#32
  let c20_i32_360 : BitVec 32 := 20#32
  let arg0 : BitVec 32 := BitVec.ofNat 32 (i 0).val
  let v500 : BitVec 32 := Scalar.addi c20_i32_360 arg0
  let c3840_i32_361 : BitVec 32 := 3840#32
  let v501 : BitVec 32 := Scalar.muli v500 c3840_i32_361
  let v502 : BitVec 32 := Scalar.addi c16384_i32_362 v501
  v502
def k0_mult43 (i : grid0.Coords) : BitVec 32 :=
  let c16384_i32_371 : BitVec 32 := 16384#32
  let c20_i32_369 : BitVec 32 := 20#32
  let arg0 : BitVec 32 := BitVec.ofNat 32 (i 0).val
  let v512 : BitVec 32 := Scalar.addi c20_i32_369 arg0
  let c3840_i32_370 : BitVec 32 := 3840#32
  let v513 : BitVec 32 := Scalar.muli v512 c3840_i32_370
  let v514 : BitVec 32 := Scalar.addi c16384_i32_371 v513
  v514
def k0_mult44 (i : grid0.Coords) : BitVec 32 :=
  let c16384_i32_380 : BitVec 32 := 16384#32
  let c20_i32_378 : BitVec 32 := 20#32
  let arg0 : BitVec 32 := BitVec.ofNat 32 (i 0).val
  let v524 : BitVec 32 := Scalar.addi c20_i32_378 arg0
  let c3840_i32_379 : BitVec 32 := 3840#32
  let v525 : BitVec 32 := Scalar.muli v524 c3840_i32_379
  let v526 : BitVec 32 := Scalar.addi c16384_i32_380 v525
  v526
def k0_cond2 (i : grid0.Coords) : BitVec 1 :=
  let arg0 : BitVec 32 := BitVec.ofNat 32 (i 0).val
  let c1_i32_341 : BitVec 32 := 1#32
  let v473 : BitVec 1 := Scalar.cmpi .eq arg0 c1_i32_341
  let v474 : BitVec 32 := Scalar.extui v473
  let c0_i32_342 : BitVec 32 := 0#32
  let v475 : BitVec 1 := Scalar.cmpi .ne v474 c0_i32_342
  v475

def k0_off3 (i : grid0.Coords) : Fin 2 → Nat :=
  let arg1 : BitVec 32 := BitVec.ofNat 32 (i 1).val
  let c8_i32 : BitVec 32 := 8#32
  let v0 : BitVec 32 := Scalar.muli arg1 c8_i32
  let v1 : BitVec 32 := v0
  let c97024_i32 : BitVec 32 := 97024#32
  ![v1.toNat, 97024]
def k0_mult45 (i : grid0.Coords) : BitVec 32 :=
  let c16384_i32_345 : BitVec 32 := 16384#32
  let c18_i32_343 : BitVec 32 := 18#32
  let arg0 : BitVec 32 := BitVec.ofNat 32 (i 0).val
  let v476 : BitVec 32 := Scalar.addi c18_i32_343 arg0
  let c3840_i32_344 : BitVec 32 := 3840#32
  let v477 : BitVec 32 := Scalar.muli v476 c3840_i32_344
  let v478 : BitVec 32 := Scalar.addi c16384_i32_345 v477
  v478
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S2x8x3840_S1x8x3840_0_0_0 : ∀ a, (![0, 0, 0] : Fin 3 → Nat) a + S1x8x3840.size a ≤ S2x8x3840.size a
  squeezes_S1x8x3840_S8x3840 : S1x8x3840.Squeezes S8x3840
  inb_S2_S1_0 : ∀ a, (![0] : Fin 1 → Nat) a + S1.size a ≤ S2.size a
  squeezes_S1_S_ : S1.Squeezes S_
  inb_S2x8x3840_S1x8x3840_1_0_0 : ∀ a, (![1, 0, 0] : Fin 3 → Nat) a + S1x8x3840.size a ≤ S2x8x3840.size a
  inb_S2_S1_1 : ∀ a, (![1] : Fin 1 → Nat) a + S1.size a ≤ S2.size a
  inb_S2048x128_S2048x128_0_0 : ∀ a, (![0, 0] : Fin 2 → Nat) a + S2048x128.size a ≤ S2048x128.size a
  h_S2048x128 : 0 < S2048x128.numel
  transposes_S2048x128_p1_0_S128x2048 : S2048x128.Transposes [1, 0] S128x2048
  inb_S128x2048_S128x2048_0_0 : ∀ a, (![0, 0] : Fin 2 → Nat) a + S128x2048.size a ≤ S128x2048.size a
  h_S128x2048 : 0 < S128x2048.numel
  hcc0_scratch2 : 0 + S2.numel ≤ 10
  hcc0_scratch3 : 2 + S2.numel ≤ 10
  hcc0_scratch4 : 4 + S2.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_mult1_dvd : ∀ i : grid0.Coords, 8 ∣ (k0_mult1 i).toNat
  k0_mult2_dvd : ∀ i : grid0.Coords, 128 ∣ (k0_mult2 i).toNat
  k0_off1_inb : ∀ i : grid0.Coords, ∀ (r : Fin 10), ∀ a, (k0_off1 i (BitVec.ofNat 32 (2 * r.val))) a + S8x3840.size a ≤ S128x100000.size a
  k0_mult3_dvd : ∀ i : grid0.Coords, 128 ∣ (k0_mult3 i).toNat
  k0_mult4_dvd : ∀ i : grid0.Coords, 128 ∣ (k0_mult4 i).toNat
  k0_mult5_dvd : ∀ i : grid0.Coords, 128 ∣ (k0_mult5 i).toNat
  k0_mult6_dvd : ∀ i : grid0.Coords, 128 ∣ (k0_mult6 i).toNat
  k0_mult7_dvd : ∀ i : grid0.Coords, 128 ∣ (k0_mult7 i).toNat
  k0_mult8_dvd : ∀ i : grid0.Coords, 128 ∣ (k0_mult8 i).toNat
  k0_mult9_dvd : ∀ i : grid0.Coords, 128 ∣ (k0_mult9 i).toNat
  k0_mult10_dvd : ∀ i : grid0.Coords, 128 ∣ (k0_mult10 i).toNat
  k0_mult11_dvd : ∀ i : grid0.Coords, 128 ∣ (k0_mult11 i).toNat
  k0_mult12_dvd : ∀ i : grid0.Coords, 128 ∣ (k0_mult12 i).toNat
  k0_mult13_dvd : ∀ i : grid0.Coords, 128 ∣ (k0_mult13 i).toNat
  k0_mult14_dvd : ∀ i : grid0.Coords, 128 ∣ (k0_mult14 i).toNat
  k0_mult15_dvd : ∀ i : grid0.Coords, 128 ∣ (k0_mult15 i).toNat
  k0_mult16_dvd : ∀ i : grid0.Coords, 128 ∣ (k0_mult16 i).toNat
  k0_mult17_dvd : ∀ i : grid0.Coords, 128 ∣ (k0_mult17 i).toNat
  k0_mult18_dvd : ∀ i : grid0.Coords, 128 ∣ (k0_mult18 i).toNat
  k0_mult19_dvd : ∀ i : grid0.Coords, 128 ∣ (k0_mult19 i).toNat
  k0_mult20_dvd : ∀ i : grid0.Coords, 128 ∣ (k0_mult20 i).toNat
  k0_mult21_dvd : ∀ i : grid0.Coords, 128 ∣ (k0_mult21 i).toNat
  k0_mult22_dvd : ∀ i : grid0.Coords, 128 ∣ (k0_mult22 i).toNat
  k0_mult23_dvd : ∀ i : grid0.Coords, 128 ∣ (k0_mult23 i).toNat
  k0_mult24_dvd : ∀ i : grid0.Coords, 128 ∣ (k0_mult24 i).toNat
  k0_mult25_dvd : ∀ i : grid0.Coords, 128 ∣ (k0_mult25 i).toNat
  k0_mult26_dvd : ∀ i : grid0.Coords, 128 ∣ (k0_mult26 i).toNat
  k0_mult27_dvd : ∀ i : grid0.Coords, 128 ∣ (k0_mult27 i).toNat
  k0_mult28_dvd : ∀ i : grid0.Coords, 128 ∣ (k0_mult28 i).toNat
  k0_mult29_dvd : ∀ i : grid0.Coords, 128 ∣ (k0_mult29 i).toNat
  k0_mult30_dvd : ∀ i : grid0.Coords, 128 ∣ (k0_mult30 i).toNat
  k0_mult31_dvd : ∀ i : grid0.Coords, 128 ∣ (k0_mult31 i).toNat
  k0_mult32_dvd : ∀ i : grid0.Coords, 128 ∣ (k0_mult32 i).toNat
  k0_mult33_dvd : ∀ i : grid0.Coords, 128 ∣ (k0_mult33 i).toNat
  k0_mult34_dvd : ∀ i : grid0.Coords, 128 ∣ (k0_mult34 i).toNat
  k0_mult35_dvd : ∀ i : grid0.Coords, 128 ∣ (k0_mult35 i).toNat
  k0_mult36_dvd : ∀ i : grid0.Coords, 128 ∣ (k0_mult36 i).toNat
  k0_mult37_dvd : ∀ i : grid0.Coords, 128 ∣ (k0_mult37 i).toNat
  k0_mult38_dvd : ∀ i : grid0.Coords, 128 ∣ (k0_mult38 i).toNat
  k0_mult39_dvd : ∀ i : grid0.Coords, 128 ∣ (k0_mult39 i).toNat
  k0_mult40_dvd : ∀ i : grid0.Coords, 128 ∣ (k0_mult40 i).toNat
  k0_mult41_dvd : ∀ i : grid0.Coords, ∀ (k0_h1 : k0_cond1 i = 1#1), 128 ∣ (k0_mult41 i).toNat
  k0_off2_inb : ∀ i : grid0.Coords, ∀ (k0_h1 : k0_cond1 i = 1#1), ∀ a, (k0_off2 i) a + S8x3840.size a ≤ S128x100000.size a
  k0_mult42_dvd : ∀ i : grid0.Coords, ∀ (k0_h1 : k0_cond1 i = 1#1), 128 ∣ (k0_mult42 i).toNat
  k0_mult43_dvd : ∀ i : grid0.Coords, ∀ (k0_h1 : k0_cond1 i = 1#1), 128 ∣ (k0_mult43 i).toNat
  k0_mult44_dvd : ∀ i : grid0.Coords, ∀ (k0_h1 : k0_cond1 i = 1#1), 128 ∣ (k0_mult44 i).toNat
  k0_off3_inb : ∀ i : grid0.Coords, ∀ (k0_h2 : k0_cond2 i = 1#1), ∀ a, (k0_off3 i) a + S8x2976.size a ≤ S128x100000.size a
  k0_mult45_dvd : ∀ i : grid0.Coords, 128 ∣ (k0_mult45 i).toNat
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hstart1_1 : ∀ (i : grid1.Coords) a, cc1_transform_2 i a * S128x2048.size a < S128x100000.size a
  hwx1_1 : ∀ i : grid1.Coords, EltTy.bits .f32 = 32 ∨ (Rect.unit (s := S128x100000) (fun a => cc1_transform_2 i a * S128x2048.size a) (fun a => (Pipeline.Clip.of (cc1_transform_2 i a) (S128x2048.size a) (S128x100000.size a)).extent (S128x2048.size a)) fun a => Pipeline.Clip.inb (Pipeline.Clip.ok_of (hstart1_1 i a))).WholeWords (EltTy.packing .f32)
  hwxs1_1 : ∀ i : grid1.Coords, EltTy.bits .f32 = 32 ∨ (Rect.unit (s := S128x2048) (fun _ => 0) (fun a => (Pipeline.Clip.of (cc1_transform_2 i a) (S128x2048.size a) (S128x100000.size a)).extent (S128x2048.size a)) fun a => (Nat.zero_add _).trans_le (Pipeline.Clip.extent_le (Pipeline.Clip.ok_of (hstart1_1 i a)))).WholeWords (EltTy.packing .f32)

variable [Facts₀]

abbrev cc0_scratch2 : DmaSems sig S2 := SemArray.consecutive 0 S2 hcc0_scratch2
abbrev cc0_scratch3 : DmaSems sig S2 := SemArray.consecutive 2 S2 hcc0_scratch3
abbrev cc0_scratch4 : DmaSems sig S2 := SemArray.consecutive 4 S2 hcc0_scratch4

abbrev win1_0 : Pipeline.Window sig grid1 :=
  Pipeline.Window.ofSpec (Memref.whole main_arg0) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_v1) S128x2048.size cc1_transform_2 reads1_1 true false 2 stage1_1 sem1_1
    hrank1 hreads1_1 hstart1_1 nbuf1_1 (Memref.isWhole_whole _) hwx1_1 hwxs1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S16384x128 : Shape := ⟨2, ![16384, 128]⟩
abbrev S128x100000 : Shape := ⟨2, ![128, 100000]⟩
abbrev S1 : Shape := ⟨1, ![1]⟩
abbrev S128x16384 : Shape := ⟨2, ![128, 16384]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x100000, .f32⟩
  | .hbm, ⟨2, _⟩ => ⟨S1, .i32⟩
  | .hbm, ⟨3, _⟩ => ⟨S128x16384, .f32⟩
  | .hbm, ⟨4, _⟩ => ⟨S_, .i32⟩
  | .hbm, ⟨5, _⟩ => ⟨S_, .i32⟩
  | .hbm, ⟨6, _⟩ => ⟨S128x100000, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_c_1 : Ref sig .tc := ⟨.hbm, 5, rfl⟩
abbrev main_v1 : Ref sig .tc := ⟨.hbm, 6, rfl⟩

abbrev nD : Nat := 1
abbrev τ : Topo := Topo.v7x

variable {F : FTy → Type} [FloatOps F]

class Facts₀ : Prop where
  transposes_S16384x128_S128x16384_1_0 : S16384x128.Transposes [1, 0] S128x16384
  updateFits_S128x100000_S128x16384 : S128x100000.Slices (fun _ => 0) S128x16384
  h_S_ : 0 < S_.numel

variable [Facts₀]

class Facts : Prop extends Facts₀ where

variable [Facts]
-- ==== Proof.Common.lean ====
/-
  Shared definitions for the run of the copy-then-transpose program.

  The program moves columns 16384‥100000 of a 128 × 100000 array into a fresh array on the SparseCores (each of the
  32 vector subcores moving an 8-row band, its column chunks of 3840 alternating between the two SparseCores, the
  21st chunk on the first SparseCore and the last 2976 columns on the second), copies that array on the host, and
  has one TensorCore pipeline overwrite columns 0‥16384 with the transpose of the other argument.

  Here: the program as the SparseCore launch theorem sees it, the resource algebra (the handshakes' rounds, the
  pipeline's rounds, the transfers' counters), the element sets of the pieces a vector subcore moves — piece
  (c, s, k) is the band of rows 8 s ‥ 8 s + 8 at the columns whose chunk number (col − 16384) / 3840 is 2 k + c —
  and what the handshakes carry.
-/
import proofs.«210814_g12945031431005_cont_9to1_m_1025_36_alg».proof.Defs
import proofs.«210814_g12945031431005_cont_9to1_m_1025_36_alg».proof.Proof.Gen.KernelIdeal
import proofs.«210814_g12945031431005_cont_9to1_m_1025_36_alg».proof.Proof.Gen.KernelIdeal.Skeleton
import proofs.«210814_g12945031431005_cont_9to1_m_1025_36_alg».proof.Proof.Gen.KernelIdeal.Launch
import proofs.«210814_g12945031431005_cont_9to1_m_1025_36_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds and the counters side by side, the right component. -/
abbrev ER : Emb (UP × Counters) (MT nD τ sig (HIx 1) (Elt F) ℕ UU ℕ) := embR
def EP : Emb UP (MT nD τ sig (HIx 1) (Elt F) ℕ UU ℕ) := (Emb.inl : Emb UP (UP × Counters)).trans ER

instance EP_landsIn : (EP : Emb UP 𝕄).LandsIn (upEmb : UEmb _ 𝕄) := by unfold EP ER embR; infer_instance

/-! ## The arrays and the pieces -/

/-- The source array, the SparseCore call's result, the program's result, the transposed argument, as locations of device `d`. -/
abbrev aLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1
abbrev kLoc (d : Dev nD) : Loc nD τ sig := (SparseCore.T d).loc main_arg0
abbrev cLoc (d : Dev nD) : Loc nD τ sig := (SparseCore.T d).loc main_c

/-- Contents of the source array read as contents of the call's result (one shape, one element type). -/
def asO (d : Dev nD) (f : Buf (Elt F) (aLoc d)) : Buf (Elt F) (oLoc d) := f
/-- Contents of the call's result read as contents of the program's result. -/
def asR (d : Dev nD) (f : Buf (Elt F) (oLoc d)) : Buf (Elt F) (rLoc d) := f

/-- The columns the TensorCore pipeline overwrites. -/
def lowSet : Finset S128x100000.Idx := Finset.univ.filter fun i => (i 1).val < 16384

/-- Piece `k` of vector subcore `s` of SparseCore `c`: rows `8 s ‥ 8 s + 8`, the columns of chunk `2 k + c`. -/
def pieceSet (c : Fin 2) (s : Fin 16) (k : Fin 11) : Finset S128x100000.Idx :=
  Finset.univ.filter fun i => (i 0).val / 8 = s.val ∧ 16384 ≤ (i 1).val ∧ ((i 1).val - 16384) / 3840 = 2 * k.val + c.val

variable (m : (ℓ : Loc nD τ sig) → Buf (Elt F) ℓ)

/-- What a vector subcore is handed: its eleven pieces of the source and of the result, at their launch contents; -/
def tileIn (d : Dev nD) (c : Fin 2) (s : Fin 16) : sProp 𝕄 :=
  bigSep Finset.univ fun k : Fin 11 => iprop((aLoc d ↦[pieceSet c s k]{fullShare} m (aLoc d)) ∗ (oLoc d ↦[pieceSet c s k]{fullShare} m (oLoc d)))
/-- and what it hands back: the result's pieces holding the source's. -/
def tileOut (d : Dev nD) (c : Fin 2) (s : Fin 16) : sProp 𝕄 :=
  bigSep Finset.univ fun k : Fin 11 => iprop((aLoc d ↦[pieceSet c s k]{fullShare} m (aLoc d)) ∗ (oLoc d ↦[pieceSet c s k]{fullShare} asO d (m (aLoc d))))

/-- The one call hands each SparseCore its sixteen subcores' pieces and takes them back. -/
def P : (K (F := F)).Pay (nD := nD) (Val := Elt F) (Name := ℕ) (U := UU) where
  st := fun q d c => match q with
    | 0 => bigSep Finset.univ fun s : Fin 16 => tileIn m d (Fin.cast nCore_zero c) s
  dn := fun q d c => match q with
    | 0 => bigSep Finset.univ fun s : Fin 16 => tileOut m d (Fin.cast nCore_zero c) s
  go := fun q d c i => match q with
    | 0 => tileIn m d (Fin.cast nCore_zero c) (Fin.cast nSub_zero i)
  td := fun q d c i => match q with
    | 0 => tileOut m d (Fin.cast nCore_zero c) (Fin.cast nSub_zero i)
  x := fun _ _ => iprop(emp)

instance P_storable : (P (F := F) m).IsStorable where
  st q d c := match q with
    | 0 => by unfold P tileIn; infer_instance
  dn q d c := match q with
    | 0 => by unfold P tileOut; infer_instance
  go q d c i := match q with
    | 0 => by unfold P tileIn; infer_instance
  td q d c i := match q with
    | 0 => by unfold P tileOut; infer_instance

end Cert.KernelIdeal.Pf

end
-- ==== Proof.Spec.lean ====
/-
  The specification both programs meet: a 128 × 100000 array whose columns 0‥16384 are replaced by the transpose of a
  16384 × 128 array, entry (r, c) with c < 16384 reading entry (c, r) of the other.
-/
import Idealize.ShloMosaic.Lib.ValueIdx

namespace Cert.Spliced

open Idealize.ShloMosaic

abbrev SA : Shape := ⟨2, ![128, 100000]⟩
abbrev SK : Shape := ⟨2, ![16384, 128]⟩

/-- The transposed index: (r, c) ↦ (c, r), for c < 16384. -/
def tIdx (i : SA.Idx) (h : (i 1).val < 16384) : SK.Idx := fun a => match a with
  | ⟨0, _⟩ => ⟨(i 1).val, h⟩
  | ⟨1, _⟩ => ⟨(i 0).val, (i 0).isLt⟩

/-- Columns below 16384 from the transpose of `x0`, the others from `x1`. -/
def spliced {α : Type} (x0 : SK.Idx → α) (x1 : SA.Idx → α) : SA.Idx → α :=
  fun i => if h : (i 1).val < 16384 then x0 (tIdx i h) else x1 i

end Cert.Spliced
-- ==== Proof.Layout.lean ====
/-
  The layout of the SparseCore call's operands: the 128 × 100000 index set is the low columns (0‥16384) together with
  the 352 pieces (SparseCore c, subcore s, piece k), pairwise disjoint — the pieces are the fibres, over the columns
  from 16384 on, of the map sending an index to its row band and its column chunk. So an array held whole is its low
  columns and its pieces, and conversely; and what one SparseCore is handed is what its sixteen subcores are handed.
-/
import proofs.«210814_g12945031431005_cont_9to1_m_1025_36_alg».proof.Proof.Common
import proofs.«210814_g12945031431005_cont_9to1_m_1025_36_alg».proof.Proof.Spec

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- What the SparseCore call leaves in its result: the launch contents on the low columns, the source's on the others. -/
def tailFn (d : Dev nD) : Buf (Elt F) (oLoc d) :=
  fun i => if (i 1).val < 16384 then m (oLoc d) i else asO d (m (aLoc d)) i

/-! ## The partition of the index set -/

/-- The piece of the triple (c, s, k). -/
def pieceOf (t : Fin 2 × Fin 16 × Fin 11) : Finset S128x100000.Idx := pieceSet t.1 t.2.1 t.2.2

theorem mem_lowSet {i : S128x100000.Idx} : i ∈ lowSet ↔ (i 1).val < 16384 := by
  unfold lowSet; rw [Finset.mem_filter]; exact ⟨fun h => h.2, fun h => ⟨Finset.mem_univ _, h⟩⟩

theorem mem_pieceSet {c : Fin 2} {s : Fin 16} {k : Fin 11} {i : S128x100000.Idx} :
    i ∈ pieceSet c s k ↔ (i 0).val / 8 = s.val ∧ 16384 ≤ (i 1).val ∧ ((i 1).val - 16384) / 3840 = 2 * k.val + c.val := by
  unfold pieceSet; rw [Finset.mem_filter]; exact ⟨fun h => h.2, fun h => ⟨Finset.mem_univ _, h⟩⟩

theorem row_lt (i : S128x100000.Idx) : (i 0).val < 128 := (i 0).isLt
theorem col_lt (i : S128x100000.Idx) : (i 1).val < 100000 := (i 1).isLt

/-- Two different triples have disjoint pieces: an index determines its band, its chunk, and so its triple. -/
theorem pieces_disjoint : ∀ t ∈ (Finset.univ : Finset (Fin 2 × Fin 16 × Fin 11)), ∀ t' ∈ (Finset.univ : Finset (Fin 2 × Fin 16 × Fin 11)),
    t ≠ t' → Disjoint (pieceOf t) (pieceOf t') := by
  intro t _ t' _ hne
  rw [Finset.disjoint_left]
  intro i hi hi'
  obtain ⟨c, s, k⟩ := t
  obtain ⟨c', s', k'⟩ := t'
  rw [pieceOf, mem_pieceSet] at hi hi'
  dsimp only at hi hi'
  apply hne
  have hc := c.isLt
  have hc' := c'.isLt
  have e1 : c = c' := Fin.ext (by omega)
  have e2 : s = s' := Fin.ext (by omega)
  have e3 : k = k' := Fin.ext (by omega)
  rw [e1, e2, e3]

/-- The low columns meet no piece. -/
theorem low_disjoint : Disjoint lowSet ((Finset.univ : Finset (Fin 2 × Fin 16 × Fin 11)).biUnion pieceOf) := by
  rw [Finset.disjoint_biUnion_right]
  intro t _
  rw [Finset.disjoint_left]
  intro i hi hi'
  rw [pieceOf, mem_pieceSet] at hi'
  rw [mem_lowSet] at hi
  omega

/-- Every index is in the low columns or in a piece: its chunk number is at most 21 since 100000 − 16384 < 22 · 3840. -/
theorem low_cover : lowSet ∪ (Finset.univ : Finset (Fin 2 × Fin 16 × Fin 11)).biUnion pieceOf = Finset.univ := by
  ext i
  simp only [Finset.mem_union, Finset.mem_biUnion, Finset.mem_univ, true_and, iff_true]
  have h0 := row_lt i
  have h1 := col_lt i
  by_cases h : (i 1).val < 16384
  · exact Or.inl (mem_lowSet.mpr h)
  · refine Or.inr ⟨(⟨((i 1).val - 16384) / 3840 % 2, by omega⟩, ⟨(i 0).val / 8, by omega⟩, ⟨((i 1).val - 16384) / 3840 / 2, by omega⟩), ?_⟩
    rw [pieceOf, mem_pieceSet]
    dsimp only
    omega

/-! ## An array held whole is its low columns and its pieces -/

/-- The pieces of a family indexed by triples, as the three nested families. -/
theorem bigSep_triples (Φ : Fin 2 → Fin 16 → Fin 11 → sProp 𝕄) :
    (bigSep Finset.univ fun t : Fin 2 × Fin 16 × Fin 11 => Φ t.1 t.2.1 t.2.2)
      = bigSep Finset.univ fun c : Fin 2 => bigSep Finset.univ fun s : Fin 16 => bigSep Finset.univ fun k : Fin 11 => Φ c s k := by
  rw [bigSep_univ_prod]
  refine bigSep_congr fun c _ => ?_
  rw [bigSep_univ_prod]

/-- The source array whole is its low columns and its pieces. -/
theorem aPts_split (d : Dev nD) (f : Buf (Elt F) (aLoc d)) :
    (aLoc d ↦{fullShare} f : sProp 𝕄)
      = iprop((aLoc d ↦[lowSet]{fullShare} f) ∗ bigSep Finset.univ fun t : Fin 2 × Fin 16 × Fin 11 => aLoc d ↦[pieceOf t]{fullShare} f) := by
  rw [← pointsTo_biUnion Finset.univ (ℓ := aLoc d) pieceOf pieces_disjoint]
  have hu : (aLoc d ↦[lowSet ∪ (Finset.univ : Finset (Fin 2 × Fin 16 × Fin 11)).biUnion pieceOf]{fullShare} f : sProp 𝕄)
      ⊣⊢ iprop((aLoc d ↦[lowSet]{fullShare} f) ∗ aLoc d ↦[(Finset.univ : Finset (Fin 2 × Fin 16 × Fin 11)).biUnion pieceOf]{fullShare} f) :=
    pointsTo_union low_disjoint
  rw [← BI.equiv_iff.mp ⟨hu.1, hu.2⟩, low_cover]

/-- The call's result whole is its low columns and its pieces. -/
theorem oPts_split (d : Dev nD) (f : Buf (Elt F) (oLoc d)) :
    (oLoc d ↦{fullShare} f : sProp 𝕄)
      = iprop((oLoc d ↦[lowSet]{fullShare} f) ∗ bigSep Finset.univ fun t : Fin 2 × Fin 16 × Fin 11 => oLoc d ↦[pieceOf t]{fullShare} f) := by
  rw [← pointsTo_biUnion Finset.univ (ℓ := oLoc d) pieceOf pieces_disjoint]
  have hu : (oLoc d ↦[lowSet ∪ (Finset.univ : Finset (Fin 2 × Fin 16 × Fin 11)).biUnion pieceOf]{fullShare} f : sProp 𝕄)
      ⊣⊢ iprop((oLoc d ↦[lowSet]{fullShare} f) ∗ oLoc d ↦[(Finset.univ : Finset (Fin 2 × Fin 16 × Fin 11)).biUnion pieceOf]{fullShare} f) :=
    pointsTo_union low_disjoint
  rw [← BI.equiv_iff.mp ⟨hu.1, hu.2⟩, low_cover]

/-! ## What the call hands over and takes back, piece by piece -/

/-- What the two SparseCores are handed: every piece of the source and of the result, at given contents of the result's. -/
theorem cores_eq (d : Dev nD) (g : Buf (Elt F) (oLoc d)) :
    (bigSep Finset.univ fun c : Fin 2 => bigSep Finset.univ fun s : Fin 16 => bigSep Finset.univ fun k : Fin 11 =>
        iprop((aLoc d ↦[pieceSet c s k]{fullShare} m (aLoc d)) ∗ (oLoc d ↦[pieceSet c s k]{fullShare} g)))
      = (iprop((bigSep Finset.univ fun t : Fin 2 × Fin 16 × Fin 11 => aLoc d ↦[pieceOf t]{fullShare} m (aLoc d))
          ∗ bigSep Finset.univ fun t : Fin 2 × Fin 16 × Fin 11 => oLoc d ↦[pieceOf t]{fullShare} g) : sProp 𝕄) := by
  rw [← bigSep_sep']
  exact (bigSep_triples (F := F) fun c s k =>
    iprop((aLoc d ↦[pieceSet c s k]{fullShare} m (aLoc d)) ∗ (oLoc d ↦[pieceSet c s k]{fullShare} g))).symm

theorem st0_eq (d : Dev nD) :
    (bigSep Finset.univ fun c : Fin ((K (F := F)).nCore 0) => (P m).st 0 d c)
      = (iprop((bigSep Finset.univ fun t : Fin 2 × Fin 16 × Fin 11 => aLoc d ↦[pieceOf t]{fullShare} m (aLoc d))
          ∗ bigSep Finset.univ fun t : Fin 2 × Fin 16 × Fin 11 => oLoc d ↦[pieceOf t]{fullShare} m (oLoc d)) : sProp 𝕄) := by
  rw [← cores_eq m d (m (oLoc d))]
  rfl

theorem dn0_eq (d : Dev nD) :
    (bigSep Finset.univ fun c : Fin ((K (F := F)).nCore 0) => (P m).dn 0 d c)
      = (iprop((bigSep Finset.univ fun t : Fin 2 × Fin 16 × Fin 11 => aLoc d ↦[pieceOf t]{fullShare} m (aLoc d))
          ∗ bigSep Finset.univ fun t : Fin 2 × Fin 16 × Fin 11 => oLoc d ↦[pieceOf t]{fullShare} asO d (m (aLoc d))) : sProp 𝕄) := by
  rw [← cores_eq m d (asO d (m (aLoc d)))]
  rfl

/-- Before the call: the two arrays whole split into their low columns and what the call hands the SparseCores. -/
theorem st_intro (d : Dev nD) :
    iprop((aLoc d ↦{fullShare} m (aLoc d)) ∗ (oLoc d ↦{fullShare} m (oLoc d)))
      ⊢ (iprop((aLoc d ↦[lowSet]{fullShare} m (aLoc d)) ∗ (oLoc d ↦[lowSet]{fullShare} m (oLoc d))
          ∗ bigSep Finset.univ fun c : Fin ((K (F := F)).nCore 0) => (P m).st 0 d c) : sProp 𝕄) := by
  rw [st0_eq, aPts_split, oPts_split]
  iintro ⟨⟨Ha, Hap⟩, Ho, Hop⟩
  isplitl [Ha]; · iexact Ha
  isplitl [Ho]; · iexact Ho
  isplitl [Hap]; · iexact Hap
  iexact Hop

/-- On the low columns the call's result keeps its launch contents; -/
theorem tail_low (d : Dev nD) :
    (oLoc d ↦[lowSet]{fullShare} m (oLoc d) : sProp 𝕄) = oLoc d ↦[lowSet]{fullShare} tailFn m d :=
  pointsTo_congr fun i hi => by
    have h : (i 1).val < 16384 := mem_lowSet.mp hi
    unfold tailFn; rw [if_pos h]

/-- on a piece, whose columns start at 16384, it holds the source's. -/
theorem tail_piece (d : Dev nD) (t : Fin 2 × Fin 16 × Fin 11) :
    (oLoc d ↦[pieceOf t]{fullShare} asO d (m (aLoc d)) : sProp 𝕄) = oLoc d ↦[pieceOf t]{fullShare} tailFn m d :=
  pointsTo_congr fun i hi => by
    rw [pieceOf, mem_pieceSet] at hi
    have h : ¬ (i 1).val < 16384 := by omega
    unfold tailFn; rw [if_neg h]

/-- After the call: what comes back joins the low columns into the two arrays whole, the result at `tailFn`. -/
theorem dn_elim (d : Dev nD) :
    iprop((aLoc d ↦[lowSet]{fullShare} m (aLoc d)) ∗ (oLoc d ↦[lowSet]{fullShare} m (oLoc d))
          ∗ bigSep Finset.univ fun c : Fin ((K (F := F)).nCore 0) => (P m).dn 0 d c)
      ⊢ (iprop((aLoc d ↦{fullShare} m (aLoc d)) ∗ (oLoc d ↦{fullShare} tailFn m d)) : sProp 𝕄) := by
  rw [dn0_eq, aPts_split, oPts_split, tail_low,
    bigSep_congr (fun t _ => tail_piece m d t)]
  iintro ⟨Ha, Ho, Hap, Hop⟩
  isplitl [Ha Hap]
  · isplitl [Ha]; · iexact Ha
    iexact Hap
  · isplitl [Ho]; · iexact Ho
    iexact Hop

/-! ## One SparseCore's share is its subcores' -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The tasks' shares are the SparseCore's, both ways (the call's operands are dealt subcore by subcore). -/
theorem vecSplit : (K (F := F)).VecSplit' (P m) 0 := by
  intro d c
  show (bigSep Finset.univ fun s : Fin 16 => tileIn m d (Fin.cast nCore_zero c) s) ⊢ |={Set.univ}=> iprop(
      (bigSep Finset.univ fun i : Fin ((K (F := F)).nSub 0) => tileIn m d (Fin.cast nCore_zero c) (Fin.cast nSub_zero i))
      ∗ ((bigSep Finset.univ fun i : Fin ((K (F := F)).nSub 0) => tileOut m d (Fin.cast nCore_zero c) (Fin.cast nSub_zero i))
          -∗ bigSep Finset.univ fun s : Fin 16 => tileOut m d (Fin.cast nCore_zero c) s))
  rw [bigSep_tasks (F := F) (fun s => tileIn m d (Fin.cast nCore_zero c) s),
    bigSep_tasks (F := F) (fun s => tileOut m d (Fin.cast nCore_zero c) s)]
  iintro H; imodintro
  isplitl [H]; · iexact H
  iintro H; iexact H

end Cert.KernelIdeal.Pf

end
-- ==== Proof.Region.lean ====
/-
  The TensorCore pipeline of the program: eight grid points, point t fetching rows 2048 t ‥ 2048 (t + 1) of the
  16384 × 128 argument into a staging buffer, the body storing its transpose into the result's staging buffer, the
  write-back putting it at columns 2048 t ‥ 2048 (t + 1) of the 128 × 100000 result. The result's window is cut at the
  array's end in principle (100000 is no multiple of 2048) but none of the eight blocks reaches it.

  Here: the proof data (what each staging buffer holds after the body at each point), what the body finds, the body's
  triple and the library's body obligation.
-/
import proofs.«210814_g12945031431005_cont_9to1_m_1025_36_alg».proof.Proof.Common

noncomputable section

namespace Cert.KernelIdeal.Pf

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig (HIx 1) (Elt F) ℕ UU ℕ

-- the memory as the region is entered
variable (M : (ℓ : Loc nD τ sig) → Buf (Elt F) ℓ)

/-! ## The proof data -/

/-- Block `t` of the argument as the fetch reads it. -/
def kblk (c : Dev nD) (t : Fin cfg1.N) : (win1_0.xblock (grid1.coords t)).Idx → Elt F .f32 :=
  (win1_0.blk t).view.read (Elt F) (M ((c : Thread nD τ).loc main_arg0))

/-- What the argument's staging buffer holds at point `t`: the block (the filler is never seen: the blocks tile the array). -/
def kblk8 (c : Dev nD) (t : Fin cfg1.N) : S2048x128.Idx → Elt F .f32 :=
  win1_0.fill (grid1.coords t) (fun _ => Scalar.ofBits .f32 0#32) (kblk M c t)
/-- What the result's staging buffer holds after the body: its transpose. -/
def tblk8 (c : Dev nD) (t : Fin cfg1.N) : S128x2048.Idx → Elt F .f32 :=
  transpose S128x2048 [1, 0] (kblk8 M c t) transposes_S2048x128_p1_0_S128x2048

/-- The wait pairs the TensorCore may have recorded: those at or below the level of the one SparseCore call's end. -/
def recB (c : Dev nD) : Set (SemLoc sig × HIx 1) := {p | (K (F := F)).lev ((c : Thread nD τ), p.1) p.2 ≤ 8}

def dats (_ : Fin 1) (c : Dev nD) : Dat τ (Elt F) (HIx 1) ℕ UU ℕ cfg1 c where
  A w := M ((cfg1.win w).arr.view.loc (c : Thread nD τ))
  after w t := match w with
    | ⟨0, _⟩ => kblk8 M c t
    | ⟨1, _⟩ => tblk8 M c t
  Φ _ := iprop(emp)
  q _ := fullShare
  owed _ := 0
  recorded _ := recB (F := F) c

abbrev 𝒱₀' : Variants := Variants.none

/-- The argument's buffer just fetched holds the block, whatever it held; -/
theorem before_0 (c : Dev nD) (t : Fin cfg1.N) (d) :
    (dats M 0 c).before (0 : Fin 2) t d = kblk8 M c t := by
  unfold Dat.before; rw [if_pos (fetch1_0 t)]
  exact (dats M 0 c).fetched_of_clip_none (0 : Fin 2) t (fun _ => rfl) d _
/-- the result's buffer holds something nothing names (every point writes it back). -/
theorem before_1 (c : Dev nD) (t : Fin cfg1.N) (d) : (dats M 0 c).before (1 : Fin 2) t d = d := by
  unfold Dat.before
  rw [if_neg (by rw [show (cfg1.win (1 : Fin 2)).fetch t = false from by
    rcases fin_N1 t with rfl | rfl | rfl | rfl | rfl | rfl | rfl | rfl <;> decide]; exact Bool.false_ne_true)]
  by_cases h0 : t.val = 0
  · rw [if_pos h0]
  · rw [if_neg h0]; exact if_pos (flush1_1 _)

/-! ## The kernel body's obligation -/

/-- The body on staging buffer `s0` of the argument's window and `s1` of the result's: a whole load, the transpose,
    a dead load of the result's buffer, a whole store — the result's buffer ends holding the transpose of the other's. -/
theorem xpose_body (c : Dev nD) (E : Set ℕ) (i : grid1.Coords) (s0 s1 : Fin 2)
    (X0 : S2048x128.Idx → Elt F .f32) (X1 : S128x2048.Idx → Elt F .f32) (Kp : PUnit → sProp 𝕄) :
    iprop((owns (c : Thread nD τ) (stage1_0 s0) fullShare X0 ∗ owns (c : Thread nD τ) (stage1_1 s1) fullShare X1)
          ∗ (iprop(owns (c : Thread nD τ) (stage1_0 s0) fullShare X0
                  ∗ owns (c : Thread nD τ) (stage1_1 s1) fullShare (transpose S128x2048 [1, 0] X0 transposes_S2048x128_p1_0_S128x2048)) -∗ Kp ⟨⟩))
      ⊢ wp frame (wpE (defs₀ (F := F)) 𝒱₀ c none) E
          (cc1__xpose_body i (stage1_0 s0) (hstage1_0 s0) (Memref.whole main_v0) (Memref.isWhole_whole _) (stage1_1 s1) (hstage1_1 s1)) Kp := by
  have hz : (![0, 0] : Fin 2 → Nat) = fun _ => 0 := funext fun a => by fin_cases a <;> rfl
  fin_cases s0 <;> fin_cases s1
  · -- the argument's buffer `cc1_stg0_0`, the result's `cc1_stg1_0`
    have hr0 : (Memref.whole cc1_stg0_0 : Memref sig .tc _ _ _).view.readAt (Elt F) (Rect.unit (s := S2048x128) ![0, 0] S2048x128.size
        inb_S2048x128_S2048x128_0_0).toLoadRect = id := funext (Memref.readAt_unit_zero (Elt F) cc1_stg0_0 hz _)
    have hw1 : ∀ f w, (((Memref.whole cc1_stg1_0).access (Rect.unit (s := S128x2048) ![0, 0] S128x2048.size inb_S128x2048_S128x2048_0_0)) :
        View sig .tc _ _ _).write (Elt F) f w Finset.univ = w := Memref.write_access_unit_zero_univ (Elt F) cc1_stg1_0 hz _
    simp only [owns_whole_eq, cc1__xpose_body_eq_skeleton]; unfold cc1__xpose_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists _; isplitr; swap; · iexact H1
      ipureintro; rw [hf0]; rfl
  · -- the argument's buffer `cc1_stg0_0`, the result's `cc1_stg1_1`
    have hr0 : (Memref.whole cc1_stg0_0 : Memref sig .tc _ _ _).view.readAt (Elt F) (Rect.unit (s := S2048x128) ![0, 0] S2048x128.size
        inb_S2048x128_S2048x128_0_0).toLoadRect = id := funext (Memref.readAt_unit_zero (Elt F) cc1_stg0_0 hz _)
    have hw1 : ∀ f w, (((Memref.whole cc1_stg1_1).access (Rect.unit (s := S128x2048) ![0, 0] S128x2048.size inb_S128x2048_S128x2048_0_0)) :
        View sig .tc _ _ _).write (Elt F) f w Finset.univ = w := Memref.write_access_unit_zero_univ (Elt F) cc1_stg1_1 hz _
    simp only [owns_whole_eq, cc1__xpose_body_eq_skeleton]; unfold cc1__xpose_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists _; isplitr; swap; · iexact H1
      ipureintro; rw [hf0]; rfl
  · -- the argument's buffer `cc1_stg0_1`, the result's `cc1_stg1_0`
    have hr0 : (Memref.whole cc1_stg0_1 : Memref sig .tc _ _ _).view.readAt (Elt F) (Rect.unit (s := S2048x128) ![0, 0] S2048x128.size
        inb_S2048x128_S2048x128_0_0).toLoadRect = id := funext (Memref.readAt_unit_zero (Elt F) cc1_stg0_1 hz _)
    have hw1 : ∀ f w, (((Memref.whole cc1_stg1_0).access (Rect.unit (s := S128x2048) ![0, 0] S128x2048.size inb_S128x2048_S128x2048_0_0)) :
        View sig .tc _ _ _).write (Elt F) f w Finset.univ = w := Memref.write_access_unit_zero_univ (Elt F) cc1_stg1_0 hz _
    simp only [owns_whole_eq, cc1__xpose_body_eq_skeleton]; unfold cc1__xpose_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists _; isplitr; swap; · iexact H1
      ipureintro; rw [hf0]; rfl
  · -- the argument's buffer `cc1_stg0_1`, the result's `cc1_stg1_1`
    have hr0 : (Memref.whole cc1_stg0_1 : Memref sig .tc _ _ _).view.readAt (Elt F) (Rect.unit (s := S2048x128) ![0, 0] S2048x128.size
        inb_S2048x128_S2048x128_0_0).toLoadRect = id := funext (Memref.readAt_unit_zero (Elt F) cc1_stg0_1 hz _)
    have hw1 : ∀ f w, (((Memref.whole cc1_stg1_1).access (Rect.unit (s := S128x2048) ![0, 0] S128x2048.size inb_S128x2048_S128x2048_0_0)) :
        View sig .tc _ _ _).write (Elt F) f w Finset.univ = w := Memref.write_access_unit_zero_univ (Elt F) cc1_stg1_1 hz _
    simp only [owns_whole_eq, cc1__xpose_body_eq_skeleton]; unfold cc1__xpose_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists _; isplitr; swap; · iexact H1
      ipureintro; rw [hf0]; rfl

/-- The library's body obligation: the argument's buffer arrives holding its block (`before_0`), the result's
    holding anything (`before_1`); the first leaves as it came, the second holding the transpose. -/
theorem body_obligation (c : Dev nD) : BodyObligationLoose (dats M 0 c) (defs₀ (F := F)) 𝒱₀ (none : HIx 1) Set.univ := fun t => by
  rw [bigSep_W1, bigSep_W1]
  simp only
  rw [show (dats M 0 c).Φ t.succ = (dats M 0 c).Φ t.castSucc from rfl,
    show (dats M 0 c).owesAt (none : HIx 1) t.succ = (dats M 0 c).owesAt (none : HIx 1) t.castSucc from rfl]
  iintro ⟨HΦ, Ho, ⟨%d0, H0⟩, ⟨%d1, H1⟩⟩
  rw [before_0 M c t d0, before_1 M c t d1]
  iapply (xpose_body (F := F) c Set.univ (grid1.coords t) (cfg1.slots t 0) (cfg1.slots t 1) (kblk8 M c t) d1 _)
  isplitl [H0 H1]
  · isplitl [H0]
    · iexact H0
    · iexact H1
  iintro ⟨H0, H1⟩
  isplitl [HΦ]; · iexact HΦ
  isplitl [Ho]; · iexact Ho
  isplitl [H0]
  · iexact H0
  · iexists tblk8 M c t
    change _ ⊢ owns (c : Thread nD τ) (stage1_1 (cfg1.slots t 1)) fullShare (win1_1.fill (grid1.coords t) (tblk8 M c t) (win1_1.cut (grid1.coords t) (tblk8 M c t)))
    rw [win1_1.fill_cut]
    exact BI.Entails.refl _

/-! ## The region, around the TensorCore's state -/

/-- The prefetched tables' admissible contents: no table. -/
abbrev adm : (p : Fin 1) → (pcfgs (F := F) p).Adm := fun p => (cfgs p).toPCfg_adm
/-- The levels are the SparseCore launch's. -/
abbrev Lk : GSem nD τ sig → Finset (HIx 1) := (K (F := F)).L
abbrev lvk : GSem nD τ sig → HIx 1 → ℕ := (K (F := F)).lev

/-- The TensorCore owes nothing, its recorded waits at or below the SparseCore call's end. -/
abbrev Rr (c : Dev nD) : sProp 𝕄 := Pipeline.owesWithin c (0 : CellTallies nD τ sig (HIx 1)) (recB (F := F) c)

/-- The TensorCore's arrays as the region finds them. -/
abbrev Vm (c : Dev nD) : (b : Ref sig .tc) → Buf (Elt F) ((c : Thread nD τ).loc b) := fun b => M ((c : Thread nD τ).loc b)

/-- What bypasses the region: the three arrays that are no window's. -/
abbrev Zr (c : Dev nD) : sProp 𝕄 :=
  iprop((((c : Thread nD τ).loc main_arg1) ↦{fullShare} Vm M c main_arg1) ∗ (((c : Thread nD τ).loc main_c) ↦{fullShare} Vm M c main_c)
    ∗ (((c : Thread nD τ).loc main_v0) ↦{fullShare} Vm M c main_v0))

/-- What the region leaves: its two arrays at their final contents, the three others. -/
abbrev Tn (c : Dev nD) : sProp 𝕄 := iprop((dats M 0 c).arrays ((dats M 0 c).arrAt · cfg1.N) ∗ Zr M c)

set_option backward.isDefEq.respectTransparency.types false in
/-- The region: the launch's layout, no semaphore of the kernel's own, the body obligation; entered from the
    TensorCore's arrays whole and its `owes`, left with the two windows' arrays at their final contents. -/
def reg : Pipeline.RegionSeg (pcfgs (F := F)) adm (dats M) (none : HIx 1) defs₀ 𝒱₀ (Lk (F := F)) (lvk (F := F)) 0 where
  win := launch1.win.to₀
  block_pos := launch1.block_pos
  stage_whole := launch1.stage_whole
  K := PEmpty
  osem := fun k => k.elim
  ho := Pipeline.OwnSemFacts.none _
  hbody c := body_obligation M c
  hwaits := Pipeline.hwaits_of_owed_zero _ _ _ _ (Lk (F := F)) (lvk (F := F)) 0 fun _ _ => rfl
  pre c := iprop(unscopedBufs c (Vm M c) ∗ Rr (F := F) c)
  post c := iprop(Tn M c ∗ Pipeline.owesWithin c (0 : CellTallies nD τ sig (HIx 1)) ((dats M 0 c).bound none (Fin.last cfg1.N)))
  X c := iprop(emp)
  Y c := iprop(emp)
  Z c := Zr M c
  hentry c := by
    have hsplit := (Pipeline.arrays_of_unscopedBufs (pcfgs (F := F)) adm (dats M) launch1.win launch1.arr_whole c
      ((dats M 0 c).share_full fun _ => rfl) (Vm M c) fun _ => rfl).trans (sep_mono .rfl (Entails.of_eq (unscopedRest1_eq c (Vm M c))))
    show iprop((unscopedBufs c (Vm M c) ∗ Rr (F := F) c) ∗ _ ∗ _) ⊢ _
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr; · iempintro
    iexact Hz
  hin c := by
    show _ ⊢ (iprop(emp) : sProp 𝕄)
    iintro -; iempintro
  hout c := by
    rw [Pipeline.ownSems0_none, scopedRest1_eq]
    show (iprop(emp) : sProp 𝕄) ⊢ _
    iintro -; isplitr; · iempintro
    isplitr <;> iempintro
  hexit c := by
    iintro ⟨Ha, HO, -, HZ⟩
    imodintro
    isplitr [HO]
    · isplitl [Ha]; · iexact Ha
      iexact HZ
    · iexact HO

end Cert.KernelIdeal.Pf

end
-- ==== Proof.Main.lean ====
/-
  The run of the whole program: the launch element, @main on the TensorCore — the constant, the SparseCore call, the
  host copy, the pipeline's region —, how the final memory reads the claim, and the launch theorem's application.
-/
import proofs.«210814_g12945031431005_cont_9to1_m_1025_36_alg».proof.Proof.Common
import proofs.«210814_g12945031431005_cont_9to1_m_1025_36_alg».proof.Proof.Spec
import proofs.«210814_g12945031431005_cont_9to1_m_1025_36_alg».proof.Proof.Layout
import proofs.«210814_g12945031431005_cont_9to1_m_1025_36_alg».proof.Proof.Region

noncomputable section

namespace Cert.KernelIdeal.Pf

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch element -/

/-- The handshakes' rounds, the pipeline's staging cells' rounds and duty tokens, no counter yet. -/
def u₀ : UU := (initOf (K (F := F)).hsCells (K (F := F)).hsToks,
  (initOf (Pipeline.cells cfgs cellOf_inj) (Pipeline.launchToks cfgs cellOf_inj), 1))

/-- What @main's proof starts from on device `d`: the pipeline's cells' ghost state and its duty tokens. -/
def G (d : Dev nD) : sProp 𝕄 :=
  iprop((bigSep Finset.univ fun p : Fin 1 => Pipeline.cellsGhost cfgs (EP (F := F)) p d)
    ∗ bigSep Finset.univ fun p : Fin 1 => Pipeline.toksInit cfgs (EP (F := F)) p d)

omit m in
theorem bigSep_emp' {I : Type} (s : Finset I) : (bigSep s fun _ => iprop(emp)) = (iprop(emp) : sProp 𝕄) := bigSep_emp_const s

omit m in
/-- The pipeline's rounds and the counters, owned side by side, owned apart. -/
theorem own_split (a : UP) (b : Counters) :
    (BI.own (ER (F := F) (a, b)) : sProp 𝕄)
      ⊢ iprop(BI.own (EP (F := F) a) ∗ BI.own (((Emb.inr : Emb Counters (UP × Counters)).trans (ER (F := F))) b)) :=
  own_pair_emb (ER (F := F)) a b

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_split (F := F) _ _) $$ HR
  icases H2 with ⟨HP, -⟩
  imod (Pipeline.fund_ghost cfgs (EP (F := F)) cellOf_inj) $$ HP with ⟨Hg, Ht⟩
  imodintro
  isplitl [HH]; · iexact HH
  isplitl [Hg Ht]
  · unfold G; rw [bigSep_sep']
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev k' : DevRef τ sig := Proc.devRef .tc (main_arg0 : Ref sig .tc)
abbrev a' : DevRef τ sig := Proc.devRef .tc (main_arg1 : Ref sig .tc)
abbrev c' : DevRef τ sig := Proc.devRef .tc (main_c : Ref sig .tc)
abbrev o' : DevRef τ sig := Proc.devRef .tc (main_v0 : Ref sig .tc)
abbrev r' : DevRef τ sig := Proc.devRef .tc (main_v1 : Ref sig .tc)
/-- The TensorCore's arrays, all unscoped. -/
abbrev S5 : Finset (DevRef τ sig) := {k', a', c', o', r'}
abbrev opC : HloOp τ sig (Elt F) := StableHlo.nullary main_c (constantI S1 32 16384#32)
abbrev opI : HloOp τ sig (Elt F) := StableHlo.unary main_v0 main_v1 id

omit m in
theorem held_S5 (d : Dev nD) (W : Valuation τ sig (Elt F)) :
    (held (T d) S5 W : sProp 𝕄) = iprop((kLoc d ↦{fullShare} W k') ∗ (aLoc d ↦{fullShare} W a') ∗ (cLoc d ↦{fullShare} W c')
      ∗ (oLoc d ↦{fullShare} W o') ∗ (rLoc d ↦{fullShare} W r')) := by
  unfold held S5
  rw [SparseCore.bigSep_insert' (by decide), SparseCore.bigSep_insert' (by decide), SparseCore.bigSep_insert' (by decide),
    SparseCore.bigSep_insert' (by decide), bigSep_singleton]

omit m in
theorem unscopedBufs_eq (d : Dev nD) (W : (b : Ref sig .tc) → Buf (Elt F) ((d.tc : Thread nD τ).loc b)) :
    (unscopedBufs d W : sProp 𝕄) = iprop((kLoc d ↦{fullShare} W main_arg0) ∗ (aLoc d ↦{fullShare} W main_arg1) ∗ (cLoc d ↦{fullShare} W main_c)
      ∗ (oLoc d ↦{fullShare} W main_v0) ∗ (rLoc d ↦{fullShare} W main_v1)) := by
  unfold unscopedBufs
  rw [show (Finset.univ.filter fun b : Ref sig .tc => ¬ b.isScoped) = {main_arg0, main_arg1, main_c, main_v0, main_v1} by decide,
    SparseCore.bigSep_insert' (by decide), SparseCore.bigSep_insert' (by decide), SparseCore.bigSep_insert' (by decide),
    SparseCore.bigSep_insert' (by decide), bigSep_singleton]

/-- The launch valuation; after the constant; after the SparseCore call (its result at `tailFn`); after the host copy. -/
def V0 (d : Dev nD) : Valuation τ sig (Elt F) := fun b => m (d, b)
def V1 (d : Dev nD) : Valuation τ sig (Elt F) := (opC (F := F)).result (V0 m d)
def V2 (d : Dev nD) : Valuation τ sig (Elt F) := Function.update (V1 m d) o' (tailFn m d)
def V3 (d : Dev nD) : Valuation τ sig (Elt F) := (opI (F := F)).result (V2 m d)
/-- The memory as the pipeline's region finds it. -/
def M3 : (ℓ : Loc nD τ sig) → Buf (Elt F) ℓ := fun ℓ => V3 m ℓ.1 ℓ.2

theorem unscoped_held (d : Dev nD) : (unscopedBufs d (fun b => m ((SparseCore.T d).loc b)) : sProp 𝕄) = held (T d) S5 (V0 m d) := by
  rw [unscopedBufs_eq, held_S5]; rfl

theorem hC : (opC (F := F)).bufs ⊆ S5 := show ({c'} : Finset (DevRef τ sig)) ⊆ S5 by decide
theorem hI : (opI (F := F)).bufs ⊆ S5 := show ({o', r'} : Finset (DevRef τ sig)) ⊆ S5 by decide

theorem rC_k (d : Dev nD) : (opC (F := F)).result (V0 m d) k' = m (kLoc d) := (opC (F := F)).result_of_not_mem (V0 m d) (b := k') (show k' ∉ ({c'} : Finset (DevRef τ sig)) by decide)
theorem rC_a (d : Dev nD) : (opC (F := F)).result (V0 m d) a' = m (aLoc d) := (opC (F := F)).result_of_not_mem (V0 m d) (b := a') (show a' ∉ ({c'} : Finset (DevRef τ sig)) by decide)
theorem rC_o (d : Dev nD) : (opC (F := F)).result (V0 m d) o' = m (oLoc d) := (opC (F := F)).result_of_not_mem (V0 m d) (b := o') (show o' ∉ ({c'} : Finset (DevRef τ sig)) by decide)
theorem V2_k (d : Dev nD) : V2 m d k' = m (kLoc d) := (Function.update_of_ne (show k' ≠ o' by decide) _ _).trans (rC_k m d)
theorem V2_a (d : Dev nD) : V2 m d a' = m (aLoc d) := (Function.update_of_ne (show a' ≠ o' by decide) _ _).trans (rC_a m d)
theorem V2_c (d : Dev nD) : V2 m d c' = (opC (F := F)).result (V0 m d) c' := Function.update_of_ne (show c' ≠ o' by decide) _ _
theorem V2_o (d : Dev nD) : V2 m d o' = tailFn m d := Function.update_self _ _ _
theorem V2_r (d : Dev nD) : V2 m d r' = (opC (F := F)).result (V0 m d) r' := Function.update_of_ne (show r' ≠ o' by decide) _ _

variable [FloatOps F]

/-- What @main leaves the claim: the pipeline's two arrays at their final contents, the three others. -/
def FIN (d : Dev nD) : sProp 𝕄 := Tn (M3 m) d

theorem held_unscoped (d : Dev nD) : (held (T d) S5 ((opI (F := F)).result (V2 m d)) : sProp 𝕄) = unscopedBufs d (Vm (M3 m) d) := by
  rw [held_S5, unscopedBufs_eq]; rfl

/-- The TensorCore's state after the one call, but for what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit m in
/-- After its one call the TensorCore owes nothing. -/
theorem tcSt_eq (d : Dev nD) :
    ((K (F := F)).tcSt EH d 1 : sProp 𝕄)
      = iprop((∃ W, ⌜(K (F := F)).WBelow (T d) W (8 * 1)⌝ ∗ owes (T d) (0 : CellTallies nD τ sig (HIx 1)) W) ∗ tcRest (F := F) d) := by
  unfold SparseCore.Cfg.tcSt tcRest
  rw [(K (F := F)).Otc_end d (le_refl 1)]

omit m in
/-- The region's call as @main spells it is the pipeline program's call, lifted. -/
theorem call_eq :
    (Prog.lift (.customCall (SparseCore.inner (Pipeline.entry 0)) ()) :
        Prog (TpuEff nD τ sig (Elt F) (SparseCore.Sig (ΛP (F := F)) 1) .tc) PUnit)
      = SparseCore.liftProg (Prog.op (.customCall (Pipeline.entry 0) ()) fun _ => .ret ⟨⟩) := rfl

set_option backward.isDefEq.respectTransparency.types false in
set_option maxHeartbeats 1000000 in
omit m in
/-- The pipeline's region on the TensorCore of `d`, inside the SparseCore program: from the arrays whole at `M`, what the
    TensorCore owes and the pipeline's ghost state, to the region's post. -/
theorem region_wp (M : (ℓ : Loc nD τ sig) → Buf (Elt F) ℓ) (d : Dev nD) (Φ : PUnit → sProp 𝕄) :
    iprop(levAts (Lk (F := F)) (lvk (F := F)) ∗ boundary (T d) ∗ (unscopedBufs d (Vm M d) ∗ Rr (F := F) d)
        ∗ Pipeline.cellsGhost cfgs (EP (F := F)) 0 d ∗ Pipeline.toksInit cfgs (EP (F := F)) 0 d
        ∗ (iprop(boundary (T d) ∗ (reg M).post d) -∗ Φ ⟨⟩))
      ⊢ wp frame (wpE ((K (F := F)).defs (D (F := F))) 𝒱 (T d) none) Set.univ
          (Prog.lift (.customCall (SparseCore.inner (Pipeline.entry 0)) ())) Φ := by
  rw [call_eq]
  refine BIBase.Entails.trans ?_ ((K (F := F)).wp_liftProg (D (F := F)) 𝒱 (T d) Set.univ none _ _)
  iintro ⟨#Hlv, Hb, Hpre, Hg, Ht, Hk⟩
  iapply (Pipeline.RegionSeg.wp (pcfgs (F := F)) adm (dats M) (none : HIx 1) cellOf_inj (EP (F := F)) defs₀ 𝒱₀ (Lk (F := F)) (lvk (F := F))
    (reg M) d none (fun _ h => nomatch h) (fun _ => .ret ⟨⟩) Φ)
  isplitl [Hk]
  · iintro H; rw [wp_ret]; imodintro; iapply Hk; iexact H
  isplitl [Hb]; · iexact Hb
  isplitl [Hpre]
  · iapply (show (iprop(unscopedBufs d (Vm M d) ∗ Rr (F := F) d) : sProp 𝕄) ⊢ (reg M).pre d from .rfl)
    iexact Hpre
  isplitr; · iexact Hlv
  isplitl [Hg] <;> iassumption

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes FIN
  rw [unscoped_held]
  simp only [main, wp_bind, wp_pure]
  iintro ⟨#Hctx, Hst, ⟨Hb, Hheld, -, -⟩, HG⟩
  -- the constant
  iapply (wp_hlo_within 𝒱 (SparseCore.T d) none Set.univ (op := opC) (S := S5) hC (V := V0 m d)) $$ [Hb Hheld]
  · isplitl [Hb]; · iexact Hb
    iexact Hheld
  iintro ⟨Hb, Hheld⟩
  rw [wp_ret]
  ihave Hh := (Entails.of_eq (held_S5 (F := F) d _)) $$ Hheld
  icases Hh with ⟨Hk, Ha, Hc, Ho, Hr⟩
  imodintro
  -- the SparseCore call: the two arrays' high columns to the tiles and back
  rw [rC_a m d, rC_o m d]
  ihave Hs := (st_intro m d) $$ [Ha Ho]
  · isplitl [Ha] <;> iassumption
  icases Hs with ⟨Hal, Hol, Hst0⟩
  iapply ((K (F := F)).wp_run (D (F := F)) 𝒱 (EH := EH) (P := P m) κ d 0) $$ [Hst Hst0 Hb Hk Hc Hr Hal Hol HG]
  isplitr; · iexact Hctx
  isplitl [Hst]; · iexact Hst
  isplitl [Hst0]; · iexact Hst0
  iintro ⟨Hst, Hdn⟩
  ihave Hj := (dn_elim m d) $$ [Hal Hol Hdn]
  · isplitl [Hal]; · iexact Hal
    isplitl [Hol] <;> iassumption
  icases Hj with ⟨Ha, Ho⟩
  -- the host copy of the call's result into the program's result
  iapply (wp_hlo_within 𝒱 (SparseCore.T d) none Set.univ (op := opI) (S := S5) hI (V := V2 m d)) $$ [Hb Hk Ha Hc Ho Hr]
  · isplitl [Hb]; · iexact Hb
    rw [held_S5, V2_k, V2_a, V2_c, V2_o, V2_r, rC_k]
    isplitl [Hk]; · iexact Hk
    isplitl [Ha]; · iexact Ha
    isplitl [Hc]; · iexact Hc
    isplitl [Ho]; · iexact Ho
    iexact Hr
  iintro ⟨Hb, Hheld⟩
  rw [wp_ret]
  imodintro
  -- the pipeline's region, from the arrays whole and what the TensorCore owes
  ihave Hub := (Entails.of_eq (held_unscoped m d)) $$ Hheld
  ihave Hst' := (Entails.of_eq (show ((K (F := F)).tcSt EH d ((0 : Fin 1).val + 1) : sProp 𝕄) = _ from tcSt_eq (F := F) d)) $$ Hst
  icases Hst' with ⟨⟨%W, %hW, HO⟩, Hrest⟩
  ihave Hlev := (SparseCore.Cfg.ctx_levAts κ) $$ Hctx
  unfold G
  rw [show (Finset.univ : Finset (Fin 1)) = {0} from rfl, bigSep_singleton, bigSep_singleton]
  icases HG with ⟨Hg, Ht⟩
  iapply (region_wp (F := F) (M3 m) d _) $$ [Hlev Hb Hub HO Hg Ht Hrest]
  isplitl [Hlev]; · iexact Hlev
  isplitl [Hb]; · iexact Hb
  isplitl [Hub HO]
  · isplitl [Hub]; · iexact Hub
    iexists W; isplitr
    · ipureintro; exact fun p hp => hW p hp
    · iexact HO
  isplitl [Hg]; · iexact Hg
  isplitl [Ht]; · iexact Ht
  iintro ⟨-, Hpost⟩
  ihave Hp := (show (reg (M3 m)).post d ⊢ iprop(Tn (M3 m) d ∗ Pipeline.owesWithin d (0 : CellTallies nD τ sig (HIx 1)) ((dats (M3 m) 0 d).bound none (Fin.last cfg1.N))) from .rfl) $$ Hpost
  icases Hp with ⟨HT, ⟨%W', %hW', HO⟩⟩
  imodintro
  isplitl [HO Hrest]
  · iapply (Entails.of_eq (tcSt_eq (F := F) d).symm)
    isplitl [HO]
    · iexists W'; isplitr
      · ipureintro
        intro p hp
        rcases hW' hp with h | ⟨w, s, rfl⟩
        · exact h
        · exact le_of_eq_of_le ((K (F := F)).lev_none _) (Nat.zero_le _)
      · iexact HO
    · iexact Hrest
  · iexact HT

end Cert.KernelIdeal.Pf

end
-- ==== Proof.Tile1.lean ====
import proofs.«210814_g12945031431005_cont_9to1_m_1025_36_alg».proof.Proof.Common

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The kernel's memrefs as the body table passes them. -/
abbrev aV : Memref sig .scVector .hbm S128x100000 .f32 := Memref.whole main_arg1_scv
abbrev oV : Memref sig .scVector .hbm S128x100000 .f32 := Memref.whole main_v0_scv
abbrev sB : Memref sig .scVector .vmem S2x8x3840 .f32 := Memref.whole cc0_scratch0
abbrev sT : Memref sig .scVector .vmem S8x2976 .f32 := Memref.whole cc0_scratch1

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-! ## The rectangles the program slices are the pieces -/

/-- Chunk `r` of the double-buffered run, as the program slices it. -/
abbrev rK (L : grid0.Coords) (r : Fin 10) : Rect S128x100000 :=
  Rect.unit (s := S128x100000) (k0_off1 L (BitVec.ofNat 32 (2 * r.val))) S8x3840.size (k0_off1_inb L r)

theorem set_rK (L : grid0.Coords) (r : Fin 10) : (rK L r).set = pieceSet (cL L) (jL L) ⟨r.val, by omega⟩ := by
  ext i
  have h0 : (L 0).val < 2 := (L 0).isLt
  have h1 : (L 1).val < 16 := (L 1).isLt
  have hi0 : (i 0).val < 128 := (i 0).isLt
  have hi1 : (i 1).val < 100000 := (i 1).isLt
  have hr : r.val < 10 := r.isLt
  simp only [Rect.mem_set_unit, pieceSet, Finset.mem_filter, Finset.mem_univ, true_and, k0_off1_eq L r, Fin.forall_fin_two]
  simp only [Fin.coe_cast, Matrix.cons_val_zero, Matrix.cons_val_one, Matrix.head_cons]
  show (_ ∧ (i 0).val < _ + 8) ∧ (_ ∧ (i 1).val < _ + 3840) ↔ _
  omega

theorem cond1_iff : ∀ L : grid0.Coords, (k0_cond1 L = 1#1 ↔ (L 0).val = 0) := by decide +kernel
theorem cond2_iff : ∀ L : grid0.Coords, (k0_cond2 L = 1#1 ↔ (L 0).val = 1) := by decide +kernel

/-- The 21st chunk (first SparseCore only) and the last 2976 columns (second SparseCore only). -/
abbrev rK2 (L : grid0.Coords) (h : k0_cond1 L = 1#1) : Rect S128x100000 :=
  Rect.unit (s := S128x100000) (k0_off2 L) S8x3840.size (k0_off2_inb L h)
abbrev rK3 (L : grid0.Coords) (h : k0_cond2 L = 1#1) : Rect S128x100000 :=
  Rect.unit (s := S128x100000) (k0_off3 L) S8x2976.size (k0_off3_inb L h)

theorem set_rK2 (L : grid0.Coords) (h : k0_cond1 L = 1#1) : (rK2 L h).set = pieceSet (cL L) (jL L) 10 := by
  ext i
  have h0 : (L 0).val = 0 := (cond1_iff L).mp h
  have h1 : (L 1).val < 16 := (L 1).isLt
  have hi0 : (i 0).val < 128 := (i 0).isLt
  have hi1 : (i 1).val < 100000 := (i 1).isLt
  simp only [Rect.mem_set_unit, pieceSet, Finset.mem_filter, Finset.mem_univ, true_and, k0_off2_eq L, Fin.forall_fin_two]
  simp only [Fin.coe_cast, Matrix.cons_val_zero, Matrix.cons_val_one, Matrix.head_cons]
  show (_ ∧ (i 0).val < _ + 8) ∧ (_ ∧ (i 1).val < _ + 3840) ↔ _ ∧ _ ∧ _ = 2 * 10 + _
  omega

theorem set_rK3 (L : grid0.Coords) (h : k0_cond2 L = 1#1) : (rK3 L h).set = pieceSet (cL L) (jL L) 10 := by
  ext i
  have h0 : (L 0).val = 1 := (cond2_iff L).mp h
  have h1 : (L 1).val < 16 := (L 1).isLt
  have hi0 : (i 0).val < 128 := (i 0).isLt
  have hi1 : (i 1).val < 100000 := (i 1).isLt
  simp only [Rect.mem_set_unit, pieceSet, Finset.mem_filter, Finset.mem_univ, true_and, k0_off3_eq L, Fin.forall_fin_two]
  simp only [Fin.coe_cast, Matrix.cons_val_zero, Matrix.cons_val_one, Matrix.head_cons]
  show (_ ∧ (i 0).val < _ + 8) ∧ (_ ∧ (i 1).val < _ + 2976) ↔ _ ∧ _ ∧ _ = 2 * 10 + _
  omega

/-! ## The pieces as the program's slices hold them -/

section Pts
variable (d : Dev nD) (L : grid0.Coords)

theorem pts_a (r : Fin 10) (f : Buf (Elt F) (aLoc d)) :
    (((aV.slice (rK L r) (fun _ => rfl)).view.loc (V d (cV L) (jV L)) ↦[(aV.slice (rK L r) (fun _ => rfl)).view.set]{fullShare} f : sProp 𝕄))
      = aLoc d ↦[pieceSet (cL L) (jL L) ⟨r.val, by omega⟩]{fullShare} f := by
  rw [show (aV.slice (rK L r) (fun _ => rfl)).view.set = pieceSet (cL L) (jL L) ⟨r.val, by omega⟩ from (View.set_slice_whole _ _).trans (set_rK L r)]
theorem pts_o (r : Fin 10) (f : Buf (Elt F) (oLoc d)) :
    (((oV.slice (rK L r) (fun _ => rfl)).view.loc (V d (cV L) (jV L)) ↦[(oV.slice (rK L r) (fun _ => rfl)).view.set]{fullShare} f : sProp 𝕄))
      = oLoc d ↦[pieceSet (cL L) (jL L) ⟨r.val, by omega⟩]{fullShare} f := by
  rw [show (oV.slice (rK L r) (fun _ => rfl)).view.set = pieceSet (cL L) (jL L) ⟨r.val, by omega⟩ from (View.set_slice_whole _ _).trans (set_rK L r)]
theorem pts_a2 (h : k0_cond1 L = 1#1) (f : Buf (Elt F) (aLoc d)) :
    (((aV.slice (rK2 L h) (fun _ => rfl)).view.loc (V d (cV L) (jV L)) ↦[(aV.slice (rK2 L h) (fun _ => rfl)).view.set]{fullShare} f : sProp 𝕄))
      = aLoc d ↦[pieceSet (cL L) (jL L) 10]{fullShare} f := by
  rw [show (aV.slice (rK2 L h) (fun _ => rfl)).view.set = pieceSet (cL L) (jL L) 10 from (View.set_slice_whole _ _).trans (set_rK2 L h)]
theorem pts_o2 (h : k0_cond1 L = 1#1) (f : Buf (Elt F) (oLoc d)) :
    (((oV.slice (rK2 L h) (fun _ => rfl)).view.loc (V d (cV L) (jV L)) ↦[(oV.slice (rK2 L h) (fun _ => rfl)).view.set]{fullShare} f : sProp 𝕄))
      = oLoc d ↦[pieceSet (cL L) (jL L) 10]{fullShare} f := by
  rw [show (oV.slice (rK2 L h) (fun _ => rfl)).view.set = pieceSet (cL L) (jL L) 10 from (View.set_slice_whole _ _).trans (set_rK2 L h)]
theorem pts_a3 (h : k0_cond2 L = 1#1) (f : Buf (Elt F) (aLoc d)) :
    (((aV.slice (rK3 L h) (fun _ => rfl)).view.loc (V d (cV L) (jV L)) ↦[(aV.slice (rK3 L h) (fun _ => rfl)).view.set]{fullShare} f : sProp 𝕄))
      = aLoc d ↦[pieceSet (cL L) (jL L) 10]{fullShare} f := by
  rw [show (aV.slice (rK3 L h) (fun _ => rfl)).view.set = pieceSet (cL L) (jL L) 10 from (View.set_slice_whole _ _).trans (set_rK3 L h)]
theorem pts_o3 (h : k0_cond2 L = 1#1) (f : Buf (Elt F) (oLoc d)) :
    (((oV.slice (rK3 L h) (fun _ => rfl)).view.loc (V d (cV L) (jV L)) ↦[(oV.slice (rK3 L h) (fun _ => rfl)).view.set]{fullShare} f : sProp 𝕄))
      = oLoc d ↦[pieceSet (cL L) (jL L) 10]{fullShare} f := by
  rw [show (oV.slice (rK3 L h) (fun _ => rfl)).view.set = pieceSet (cL L) (jL L) 10 from (View.set_slice_whole _ _).trans (set_rK3 L h)]

theorem pts_a_0 (f : Buf (Elt F) (aLoc d)) :
    (((aV.slice (Rect.unit (s := S128x100000) (k0_off1 L 0#32) S8x3840.size (k0_off1_inb L 0)) (fun _ => rfl)).view.loc (V d (cV L) (jV L)) ↦[(aV.slice (Rect.unit (s := S128x100000) (k0_off1 L 0#32) S8x3840.size (k0_off1_inb L 0)) (fun _ => rfl)).view.set]{fullShare} f : sProp 𝕄))
      = aLoc d ↦[pieceSet (cL L) (jL L) 0]{fullShare} f := pts_a (F := F) d L 0 f
theorem pts_o_0 (f : Buf (Elt F) (oLoc d)) :
    (((oV.slice (Rect.unit (s := S128x100000) (k0_off1 L 0#32) S8x3840.size (k0_off1_inb L 0)) (fun _ => rfl)).view.loc (V d (cV L) (jV L)) ↦[(oV.slice (Rect.unit (s := S128x100000) (k0_off1 L 0#32) S8x3840.size (k0_off1_inb L 0)) (fun _ => rfl)).view.set]{fullShare} f : sProp 𝕄))
      = oLoc d ↦[pieceSet (cL L) (jL L) 0]{fullShare} f := pts_o (F := F) d L 0 f
theorem pts_a_1 (f : Buf (Elt F) (aLoc d)) :
    (((aV.slice (Rect.unit (s := S128x100000) (k0_off1 L 2#32) S8x3840.size (k0_off1_inb L 1)) (fun _ => rfl)).view.loc (V d (cV L) (jV L)) ↦[(aV.slice (Rect.unit (s := S128x100000) (k0_off1 L 2#32) S8x3840.size (k0_off1_inb L 1)) (fun _ => rfl)).view.set]{fullShare} f : sProp 𝕄))
      = aLoc d ↦[pieceSet (cL L) (jL L) 1]{fullShare} f := pts_a (F := F) d L 1 f
theorem pts_o_1 (f : Buf (Elt F) (oLoc d)) :
    (((oV.slice (Rect.unit (s := S128x100000) (k0_off1 L 2#32) S8x3840.size (k0_off1_inb L 1)) (fun _ => rfl)).view.loc (V d (cV L) (jV L)) ↦[(oV.slice (Rect.unit (s := S128x100000) (k0_off1 L 2#32) S8x3840.size (k0_off1_inb L 1)) (fun _ => rfl)).view.set]{fullShare} f : sProp 𝕄))
      = oLoc d ↦[pieceSet (cL L) (jL L) 1]{fullShare} f := pts_o (F := F) d L 1 f
theorem pts_a_2 (f : Buf (Elt F) (aLoc d)) :
    (((aV.slice (Rect.unit (s := S128x100000) (k0_off1 L 4#32) S8x3840.size (k0_off1_inb L 2)) (fun _ => rfl)).view.loc (V d (cV L) (jV L)) ↦[(aV.slice (Rect.unit (s := S128x100000) (k0_off1 L 4#32) S8x3840.size (k0_off1_inb L 2)) (fun _ => rfl)).view.set]{fullShare} f : sProp 𝕄))
      = aLoc d ↦[pieceSet (cL L) (jL L) 2]{fullShare} f := pts_a (F := F) d L 2 f
theorem pts_o_2 (f : Buf (Elt F) (oLoc d)) :
    (((oV.slice (Rect.unit (s := S128x100000) (k0_off1 L 4#32) S8x3840.size (k0_off1_inb L 2)) (fun _ => rfl)).view.loc (V d (cV L) (jV L)) ↦[(oV.slice (Rect.unit (s := S128x100000) (k0_off1 L 4#32) S8x3840.size (k0_off1_inb L 2)) (fun _ => rfl)).view.set]{fullShare} f : sProp 𝕄))
      = oLoc d ↦[pieceSet (cL L) (jL L) 2]{fullShare} f := pts_o (F := F) d L 2 f
theorem pts_a_3 (f : Buf (Elt F) (aLoc d)) :
    (((aV.slice (Rect.unit (s := S128x100000) (k0_off1 L 6#32) S8x3840.size (k0_off1_inb L 3)) (fun _ => rfl)).view.loc (V d (cV L) (jV L)) ↦[(aV.slice (Rect.unit (s := S128x100000) (k0_off1 L 6#32) S8x3840.size (k0_off1_inb L 3)) (fun _ => rfl)).view.set]{fullShare} f : sProp 𝕄))
      = aLoc d ↦[pieceSet (cL L) (jL L) 3]{fullShare} f := pts_a (F := F) d L 3 f
theorem pts_o_3 (f : Buf (Elt F) (oLoc d)) :
    (((oV.slice (Rect.unit (s := S128x100000) (k0_off1 L 6#32) S8x3840.size (k0_off1_inb L 3)) (fun _ => rfl)).view.loc (V d (cV L) (jV L)) ↦[(oV.slice (Rect.unit (s := S128x100000) (k0_off1 L 6#32) S8x3840.size (k0_off1_inb L 3)) (fun _ => rfl)).view.set]{fullShare} f : sProp 𝕄))
      = oLoc d ↦[pieceSet (cL L) (jL L) 3]{fullShare} f := pts_o (F := F) d L 3 f
theorem pts_a_4 (f : Buf (Elt F) (aLoc d)) :
    (((aV.slice (Rect.unit (s := S128x100000) (k0_off1 L 8#32) S8x3840.size (k0_off1_inb L 4)) (fun _ => rfl)).view.loc (V d (cV L) (jV L)) ↦[(aV.slice (Rect.unit (s := S128x100000) (k0_off1 L 8#32) S8x3840.size (k0_off1_inb L 4)) (fun _ => rfl)).view.set]{fullShare} f : sProp 𝕄))
      = aLoc d ↦[pieceSet (cL L) (jL L) 4]{fullShare} f := pts_a (F := F) d L 4 f
theorem pts_o_4 (f : Buf (Elt F) (oLoc d)) :
    (((oV.slice (Rect.unit (s := S128x100000) (k0_off1 L 8#32) S8x3840.size (k0_off1_inb L 4)) (fun _ => rfl)).view.loc (V d (cV L) (jV L)) ↦[(oV.slice (Rect.unit (s := S128x100000) (k0_off1 L 8#32) S8x3840.size (k0_off1_inb L 4)) (fun _ => rfl)).view.set]{fullShare} f : sProp 𝕄))
      = oLoc d ↦[pieceSet (cL L) (jL L) 4]{fullShare} f := pts_o (F := F) d L 4 f
theorem pts_a_5 (f : Buf (Elt F) (aLoc d)) :
    (((aV.slice (Rect.unit (s := S128x100000) (k0_off1 L 10#32) S8x3840.size (k0_off1_inb L 5)) (fun _ => rfl)).view.loc (V d (cV L) (jV L)) ↦[(aV.slice (Rect.unit (s := S128x100000) (k0_off1 L 10#32) S8x3840.size (k0_off1_inb L 5)) (fun _ => rfl)).view.set]{fullShare} f : sProp 𝕄))
      = aLoc d ↦[pieceSet (cL L) (jL L) 5]{fullShare} f := pts_a (F := F) d L 5 f
theorem pts_o_5 (f : Buf (Elt F) (oLoc d)) :
    (((oV.slice (Rect.unit (s := S128x100000) (k0_off1 L 10#32) S8x3840.size (k0_off1_inb L 5)) (fun _ => rfl)).view.loc (V d (cV L) (jV L)) ↦[(oV.slice (Rect.unit (s := S128x100000) (k0_off1 L 10#32) S8x3840.size (k0_off1_inb L 5)) (fun _ => rfl)).view.set]{fullShare} f : sProp 𝕄))
      = oLoc d ↦[pieceSet (cL L) (jL L) 5]{fullShare} f := pts_o (F := F) d L 5 f
theorem pts_a_6 (f : Buf (Elt F) (aLoc d)) :
    (((aV.slice (Rect.unit (s := S128x100000) (k0_off1 L 12#32) S8x3840.size (k0_off1_inb L 6)) (fun _ => rfl)).view.loc (V d (cV L) (jV L)) ↦[(aV.slice (Rect.unit (s := S128x100000) (k0_off1 L 12#32) S8x3840.size (k0_off1_inb L 6)) (fun _ => rfl)).view.set]{fullShare} f : sProp 𝕄))
      = aLoc d ↦[pieceSet (cL L) (jL L) 6]{fullShare} f := pts_a (F := F) d L 6 f
theorem pts_o_6 (f : Buf (Elt F) (oLoc d)) :
    (((oV.slice (Rect.unit (s := S128x100000) (k0_off1 L 12#32) S8x3840.size (k0_off1_inb L 6)) (fun _ => rfl)).view.loc (V d (cV L) (jV L)) ↦[(oV.slice (Rect.unit (s := S128x100000) (k0_off1 L 12#32) S8x3840.size (k0_off1_inb L 6)) (fun _ => rfl)).view.set]{fullShare} f : sProp 𝕄))
      = oLoc d ↦[pieceSet (cL L) (jL L) 6]{fullShare} f := pts_o (F := F) d L 6 f
theorem pts_a_7 (f : Buf (Elt F) (aLoc d)) :
    (((aV.slice (Rect.unit (s := S128x100000) (k0_off1 L 14#32) S8x3840.size (k0_off1_inb L 7)) (fun _ => rfl)).view.loc (V d (cV L) (jV L)) ↦[(aV.slice (Rect.unit (s := S128x100000) (k0_off1 L 14#32) S8x3840.size (k0_off1_inb L 7)) (fun _ => rfl)).view.set]{fullShare} f : sProp 𝕄))
      = aLoc d ↦[pieceSet (cL L) (jL L) 7]{fullShare} f := pts_a (F := F) d L 7 f
theorem pts_o_7 (f : Buf (Elt F) (oLoc d)) :
    (((oV.slice (Rect.unit (s := S128x100000) (k0_off1 L 14#32) S8x3840.size (k0_off1_inb L 7)) (fun _ => rfl)).view.loc (V d (cV L) (jV L)) ↦[(oV.slice (Rect.unit (s := S128x100000) (k0_off1 L 14#32) S8x3840.size (k0_off1_inb L 7)) (fun _ => rfl)).view.set]{fullShare} f : sProp 𝕄))
      = oLoc d ↦[pieceSet (cL L) (jL L) 7]{fullShare} f := pts_o (F := F) d L 7 f
theorem pts_a_8 (f : Buf (Elt F) (aLoc d)) :
    (((aV.slice (Rect.unit (s := S128x100000) (k0_off1 L 16#32) S8x3840.size (k0_off1_inb L 8)) (fun _ => rfl)).view.loc (V d (cV L) (jV L)) ↦[(aV.slice (Rect.unit (s := S128x100000) (k0_off1 L 16#32) S8x3840.size (k0_off1_inb L 8)) (fun _ => rfl)).view.set]{fullShare} f : sProp 𝕄))
      = aLoc d ↦[pieceSet (cL L) (jL L) 8]{fullShare} f := pts_a (F := F) d L 8 f
theorem pts_o_8 (f : Buf (Elt F) (oLoc d)) :
    (((oV.slice (Rect.unit (s := S128x100000) (k0_off1 L 16#32) S8x3840.size (k0_off1_inb L 8)) (fun _ => rfl)).view.loc (V d (cV L) (jV L)) ↦[(oV.slice (Rect.unit (s := S128x100000) (k0_off1 L 16#32) S8x3840.size (k0_off1_inb L 8)) (fun _ => rfl)).view.set]{fullShare} f : sProp 𝕄))
      = oLoc d ↦[pieceSet (cL L) (jL L) 8]{fullShare} f := pts_o (F := F) d L 8 f
theorem pts_a_9 (f : Buf (Elt F) (aLoc d)) :
    (((aV.slice (Rect.unit (s := S128x100000) (k0_off1 L 18#32) S8x3840.size (k0_off1_inb L 9)) (fun _ => rfl)).view.loc (V d (cV L) (jV L)) ↦[(aV.slice (Rect.unit (s := S128x100000) (k0_off1 L 18#32) S8x3840.size (k0_off1_inb L 9)) (fun _ => rfl)).view.set]{fullShare} f : sProp 𝕄))
      = aLoc d ↦[pieceSet (cL L) (jL L) 9]{fullShare} f := pts_a (F := F) d L 9 f
theorem pts_o_9 (f : Buf (Elt F) (oLoc d)) :
    (((oV.slice (Rect.unit (s := S128x100000) (k0_off1 L 18#32) S8x3840.size (k0_off1_inb L 9)) (fun _ => rfl)).view.loc (V d (cV L) (jV L)) ↦[(oV.slice (Rect.unit (s := S128x100000) (k0_off1 L 18#32) S8x3840.size (k0_off1_inb L 9)) (fun _ => rfl)).view.set]{fullShare} f : sProp 𝕄))
      = oLoc d ↦[pieceSet (cL L) (jL L) 9]{fullShare} f := pts_o (F := F) d L 9 f

end Pts

end Cert.KernelIdeal.Pf

end
-- ==== Proof.Tile2.lean ====
import proofs.«210814_g12945031431005_cont_9to1_m_1025_36_alg».proof.Proof.Tile1

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The subcore's own semaphore cells and scratch buffers -/

section Own
variable (d : Dev nD) (L : grid0.Coords)

/-- DMA semaphore `k` of the pool, and its cell on the subcore. -/
abbrev dS (k : Nat) (h : k < sig.nDmaSem := by decide) : DmaSem sig := ⟨k, h⟩
abbrev cellK (k : DmaSem sig) : GSem nD τ sig := (V d (cV L) (jV L), SemLoc.dma k)

theorem cell_mem (k : DmaSem sig) (hk : (SemLoc.dma k : SemLoc sig).isScoped .scVector = true) : cellK d L k ∈ ownCells (V d (cV L) (jV L)) :=
  (mem_ownCells (g := cellK d L k)).mpr ⟨rfl, hk⟩
theorem cell_ne {a b : DmaSem sig} (h : a ≠ b) : cellK d L a ≠ cellK d L b :=
  fun e => h (SemLoc.dma.inj (Prod.mk.inj e).2)

/-- The six cells the program uses, each at zero, and the rest. -/
theorem ownSems0_V :
    (ownSems0 (V d (cV L) (jV L)) : sProp 𝕄)
      = iprop(semVal (cellK d L (dS 0)) 0 ∗ semVal (cellK d L (dS 1)) 0 ∗ semVal (cellK d L (dS 2)) 0
          ∗ semVal (cellK d L (dS 3)) 0 ∗ semVal (cellK d L (dS 4)) 0 ∗ semVal (cellK d L (dS 5)) 0
          ∗ bigSep (((((((ownCells (V d (cV L) (jV L))).erase (cellK d L (dS 0))).erase (cellK d L (dS 1))).erase (cellK d L (dS 2))).erase (cellK d L (dS 3))).erase (cellK d L (dS 4))).erase (cellK d L (dS 5))) fun g => semVal g 0) := by
  unfold SparseCore.Cfg.ownSems0
  rw [SparseCore.bigSep_erase' (cell_mem d L (dS 0) (by decide)),
    SparseCore.bigSep_erase' (Finset.mem_erase.mpr ⟨cell_ne d L (a := dS 1) (b := dS 0) (by decide), cell_mem d L (dS 1) (by decide)⟩),
    SparseCore.bigSep_erase' (Finset.mem_erase.mpr ⟨cell_ne d L (a := dS 2) (b := dS 1) (by decide), Finset.mem_erase.mpr ⟨cell_ne d L (a := dS 2) (b := dS 0) (by decide), cell_mem d L (dS 2) (by decide)⟩⟩),
    SparseCore.bigSep_erase' (Finset.mem_erase.mpr ⟨cell_ne d L (a := dS 3) (b := dS 2) (by decide), Finset.mem_erase.mpr ⟨cell_ne d L (a := dS 3) (b := dS 1) (by decide), Finset.mem_erase.mpr ⟨cell_ne d L (a := dS 3) (b := dS 0) (by decide), cell_mem d L (dS 3) (by decide)⟩⟩⟩),
    SparseCore.bigSep_erase' (Finset.mem_erase.mpr ⟨cell_ne d L (a := dS 4) (b := dS 3) (by decide), Finset.mem_erase.mpr ⟨cell_ne d L (a := dS 4) (b := dS 2) (by decide), Finset.mem_erase.mpr ⟨cell_ne d L (a := dS 4) (b := dS 1) (by decide), Finset.mem_erase.mpr ⟨cell_ne d L (a := dS 4) (b := dS 0) (by decide), cell_mem d L (dS 4) (by decide)⟩⟩⟩⟩),
    SparseCore.bigSep_erase' (Finset.mem_erase.mpr ⟨cell_ne d L (a := dS 5) (b := dS 4) (by decide), Finset.mem_erase.mpr ⟨cell_ne d L (a := dS 5) (b := dS 3) (by decide), Finset.mem_erase.mpr ⟨cell_ne d L (a := dS 5) (b := dS 2) (by decide), Finset.mem_erase.mpr ⟨cell_ne d L (a := dS 5) (b := dS 1) (by decide), Finset.mem_erase.mpr ⟨cell_ne d L (a := dS 5) (b := dS 0) (by decide), cell_mem d L (dS 5) (by decide)⟩⟩⟩⟩⟩)]

/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The two slots of the first scratch -/

abbrev slot0 : Memref sig .scVector .vmem S8x3840 .f32 :=
  (sB.slice (Rect.unit (s := S2x8x3840) ![0, 0, 0] S1x8x3840.size inb_S2x8x3840_S1x8x3840_0_0_0) (fun _ => rfl)).squeeze S8x3840 squeezes_S1x8x3840_S8x3840
abbrev slot1 : Memref sig .scVector .vmem S8x3840 .f32 :=
  (sB.slice (Rect.unit (s := S2x8x3840) ![1, 0, 0] S1x8x3840.size inb_S2x8x3840_S1x8x3840_1_0_0) (fun _ => rfl)).squeeze S8x3840 squeezes_S1x8x3840_S8x3840

theorem set_slot0 : (slot0).view.set = (Rect.unit (s := S2x8x3840) ![0, 0, 0] S1x8x3840.size inb_S2x8x3840_S1x8x3840_0_0_0).set := by
  show ((sB.view.slice _).reshape _ _).set = _
  rw [View.set_reshape]; exact View.set_slice_whole _ _
theorem set_slot1 : (slot1).view.set = (Rect.unit (s := S2x8x3840) ![1, 0, 0] S1x8x3840.size inb_S2x8x3840_S1x8x3840_1_0_0).set := by
  show ((sB.view.slice _).reshape _ _).set = _
  rw [View.set_reshape]; exact View.set_slice_whole _ _

theorem slot_disj : Disjoint (slot0).view.set (slot1).view.set := by
  rw [set_slot0, set_slot1]
  exact Rect.unit_disjoint 0 (Or.inl (by decide))

theorem slot_union : (slot0).view.set ∪ (slot1).view.set = Finset.univ := by
  rw [set_slot0, set_slot1]
  ext i
  simp only [Finset.mem_union, Rect.mem_set_unit, Finset.mem_univ, iff_true]
  have h0 : (i 0).val < 2 := (i 0).isLt
  have h1 : (i 1).val < 8 := (i 1).isLt
  have h2 : (i 2).val < 3840 := (i 2).isLt
  by_cases h : (i 0).val = 0
  · left; intro a
    match a with
    | 0 => exact ⟨by show 0 ≤ (i 0).val; omega, by show (i 0).val < 0 + 1; omega⟩
    | 1 => exact ⟨by show 0 ≤ (i 1).val; omega, by show (i 1).val < 0 + 8; omega⟩
    | 2 => exact ⟨by show 0 ≤ (i 2).val; omega, by show (i 2).val < 0 + 3840; omega⟩
  · right; intro a
    match a with
    | 0 => exact ⟨by show 1 ≤ (i 0).val; omega, by show (i 0).val < 1 + 1; omega⟩
    | 1 => exact ⟨by show 0 ≤ (i 1).val; omega, by show (i 1).val < 0 + 8; omega⟩
    | 2 => exact ⟨by show 0 ≤ (i 2).val; omega, by show (i 2).val < 0 + 3840; omega⟩

/-- The first scratch, whole, is its two slots. -/
theorem pts_sB_split (f : Buf (Elt F) ((V d (cV L) (jV L)).loc cc0_scratch0)) :
    ((V d (cV L) (jV L)).loc cc0_scratch0 ↦{fullShare} f : sProp 𝕄)
      ⊣⊢ iprop(((slot0).view.loc (V d (cV L) (jV L)) ↦[(slot0).view.set]{fullShare} f) ∗ ((slot1).view.loc (V d (cV L) (jV L)) ↦[(slot1).view.set]{fullShare} f)) := by
  have h := pointsTo_union (Ix := HIx 1) (Name := ℕ) (U := UU) (Lvl := ℕ) (ℓ := (V d (cV L) (jV L)).loc cc0_scratch0) (q := fullShare) (f := f) (slot_disj)
  rw [slot_union] at h
  exact h

theorem pts_sB_join (f g : Buf (Elt F) ((V d (cV L) (jV L)).loc cc0_scratch0)) :
    iprop(((slot0).view.loc (V d (cV L) (jV L)) ↦[(slot0).view.set]{fullShare} f) ∗ ((slot1).view.loc (V d (cV L) (jV L)) ↦[(slot1).view.set]{fullShare} g))
      ⊢ (iprop(∃ h, (V d (cV L) (jV L)).loc cc0_scratch0 ↦{fullShare} h) : sProp 𝕄) := by
  have h := pointsTo_join (Ix := HIx 1) (Name := ℕ) (U := UU) (Lvl := ℕ) (ℓ := (V d (cV L) (jV L)).loc cc0_scratch0) (q := fullShare) (f := f) (g := g) (slot_disj)
  rw [slot_union] at h
  iintro ⟨H0, H1⟩
  iexists _
  iapply h
  isplitl [H0] <;> iassumption

theorem pts_sT (f : Buf (Elt F) ((V d (cV L) (jV L)).loc cc0_scratch1)) :
    ((sT).view.loc (V d (cV L) (jV L)) ↦[(sT).view.set]{fullShare} f : sProp 𝕄)
      = (V d (cV L) (jV L)).loc cc0_scratch1 ↦{fullShare} f := by
  simp only [Memref.view_whole, View.set_whole]

end Own

/-- The eleven pieces one by one. -/
theorem bigSep_F11 {M : Type} [URA M] (Φ : Fin 11 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [(0 : Fin 11), 1, 2, 3, 4, 5, 6, 7, 8, 9, 10] (by decide) (by decide) Φ

end Cert.KernelIdeal.Pf

end
-- ==== Proof.Tile3.lean ====
import proofs.«210814_g12945031431005_cont_9to1_m_1025_36_alg».proof.Proof.Tile2

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## What a piece holds after its two transfers -/

theorem read_writes_whole {sig' : RefSig} {κ : Kind} {sp : Space} {s : Shape} {e : EltTy} {Val : EltTy → Type}
    (v : View sig' κ sp s e) (f : v.ty.Contents Val) (w : s.Idx → Val e) (Lr : List (View.Piece Val s e)) :
    v.read Val (v.writes Val f (⟨Rect.whole s, w⟩ :: Lr)) = w := by
  funext x
  have h := View.read_writes_cons_emb v f (Rect.whole s) w Lr x
  rwa [Rect.emb_whole_apply] at h

section Piece
variable (d : Dev nD)

/-- A piece of the result written whole with what a staging view read back, the staging view last written whole with
    the same piece of the source: the piece of the result holds the piece of the source. -/
theorem o_piece_eq {κ' : Kind} {sp' : Space} {sz : Fin 2 → Nat} (off : Fin 2 → Nat) (inb : ∀ a, off a + sz a ≤ S128x100000.size a)
    (sv : View sig κ' sp' ⟨2, sz⟩ .f32) (fs : sv.ty.Contents (Elt F)) (Lr : List (View.Piece (Elt F) ⟨2, sz⟩ .f32))
    (fo : Buf (Elt F) (oLoc d)) (fa : Buf (Elt F) (aLoc d)) :
    ∀ i ∈ (oV.slice (Rect.unit (s := S128x100000) off sz inb) (fun _ => rfl)).view.set,
      (oV.slice (Rect.unit (s := S128x100000) off sz inb) (fun _ => rfl)).view.writes (Elt F) fo
        [⟨Rect.whole _, ReadAs.same.apply (sv.read (Elt F) (sv.writes (Elt F) fs
          (⟨Rect.whole _, ReadAs.same.apply ((aV.slice (Rect.unit (s := S128x100000) off sz inb) (fun _ => rfl)).view.read (Elt F) fa)⟩ :: Lr)))⟩] i
        = asO d fa i := by
  intro i hi
  obtain ⟨x, -, rfl⟩ := Finset.mem_map.mp hi
  rw [ReadAs.apply_same, read_writes_whole, ReadAs.apply_same, View.writes_singleton]
  have e : (oV.slice (Rect.unit (s := S128x100000) off sz inb) (fun _ => rfl)).view.emb x
      = ((oV.slice (Rect.unit (s := S128x100000) off sz inb) (fun _ => rfl)).view.slice (Rect.whole _)).emb x := by
    simp only [View.emb_slice, Function.Embedding.trans_apply, Rect.emb_whole_apply]
  rw [e, View.write_emb_of_mem _ _ (Finset.mem_univ _), View.read_apply]
  unfold asO
  simp only [View.emb_slice, Function.Embedding.trans_apply, Rect.emb_whole_apply, Memref.view_slice, Memref.view_whole, View.emb_whole, Function.Embedding.refl_apply, cast_cast, cast_eq]
  rfl

end Piece

section Done
variable (d : Dev nD) (L : grid0.Coords)

/-- The same, as the assertion that holds the piece of the result. -/
theorem o_piece_pts {κ' : Kind} {sp' : Space} (off sz : Fin 2 → Nat) (inb : ∀ a, off a + sz a ≤ S128x100000.size a)
    (sv : View sig κ' sp' ⟨2, sz⟩ .f32) (fs : sv.ty.Contents (Elt F)) (Lr : List (View.Piece (Elt F) ⟨2, sz⟩ .f32))
    (fo : Buf (Elt F) (oLoc d)) (fa : Buf (Elt F) (aLoc d)) :
    ((oV.slice (Rect.unit (s := S128x100000) off sz inb) (fun _ => rfl)).view.loc (V d (cV L) (jV L))
        ↦[(oV.slice (Rect.unit (s := S128x100000) off sz inb) (fun _ => rfl)).view.set]{fullShare}
          (oV.slice (Rect.unit (s := S128x100000) off sz inb) (fun _ => rfl)).view.writes (Elt F) fo
            [⟨Rect.whole _, ReadAs.same.apply (sv.read (Elt F) (sv.writes (Elt F) fs
              (⟨Rect.whole _, ReadAs.same.apply ((aV.slice (Rect.unit (s := S128x100000) off sz inb) (fun _ => rfl)).view.read (Elt F) fa)⟩ :: Lr)))⟩] : sProp 𝕄)
      = (oV.slice (Rect.unit (s := S128x100000) off sz inb) (fun _ => rfl)).view.loc (V d (cV L) (jV L))
        ↦[(oV.slice (Rect.unit (s := S128x100000) off sz inb) (fun _ => rfl)).view.set]{fullShare} asO d fa :=
  pointsTo_congr (o_piece_eq (F := F) d off inb sv fs Lr fo fa)

/-- A wait at the kernels' index recorded beyond waits that were admissible stays admissible. -/
theorem waits_ok {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact h p hp

end Done

end Cert.KernelIdeal.Pf

end
-- ==== Proof.Tile.lean ====
import proofs.«210814_g12945031431005_cont_9to1_m_1025_36_alg».proof.Proof.Tile3

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

/-- The task of vector subcore `(L 0, L 1)` of device `d`: its eleven pieces of the source end up in the result. -/
theorem tile_body (d : Dev nD) (L : grid0.Coords) (hF : (K (F := F)).Facts) (O : CellTallies nD τ sig (HIx 1)) (W : Waits sig (HIx 1)) (hO : ∀ g, O g none = 0) :
    iprop(levAts (K (F := F)).L (K (F := F)).lev ∗ emp ∗ tileIn m d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_copy_body L aV (Memref.isWhole_whole _) oV (Memref.isWhole_whole _) sB (Memref.isWhole_whole _) sT (Memref.isWhole_whole _)
            cc0_scratch2 cc0_scratch3 cc0_scratch4)
          fun _ => iprop(tileOut m d (cL L) (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  -- The subcore's scratch buffers and semaphore cells come out of its scoped resources, the eleven pieces out of the
  -- task's payload; each piece is restated under the rectangle the program slices, the first scratch as its two slots.
  simp only [cc0__sc_copy_body_eq_skeleton]; unfold cc0__sc_copy_body_skel
  rw [(K (F := F)).scopedBufs_V hF d (cV L) (jV L), SparseCore.Cfg.scopedSems0_V (Val := Elt F) d (cV L) (jV L), ownSems0_V, ownBufs_V]
  unfold tileIn
  rw [bigSep_F11]
  iintro ⟨#Hlv, -, ⟨⟨Ha0, Ho0⟩, ⟨Ha1, Ho1⟩, ⟨Ha2, Ho2⟩, ⟨Ha3, Ho3⟩, ⟨Ha4, Ho4⟩, ⟨Ha5, Ho5⟩, ⟨Ha6, Ho6⟩, ⟨Ha7, Ho7⟩, ⟨Ha8, Ho8⟩, ⟨Ha9, Ho9⟩, ⟨Ha10, Ho10⟩⟩, ⟨⟨%fB, HsB⟩, ⟨%fT, HsT⟩, Hbufs⟩, ⟨Hq0, Hq1, Hq2, Hq3, Hq4, Hq5, Hsems⟩, HO⟩
  ihave Hmw := ((K (F := F)).mayWaits_none (thr := V d (cV L) (jV L)) hO) $$ Hlv
  ihave HsB' := (pts_sB_split (F := F) d L fB).1 $$ HsB
  icases HsB' with ⟨Hs0, Hs1⟩
  ihave HsT' := (Entails.of_eq (pts_sT (F := F) d L fT).symm) $$ HsT
  ihave Ha0' := (Entails.of_eq (pts_a_0 (F := F) d L _).symm) $$ Ha0
  ihave Ho0' := (Entails.of_eq (pts_o_0 (F := F) d L _).symm) $$ Ho0
  ihave Ha1' := (Entails.of_eq (pts_a_1 (F := F) d L _).symm) $$ Ha1
  ihave Ho1' := (Entails.of_eq (pts_o_1 (F := F) d L _).symm) $$ Ho1
  ihave Ha2' := (Entails.of_eq (pts_a_2 (F := F) d L _).symm) $$ Ha2
  ihave Ho2' := (Entails.of_eq (pts_o_2 (F := F) d L _).symm) $$ Ho2
  ihave Ha3' := (Entails.of_eq (pts_a_3 (F := F) d L _).symm) $$ Ha3
  ihave Ho3' := (Entails.of_eq (pts_o_3 (F := F) d L _).symm) $$ Ho3
  ihave Ha4' := (Entails.of_eq (pts_a_4 (F := F) d L _).symm) $$ Ha4
  ihave Ho4' := (Entails.of_eq (pts_o_4 (F := F) d L _).symm) $$ Ho4
  ihave Ha5' := (Entails.of_eq (pts_a_5 (F := F) d L _).symm) $$ Ha5
  ihave Ho5' := (Entails.of_eq (pts_o_5 (F := F) d L _).symm) $$ Ho5
  ihave Ha6' := (Entails.of_eq (pts_a_6 (F := F) d L _).symm) $$ Ha6
  ihave Ho6' := (Entails.of_eq (pts_o_6 (F := F) d L _).symm) $$ Ho6
  ihave Ha7' := (Entails.of_eq (pts_a_7 (F := F) d L _).symm) $$ Ha7
  ihave Ho7' := (Entails.of_eq (pts_o_7 (F := F) d L _).symm) $$ Ho7
  ihave Ha8' := (Entails.of_eq (pts_a_8 (F := F) d L _).symm) $$ Ha8
  ihave Ho8' := (Entails.of_eq (pts_o_8 (F := F) d L _).symm) $$ Ho8
  ihave Ha9' := (Entails.of_eq (pts_a_9 (F := F) d L _).symm) $$ Ha9
  ihave Ho9' := (Entails.of_eq (pts_o_9 (F := F) d L _).symm) $$ Ho9
  -- The double-buffered run of ten chunks, up to the branch on the SparseCore.
  set_option maxHeartbeats 4000000 in set_option sl_exec.stopBefore "k0_cond1" in sl_exec
  -- The 21st chunk on the first SparseCore, the last 2976 columns on the second; then each piece of the result holds
  -- the source's piece, the scratch slots join, the cells are back at zero and every wait recorded is at the kernels' index.
  have hL2 : (L 0).val < 2 := (L 0).isLt
  rcases (show (L 0).val = 0 ∨ (L 0).val = 1 by omega) with h0 | h0
  · have k0_h1 : k0_cond1 L = 1#1 := (cond1_iff L).mpr h0
    have k0_h2 : ¬ k0_cond2 L = 1#1 := fun h => by have := (cond2_iff L).mp h; omega
    ihave Ha10' := (Entails.of_eq (pts_a2 (F := F) d L k0_h1 _).symm) $$ Ha10
    ihave Ho10' := (Entails.of_eq (pts_o2 (F := F) d L k0_h1 _).symm) $$ Ho10
    set_option maxHeartbeats 4000000 in sl_exec
    sl_step
    unfold tileOut
    rw [bigSep_F11]
    isplitl [Ha0' Ho0' Ha1' Ho1' Ha2' Ho2' Ha3' Ho3' Ha4' Ho4' Ha5' Ho5' Ha6' Ho6' Ha7' Ho7' Ha8' Ho8' Ha9' Ho9' Ha10' Ho10']
    · isplitl [Ha0' Ho0']
      · isplitl [Ha0']
        · iapply (Entails.of_eq (pts_a_0 (F := F) d L _)); iexact Ha0'
        · iapply (Entails.of_eq (pts_o_0 (F := F) d L _))
          iapply (Entails.of_eq (o_piece_pts (F := F) d L (k0_off1 L 0#32) S8x3840.size (k0_off1_inb L 0) _ _ _ _ _))
          iexact Ho0'
      · isplitl [Ha1' Ho1']
        · isplitl [Ha1']
          · iapply (Entails.of_eq (pts_a_1 (F := F) d L _)); iexact Ha1'
          · iapply (Entails.of_eq (pts_o_1 (F := F) d L _))
            iapply (Entails.of_eq (o_piece_pts (F := F) d L (k0_off1 L 2#32) S8x3840.size (k0_off1_inb L 1) _ _ _ _ _))
            iexact Ho1'
        · isplitl [Ha2' Ho2']
          · isplitl [Ha2']
            · iapply (Entails.of_eq (pts_a_2 (F := F) d L _)); iexact Ha2'
            · iapply (Entails.of_eq (pts_o_2 (F := F) d L _))
              iapply (Entails.of_eq (o_piece_pts (F := F) d L (k0_off1 L 4#32) S8x3840.size (k0_off1_inb L 2) _ _ _ _ _))
              iexact Ho2'
          · isplitl [Ha3' Ho3']
            · isplitl [Ha3']
              · iapply (Entails.of_eq (pts_a_3 (F := F) d L _)); iexact Ha3'
              · iapply (Entails.of_eq (pts_o_3 (F := F) d L _))
                iapply (Entails.of_eq (o_piece_pts (F := F) d L (k0_off1 L 6#32) S8x3840.size (k0_off1_inb L 3) _ _ _ _ _))
                iexact Ho3'
            · isplitl [Ha4' Ho4']
              · isplitl [Ha4']
                · iapply (Entails.of_eq (pts_a_4 (F := F) d L _)); iexact Ha4'
                · iapply (Entails.of_eq (pts_o_4 (F := F) d L _))
                  iapply (Entails.of_eq (o_piece_pts (F := F) d L (k0_off1 L 8#32) S8x3840.size (k0_off1_inb L 4) _ _ _ _ _))
                  iexact Ho4'
              · isplitl [Ha5' Ho5']
                · isplitl [Ha5']
                  · iapply (Entails.of_eq (pts_a_5 (F := F) d L _)); iexact Ha5'
                  · iapply (Entails.of_eq (pts_o_5 (F := F) d L _))
                    iapply (Entails.of_eq (o_piece_pts (F := F) d L (k0_off1 L 10#32) S8x3840.size (k0_off1_inb L 5) _ _ _ _ _))
                    iexact Ho5'
                · isplitl [Ha6' Ho6']
                  · isplitl [Ha6']
                    · iapply (Entails.of_eq (pts_a_6 (F := F) d L _)); iexact Ha6'
                    · iapply (Entails.of_eq (pts_o_6 (F := F) d L _))
                      iapply (Entails.of_eq (o_piece_pts (F := F) d L (k0_off1 L 12#32) S8x3840.size (k0_off1_inb L 6) _ _ _ _ _))
                      iexact Ho6'
                  · isplitl [Ha7' Ho7']
                    · isplitl [Ha7']
                      · iapply (Entails.of_eq (pts_a_7 (F := F) d L _)); iexact Ha7'
                      · iapply (Entails.of_eq (pts_o_7 (F := F) d L _))
                        iapply (Entails.of_eq (o_piece_pts (F := F) d L (k0_off1 L 14#32) S8x3840.size (k0_off1_inb L 7) _ _ _ _ _))
                        iexact Ho7'
                    · isplitl [Ha8' Ho8']
                      · isplitl [Ha8']
                        · iapply (Entails.of_eq (pts_a_8 (F := F) d L _)); iexact Ha8'
                        · iapply (Entails.of_eq (pts_o_8 (F := F) d L _))
                          iapply (Entails.of_eq (o_piece_pts (F := F) d L (k0_off1 L 16#32) S8x3840.size (k0_off1_inb L 8) _ _ _ _ _))
                          iexact Ho8'
                      · isplitl [Ha9' Ho9']
                        · isplitl [Ha9']
                          · iapply (Entails.of_eq (pts_a_9 (F := F) d L _)); iexact Ha9'
                          · iapply (Entails.of_eq (pts_o_9 (F := F) d L _))
                            iapply (Entails.of_eq (o_piece_pts (F := F) d L (k0_off1 L 18#32) S8x3840.size (k0_off1_inb L 9) _ _ _ _ _))
                            iexact Ho9'
                        · isplitl [Ha10']
                          · iapply (Entails.of_eq (pts_a2 (F := F) d L k0_h1 _)); iexact Ha10'
                          · iapply (Entails.of_eq (pts_o2 (F := F) d L k0_h1 _))
                            iapply (Entails.of_eq (o_piece_pts (F := F) d L (k0_off2 L) S8x3840.size (k0_off2_inb L k0_h1) _ _ _ _ _))
                            iexact Ho10'
    isplitl [Hs0 Hs1 HsT' Hbufs]
    · isplitl [Hs0 Hs1]
      · iapply (pts_sB_join (F := F) d L _ _)
        isplitl [Hs0] <;> iassumption
      isplitl [HsT']
      · iexists _; iapply (Entails.of_eq (pts_sT (F := F) d L _)); iexact HsT'
      · iexact Hbufs
    isplitl [Hq0 Hq1 Hq2 Hq3 Hq4 Hq5 Hsems]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      iexact Hsems
    iexists _; isplitr
    on_goal 2 => iexact HO
    ipureintro
    repeat (refine waits_ok _ ?_)
    exact fun p hp => .inl hp
  · have k0_h1 : ¬ k0_cond1 L = 1#1 := fun h => by have := (cond1_iff L).mp h; omega
    have k0_h2 : k0_cond2 L = 1#1 := (cond2_iff L).mpr h0
    ihave Ha10' := (Entails.of_eq (pts_a3 (F := F) d L k0_h2 _).symm) $$ Ha10
    ihave Ho10' := (Entails.of_eq (pts_o3 (F := F) d L k0_h2 _).symm) $$ Ho10
    set_option maxHeartbeats 4000000 in sl_exec
    sl_step
    unfold tileOut
    rw [bigSep_F11]
    isplitl [Ha0' Ho0' Ha1' Ho1' Ha2' Ho2' Ha3' Ho3' Ha4' Ho4' Ha5' Ho5' Ha6' Ho6' Ha7' Ho7' Ha8' Ho8' Ha9' Ho9' Ha10' Ho10']
    · isplitl [Ha0' Ho0']
      · isplitl [Ha0']
        · iapply (Entails.of_eq (pts_a_0 (F := F) d L _)); iexact Ha0'
        · iapply (Entails.of_eq (pts_o_0 (F := F) d L _))
          iapply (Entails.of_eq (o_piece_pts (F := F) d L (k0_off1 L 0#32) S8x3840.size (k0_off1_inb L 0) _ _ _ _ _))
          iexact Ho0'
      · isplitl [Ha1' Ho1']
        · isplitl [Ha1']
          · iapply (Entails.of_eq (pts_a_1 (F := F) d L _)); iexact Ha1'
          · iapply (Entails.of_eq (pts_o_1 (F := F) d L _))
            iapply (Entails.of_eq (o_piece_pts (F := F) d L (k0_off1 L 2#32) S8x3840.size (k0_off1_inb L 1) _ _ _ _ _))
            iexact Ho1'
        · isplitl [Ha2' Ho2']
          · isplitl [Ha2']
            · iapply (Entails.of_eq (pts_a_2 (F := F) d L _)); iexact Ha2'
            · iapply (Entails.of_eq (pts_o_2 (F := F) d L _))
              iapply (Entails.of_eq (o_piece_pts (F := F) d L (k0_off1 L 4#32) S8x3840.size (k0_off1_inb L 2) _ _ _ _ _))
              iexact Ho2'
          · isplitl [Ha3' Ho3']
            · isplitl [Ha3']
              · iapply (Entails.of_eq (pts_a_3 (F := F) d L _)); iexact Ha3'
              · iapply (Entails.of_eq (pts_o_3 (F := F) d L _))
                iapply (Entails.of_eq (o_piece_pts (F := F) d L (k0_off1 L 6#32) S8x3840.size (k0_off1_inb L 3) _ _ _ _ _))
                iexact Ho3'
            · isplitl [Ha4' Ho4']
              · isplitl [Ha4']
                · iapply (Entails.of_eq (pts_a_4 (F := F) d L _)); iexact Ha4'
                · iapply (Entails.of_eq (pts_o_4 (F := F) d L _))
                  iapply (Entails.of_eq (o_piece_pts (F := F) d L (k0_off1 L 8#32) S8x3840.size (k0_off1_inb L 4) _ _ _ _ _))
                  iexact Ho4'
              · isplitl [Ha5' Ho5']
                · isplitl [Ha5']
                  · iapply (Entails.of_eq (pts_a_5 (F := F) d L _)); iexact Ha5'
                  · iapply (Entails.of_eq (pts_o_5 (F := F) d L _))
                    iapply (Entails.of_eq (o_piece_pts (F := F) d L (k0_off1 L 10#32) S8x3840.size (k0_off1_inb L 5) _ _ _ _ _))
                    iexact Ho5'
                · isplitl [Ha6' Ho6']
                  · isplitl [Ha6']
                    · iapply (Entails.of_eq (pts_a_6 (F := F) d L _)); iexact Ha6'
                    · iapply (Entails.of_eq (pts_o_6 (F := F) d L _))
                      iapply (Entails.of_eq (o_piece_pts (F := F) d L (k0_off1 L 12#32) S8x3840.size (k0_off1_inb L 6) _ _ _ _ _))
                      iexact Ho6'
                  · isplitl [Ha7' Ho7']
                    · isplitl [Ha7']
                      · iapply (Entails.of_eq (pts_a_7 (F := F) d L _)); iexact Ha7'
                      · iapply (Entails.of_eq (pts_o_7 (F := F) d L _))
                        iapply (Entails.of_eq (o_piece_pts (F := F) d L (k0_off1 L 14#32) S8x3840.size (k0_off1_inb L 7) _ _ _ _ _))
                        iexact Ho7'
                    · isplitl [Ha8' Ho8']
                      · isplitl [Ha8']
                        · iapply (Entails.of_eq (pts_a_8 (F := F) d L _)); iexact Ha8'
                        · iapply (Entails.of_eq (pts_o_8 (F := F) d L _))
                          iapply (Entails.of_eq (o_piece_pts (F := F) d L (k0_off1 L 16#32) S8x3840.size (k0_off1_inb L 8) _ _ _ _ _))
                          iexact Ho8'
                      · isplitl [Ha9' Ho9']
                        · isplitl [Ha9']
                          · iapply (Entails.of_eq (pts_a_9 (F := F) d L _)); iexact Ha9'
                          · iapply (Entails.of_eq (pts_o_9 (F := F) d L _))
                            iapply (Entails.of_eq (o_piece_pts (F := F) d L (k0_off1 L 18#32) S8x3840.size (k0_off1_inb L 9) _ _ _ _ _))
                            iexact Ho9'
                        · isplitl [Ha10']
                          · iapply (Entails.of_eq (pts_a3 (F := F) d L k0_h2 _)); iexact Ha10'
                          · iapply (Entails.of_eq (pts_o3 (F := F) d L k0_h2 _))
                            iapply (Entails.of_eq (o_piece_pts (F := F) d L (k0_off3 L) S8x2976.size (k0_off3_inb L k0_h2) _ _ _ _ _))
                            iexact Ho10'
    isplitl [Hs0 Hs1 HsT' Hbufs]
    · isplitl [Hs0 Hs1]
      · iapply (pts_sB_join (F := F) d L _ _)
        isplitl [Hs0] <;> iassumption
      isplitl [HsT']
      · iexists _; iapply (Entails.of_eq (pts_sT (F := F) d L _)); iexact HsT'
      · iexact Hbufs
    isplitl [Hq0 Hq1 Hq2 Hq3 Hq4 Hq5 Hsems]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      iexact Hsems
    iexists _; isplitr
    on_goal 2 => iexact HO
    ipureintro
    repeat (refine waits_ok _ ?_)
    exact fun p hp => .inl hp

end Cert.KernelIdeal.Pf

end
-- ==== Proof.RegionValue.lean ====
/-
  The two arrays of the TensorCore pipeline after its eight points: the argument (16384 × 128) as it was found, and the
  result (128 × 100000) with columns 0‥16384 replaced by the argument's transpose — point t writes the transpose of
  rows 2048 t ‥ 2048 (t + 1) of the argument at columns 2048 t ‥ 2048 (t + 1) — and the columns from 16384 on as found.
-/
import proofs.«210814_g12945031431005_cont_9to1_m_1025_36_alg».proof.Proof.Region
import proofs.«210814_g12945031431005_cont_9to1_m_1025_36_alg».proof.Proof.Spec
import Idealize.ShloMosaic.Lib.Pipeline.Value

noncomputable section

namespace Cert.KernelIdeal.Pf

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

variable (M : (ℓ : Loc nD τ sig) → Buf (Elt F) ℓ)

/-- The argument's array is only read: it ends as it was found. -/
theorem final_k (c : Dev nD) : (dats M 0 c).arrAt (0 : Fin 2) cfg1.N = M ((c : Thread nD τ).loc main_arg0) :=
  (dats (F := F) M 0 c).arrAt_in (0 : Fin 2) rfl _

/-- The result as one function of the whole array: the transposed argument on the columns below 16384, the
    entry contents from there on. -/
def regG (c : Dev nD) : Buf (Elt F) ((c : Thread nD τ).loc main_v1) :=
  fun i => if h : (i 1).val < 16384 then M ((c : Thread nD τ).loc main_arg0) (Cert.Spliced.tIdx i h) else M ((c : Thread nD τ).loc main_v1) i

/-- At point `t` the argument's block index is (t, 0), the result's (0, t), and the result's block is not cut:
    128 rows, 2048 columns. -/
theorem reg_index (t : Fin cfg1.N) : win1_0.index t 0 = t.val ∧ win1_0.index t 1 = 0 ∧ win1_1.index t 0 = 0 ∧ win1_1.index t 1 = t.val
    ∧ win1_1.xsize (grid1.coords t) 0 = 128 ∧ win1_1.xsize (grid1.coords t) 1 = 2048 := by
  rcases fin_N1 t with rfl | rfl | rfl | rfl | rfl | rfl | rfl | rfl <;> decide +kernel

/-- An index of the result is in point `t`'s block iff its column is among 2048 t ‥ 2048 t + 2048 (every row is). -/
theorem reg_mem_blk (t : Fin cfg1.N) (i : S128x100000.Idx) :
    i ∈ (win1_1.blk t).view.set ↔ 2048 * t.val ≤ (i 1).val ∧ (i 1).val < 2048 * t.val + 2048 := by
  show i ∈ ((View.whole main_v1).slice (win1_1.rect t)).set ↔ _
  rw [View.set_slice_whole, Rect.mem_set_unit]
  obtain ⟨-, -, e0, e1, x0, x1⟩ := reg_index t
  have h0 : (i 0).val < 128 := (i 0).isLt
  constructor
  · intro h
    have h1 := h 1
    change win1_1.index t 1 * 2048 ≤ (i 1).val ∧ (i 1).val < win1_1.index t 1 * 2048 + win1_1.xsize (grid1.coords t) 1 at h1
    rw [e1, x1] at h1
    omega
  · intro h a
    match a with
    | ⟨0, _⟩ =>
      change win1_1.index t 0 * 128 ≤ (i 0).val ∧ (i 0).val < win1_1.index t 0 * 128 + win1_1.xsize (grid1.coords t) 0
      rw [e0, x0]; omega
    | ⟨1, _⟩ =>
      change win1_1.index t 1 * 2048 ≤ (i 1).val ∧ (i 1).val < win1_1.index t 1 * 2048 + win1_1.xsize (grid1.coords t) 1
      rw [e1, x1]; omega

/-- What point `t` writes back is block `t` of `regG`: entry (r, q) of the written block is entry (q, r) of the
    argument's block — the transpose; the argument's window is not cut, so its staging buffer holds the block itself —,
    that is entry (2048 t + q, r) of the argument; and it lands at (r, 2048 t + q), a column below 16384. -/
theorem reg_cut_tblk8 (c : Dev nD) (t : Fin cfg1.N) :
    win1_1.cut (grid1.coords t) (tblk8 M c t) = (win1_1.blk t).view.read (Elt F) (regG M c) := by
  funext j
  obtain ⟨a0, a1, e0, e1, x0, x1⟩ := reg_index t
  have ht : t.val < 8 := t.isLt
  have hj0 : (j 0).val < 128 := by
    have h : (j 0).val < win1_1.xsize (grid1.coords t) 0 := (j 0).isLt
    rw [x0] at h; exact h
  have hj1 : (j 1).val < 2048 := by
    have h : (j 1).val < win1_1.xsize (grid1.coords t) 1 := (j 1).isLt
    rw [x1] at h; exact h
  rw [View.read_apply]
  -- the transposed index in the argument's block
  let k : S2048x128.Idx := fun a => match a with
    | ⟨0, _⟩ => ⟨(j 1).val, hj1⟩
    | ⟨1, _⟩ => ⟨(j 0).val, hj0⟩
  have hL : win1_1.cut (grid1.coords t) (tblk8 M c t) j = kblk8 M c t k :=
    transpose_apply [1, 0] (kblk8 M c t) transposes_S2048x128_p1_0_S128x2048 (win1_1.xinj (grid1.coords t) j) k
      (fun b => match b with
        | ⟨0, _⟩ => rfl
        | ⟨1, _⟩ => rfl)
  rw [hL]
  -- every index of the argument's block is moved
  have hm : win1_0.moved (grid1.coords t) k = true := (win1_0.moved_iff _ k).mpr fun a => (k a).isLt
  unfold kblk8 Window.fill
  rw [dif_pos hm]
  unfold kblk
  rw [View.read_apply]
  -- where the written element lands
  have hcol : (((win1_1.blk t).view.emb j) 1).val = 2048 * t.val + (j 1).val := by
    show ((win1_1.rect t).emb j 1 : Nat) = _
    rw [win1_1.rect_emb_val t j 1, e1]
    show t.val * 2048 + (j 1).val = _
    omega
  have hrow : (((win1_1.blk t).view.emb j) 0).val = (j 0).val := by
    show ((win1_1.rect t).emb j 0 : Nat) = _
    rw [win1_1.rect_emb_val t j 0, e0]
    omega
  have hlt : (((win1_1.blk t).view.emb j) 1).val < 16384 := by rw [hcol]; omega
  show M ((c : Thread nD τ).loc main_arg0) _ = regG M c _
  unfold regG
  rw [dif_pos hlt]
  congr 1
  funext a
  apply Fin.ext
  match a with
  | ⟨0, _⟩ =>
    show ((win1_0.rect t).emb _ 0 : Nat) = (((win1_1.blk t).view.emb j) 1).val
    rw [hcol, win1_0.rect_emb_val, a0]
    show t.val * 2048 + (j 1).val = _
    omega
  | ⟨1, _⟩ =>
    show ((win1_0.rect t).emb _ 1 : Nat) = (((win1_1.blk t).view.emb j) 0).val
    rw [hrow, win1_0.rect_emb_val, a1]
    show 0 * 128 + (j 0).val = _
    omega

/-- The result's array after the eight write-backs: a column below 16384 lies in block (column / 2048) and reads the
    transposed argument there; a column from 16384 on lies in no block and keeps the entry contents. -/
theorem final_r (c : Dev nD) (i : S128x100000.Idx) :
    (dats M 0 c).arrAt (1 : Fin 2) cfg1.N i
      = if h : (i 1).val < 16384 then M ((c : Thread nD τ).loc main_arg0) (Cert.Spliced.tIdx i h) else M ((c : Thread nD τ).loc main_v1) i := by
  have hG : ∀ t, (cfg1.win 1).flush t = true → (dats M 0 c).flushed 1 t = ((cfg1.win 1).blk t).view.read (Elt F) (regG M c) :=
    fun t _ => reg_cut_tblk8 M c t
  rw [(dats M 0 c).arrAt_eq_piecewise (1 : Fin 2) (regG M c) hG i]
  split
  · rfl
  · rename_i hno
    by_cases h : (i 1).val < 16384
    · exfalso
      apply hno
      refine ⟨⟨(i 1).val / 2048, ?_⟩, flush1_1 _, (reg_mem_blk _ i).mpr ?_⟩
      · show (i 1).val / 2048 < 8
        omega
      · show 2048 * ((i 1).val / 2048) ≤ (i 1).val ∧ (i 1).val < 2048 * ((i 1).val / 2048) + 2048
        omega
    · rw [dif_neg h]; rfl

end Cert.KernelIdeal.Pf

end
-- ==== Proof.KernelValue.lean ====
/-
  The program's result as a function of its two arguments: an array that reads the transposed argument on the
  columns 0‥16384 and, elsewhere, what the SparseCore call left — the source's columns — is the spliced array.
-/
import proofs.«210814_g12945031431005_cont_9to1_m_1025_36_alg».proof.Proof.Common
import proofs.«210814_g12945031431005_cont_9to1_m_1025_36_alg».proof.Proof.Spec
import proofs.«210814_g12945031431005_cont_9to1_m_1025_36_alg».proof.Proof.Layout

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable (m : (ℓ : Loc nD τ sig) → Buf (Elt F) ℓ)

/-- Contents that read the transposed argument below column 16384 and the call's result from there on are the spliced array. -/
theorem final_value (d : Dev nD) (g : Buf (Elt F) (rLoc d))
    (hlow : ∀ (i : S128x100000.Idx) (h : (i 1).val < 16384), g i = m (kLoc d) (Cert.Spliced.tIdx i h))
    (hhigh : ∀ i : S128x100000.Idx, ¬ (i 1).val < 16384 → g i = asR d (tailFn m d) i) :
    g = Cert.Spliced.spliced (m (kLoc d)) (m (aLoc d)) := by
  funext i
  unfold Cert.Spliced.spliced
  by_cases h : (i 1).val < 16384
  · rw [dif_pos h]; exact hlow i h
  · rw [dif_neg h, hhigh i h]
    unfold asR tailFn asO
    rw [if_neg h]

end Cert.KernelIdeal.Pf

end
-- ==== Proof.Run.lean ====
/-
  The launch theorem applied: each vector subcore's task from its proof at a symbolic tile, the tasks' shares from
  the SparseCore's, @main on the TensorCore, and how the final memory reads the claim — the program's result is the
  spliced array, the constant is the constant, the two arguments are unchanged.
-/
import proofs.«210814_g12945031431005_cont_9to1_m_1025_36_alg».proof.Proof.Main
import proofs.«210814_g12945031431005_cont_9to1_m_1025_36_alg».proof.Proof.Tile
import proofs.«210814_g12945031431005_cont_9to1_m_1025_36_alg».proof.Proof.RegionValue
import proofs.«210814_g12945031431005_cont_9to1_m_1025_36_alg».proof.Proof.KernelValue

noncomputable section

namespace Cert.KernelIdeal.Pf

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the region's entry memory holds -/

theorem M3_k (d : Dev nD) : M3 m (kLoc d) = m (kLoc d) :=
  ((opI (F := F)).result_of_not_mem (V2 m d) (b := k') (show k' ∉ ({r'} : Finset (DevRef τ sig)) by decide)).trans (V2_k m d)
theorem M3_a (d : Dev nD) : M3 m (aLoc d) = m (aLoc d) :=
  ((opI (F := F)).result_of_not_mem (V2 m d) (b := a') (show a' ∉ ({r'} : Finset (DevRef τ sig)) by decide)).trans (V2_a m d)
theorem M3_c (d : Dev nD) : M3 m (cLoc d) = constantI S1 32 16384#32 :=
  (((opI (F := F)).result_of_not_mem (V2 m d) (b := c') (show c' ∉ ({r'} : Finset (DevRef τ sig)) by decide)).trans (V2_c m d)).trans
    (StableHlo.nullary_result' _ _ _)
theorem M3_r (d : Dev nD) : M3 m (rLoc d) = asR d (tailFn m d) :=
  show (opI (F := F)).result (V2 m d) r' = _ from
    (StableHlo.unary_result' (x := main_v0) (y := main_v1) id _ _ (V2 m d)).trans (congrArg id (V2_o m d))

/-! ## How the final memory reads the claim -/

/-- What the TensorCore's final assertion says of the memory: the pipeline's arrays at the computed contents, the
    source array and the constant at what the region found. -/
def fq (d : Dev nD) (s' : Phys nD τ sig (Elt F)) : Prop :=
  (∀ w : Fin cfg1.W, s'.mem.mem ((cfg1.win w).arr.view.loc (d : Thread nD τ)) = (dats (M3 m) 0 d).arrAt w cfg1.N)
    ∧ s'.mem.mem (aLoc d) = M3 m (aLoc d) ∧ s'.mem.mem (cLoc d) = M3 m (cLoc d)

theorem hfin (d : Dev nD) (s' : Phys nD τ sig (Elt F)) : iprop(FIN m d ∗ SI s') ⊢ (⌜fq m d s'⌝ : sProp 𝕄) := by
  unfold FIN
  iintro ⟨⟨Ha, H1, Hc, -⟩, HSI⟩
  ihave Hr := (Pipeline.arrays_read (pcfgs (F := F)) adm (dats (M3 m)) launch1.arr_whole d ((dats (M3 m) 0 d).share_full fun _ => rfl) _ s') $$ [Ha HSI]
  · isplitl [Ha] <;> iassumption
  icases Hr with ⟨%ha, HSI⟩
  icombine HSI H1 gives %h1
  icombine HSI Hc gives %hc
  ipureintro
  exact ⟨ha, Buf.eq_of_forall_mem_univ h1, Buf.eq_of_forall_mem_univ hc⟩

/-- The run's post: the result is the spliced array, the constant the constant, the arguments unchanged. -/
def QC : PUnit × MemSt nD τ sig (Elt F) → Prop := fun r => ∀ c : Dev nD,
  r.2.mem (rLoc c) = Cert.Spliced.spliced (m (kLoc c)) (m (aLoc c)) ∧ r.2.mem (cLoc c) = constantI S1 32 16384#32
    ∧ r.2.mem (kLoc c) = m (kLoc c) ∧ r.2.mem (aLoc c) = m (aLoc c)

theorem hQ (s' : Phys nD τ sig (Elt F)) (h : ∀ d, fq m d s') : QC m (⟨⟩, s'.mem) := by
  intro c
  obtain ⟨ha, h1, hc⟩ := h c
  refine ⟨?_, hc.trans (M3_c m c), ((ha (0 : Fin 2)).trans (final_k (M3 m) c)).trans (M3_k m c), h1.trans (M3_a m c)⟩
  refine (ha (1 : Fin 2)).trans (final_value m c _ (fun i h => ?_) (fun i h => ?_))
  · rw [final_r (M3 m) c i, dif_pos h]; exact congrFun (M3_k m c) _
  · rw [final_r (M3 m) c i, dif_neg h]; exact congrFun (M3_r m c) i

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_copy_body (coordsV c s)
          aV (Memref.isWhole_whole _) oV (Memref.isWhole_whole _) sB (Memref.isWhole_whole _) sT (Memref.isWhole_whole _)
          cc0_scratch2 cc0_scratch3 cc0_scratch4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-! ## The program's run -/

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (hQ m)

end Cert.KernelIdeal.Pf

end
-- ==== Proof.CommonW.lean ====
/-
  Shared definitions for the run of the copy-then-transpose program.

  The program moves columns 16384‥100000 of a 128 × 100000 array into a fresh array on the SparseCores (each of the
  32 vector subcores moving an 8-row band, its column chunks of 3840 alternating between the two SparseCores, the
  21st chunk on the first SparseCore and the last 2976 columns on the second), copies that array on the host, and
  has one TensorCore pipeline overwrite columns 0‥16384 with the transpose of the other argument.

  Here: the program as the SparseCore launch theorem sees it, the resource algebra (the handshakes' rounds, the
  pipeline's rounds, the transfers' counters), the element sets of the pieces a vector subcore moves — piece
  (c, s, k) is the band of rows 8 s ‥ 8 s + 8 at the columns whose chunk number (col − 16384) / 3840 is 2 k + c —
  and what the handshakes carry.
-/
import proofs.«210814_g12945031431005_cont_9to1_m_1025_36_alg».proof.Defs
import proofs.«210814_g12945031431005_cont_9to1_m_1025_36_alg».proof.Proof.Gen.Kernel
import proofs.«210814_g12945031431005_cont_9to1_m_1025_36_alg».proof.Proof.Gen.Kernel.Skeleton
import proofs.«210814_g12945031431005_cont_9to1_m_1025_36_alg».proof.Proof.Gen.Kernel.Launch
import proofs.«210814_g12945031431005_cont_9to1_m_1025_36_alg».proof.Proof.Gen.Kernel.Points
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds and the counters side by side, the right component. -/
abbrev ER : Emb (UP × Counters) (MT nD τ sig (HIx 1) (Elt F) ℕ UU ℕ) := embR
def EP : Emb UP (MT nD τ sig (HIx 1) (Elt F) ℕ UU ℕ) := (Emb.inl : Emb UP (UP × Counters)).trans ER

instance EP_landsIn : (EP : Emb UP 𝕄).LandsIn (upEmb : UEmb _ 𝕄) := by unfold EP ER embR; infer_instance

/-! ## The arrays and the pieces -/

/-- The source array, the SparseCore call's result, the program's result, the transposed argument, as locations of device `d`. -/
abbrev aLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1
abbrev kLoc (d : Dev nD) : Loc nD τ sig := (SparseCore.T d).loc main_arg0
abbrev cLoc (d : Dev nD) : Loc nD τ sig := (SparseCore.T d).loc main_c

/-- Contents of the source array read as contents of the call's result (one shape, one element type). -/
def asO (d : Dev nD) (f : Buf (Elt F) (aLoc d)) : Buf (Elt F) (oLoc d) := f
/-- Contents of the call's result read as contents of the program's result. -/
def asR (d : Dev nD) (f : Buf (Elt F) (oLoc d)) : Buf (Elt F) (rLoc d) := f

/-- The columns the TensorCore pipeline overwrites. -/
def lowSet : Finset S128x100000.Idx := Finset.univ.filter fun i => (i 1).val < 16384

/-- Piece `k` of vector subcore `s` of SparseCore `c`: rows `8 s ‥ 8 s + 8`, the columns of chunk `2 k + c`. -/
def pieceSet (c : Fin 2) (s : Fin 16) (k : Fin 11) : Finset S128x100000.Idx :=
  Finset.univ.filter fun i => (i 0).val / 8 = s.val ∧ 16384 ≤ (i 1).val ∧ ((i 1).val - 16384) / 3840 = 2 * k.val + c.val

variable (m : (ℓ : Loc nD τ sig) → Buf (Elt F) ℓ)

/-- What a vector subcore is handed: its eleven pieces of the source and of the result, at their launch contents; -/
def tileIn (d : Dev nD) (c : Fin 2) (s : Fin 16) : sProp 𝕄 :=
  bigSep Finset.univ fun k : Fin 11 => iprop((aLoc d ↦[pieceSet c s k]{fullShare} m (aLoc d)) ∗ (oLoc d ↦[pieceSet c s k]{fullShare} m (oLoc d)))
/-- and what it hands back: the result's pieces holding the source's. -/
def tileOut (d : Dev nD) (c : Fin 2) (s : Fin 16) : sProp 𝕄 :=
  bigSep Finset.univ fun k : Fin 11 => iprop((aLoc d ↦[pieceSet c s k]{fullShare} m (aLoc d)) ∗ (oLoc d ↦[pieceSet c s k]{fullShare} asO d (m (aLoc d))))

/-- The one call hands each SparseCore its sixteen subcores' pieces and takes them back. -/
def P : (K (F := F)).Pay (nD := nD) (Val := Elt F) (Name := ℕ) (U := UU) where
  st := fun q d c => match q with
    | 0 => bigSep Finset.univ fun s : Fin 16 => tileIn m d (Fin.cast nCore_zero c) s
  dn := fun q d c => match q with
    | 0 => bigSep Finset.univ fun s : Fin 16 => tileOut m d (Fin.cast nCore_zero c) s
  go := fun q d c i => match q with
    | 0 => tileIn m d (Fin.cast nCore_zero c) (Fin.cast nSub_zero i)
  td := fun q d c i => match q with
    | 0 => tileOut m d (Fin.cast nCore_zero c) (Fin.cast nSub_zero i)
  x := fun _ _ => iprop(emp)

instance P_storable : (P (F := F) m).IsStorable where
  st q d c := match q with
    | 0 => by unfold P tileIn; infer_instance
  dn q d c := match q with
    | 0 => by unfold P tileOut; infer_instance
  go q d c i := match q with
    | 0 => by unfold P tileIn; infer_instance
  td q d c i := match q with
    | 0 => by unfold P tileOut; infer_instance

end Cert.Kernel.Pf

end
-- ==== Proof.LayoutW.lean ====
/-
  The layout of the SparseCore call's operands: the 128 × 100000 index set is the low columns (0‥16384) together with
  the 352 pieces (SparseCore c, subcore s, piece k), pairwise disjoint — the pieces are the fibres, over the columns
  from 16384 on, of the map sending an index to its row band and its column chunk. So an array held whole is its low
  columns and its pieces, and conversely; and what one SparseCore is handed is what its sixteen subcores are handed.
-/
import proofs.«210814_g12945031431005_cont_9to1_m_1025_36_alg».proof.Proof.CommonW
import proofs.«210814_g12945031431005_cont_9to1_m_1025_36_alg».proof.Proof.Spec

noncomputable section

namespace Cert.Kernel.Pf

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- What the SparseCore call leaves in its result: the launch contents on the low columns, the source's on the others. -/
def tailFn (d : Dev nD) : Buf (Elt F) (oLoc d) :=
  fun i => if (i 1).val < 16384 then m (oLoc d) i else asO d (m (aLoc d)) i

/-! ## The partition of the index set -/

/-- The piece of the triple (c, s, k). -/
def pieceOf (t : Fin 2 × Fin 16 × Fin 11) : Finset S128x100000.Idx := pieceSet t.1 t.2.1 t.2.2

theorem mem_lowSet {i : S128x100000.Idx} : i ∈ lowSet ↔ (i 1).val < 16384 := by
  unfold lowSet; rw [Finset.mem_filter]; exact ⟨fun h => h.2, fun h => ⟨Finset.mem_univ _, h⟩⟩

theorem mem_pieceSet {c : Fin 2} {s : Fin 16} {k : Fin 11} {i : S128x100000.Idx} :
    i ∈ pieceSet c s k ↔ (i 0).val / 8 = s.val ∧ 16384 ≤ (i 1).val ∧ ((i 1).val - 16384) / 3840 = 2 * k.val + c.val := by
  unfold pieceSet; rw [Finset.mem_filter]; exact ⟨fun h => h.2, fun h => ⟨Finset.mem_univ _, h⟩⟩

theorem row_lt (i : S128x100000.Idx) : (i 0).val < 128 := (i 0).isLt
theorem col_lt (i : S128x100000.Idx) : (i 1).val < 100000 := (i 1).isLt

/-- Two different triples have disjoint pieces: an index determines its band, its chunk, and so its triple. -/
theorem pieces_disjoint : ∀ t ∈ (Finset.univ : Finset (Fin 2 × Fin 16 × Fin 11)), ∀ t' ∈ (Finset.univ : Finset (Fin 2 × Fin 16 × Fin 11)),
    t ≠ t' → Disjoint (pieceOf t) (pieceOf t') := by
  intro t _ t' _ hne
  rw [Finset.disjoint_left]
  intro i hi hi'
  obtain ⟨c, s, k⟩ := t
  obtain ⟨c', s', k'⟩ := t'
  rw [pieceOf, mem_pieceSet] at hi hi'
  dsimp only at hi hi'
  apply hne
  have hc := c.isLt
  have hc' := c'.isLt
  have e1 : c = c' := Fin.ext (by omega)
  have e2 : s = s' := Fin.ext (by omega)
  have e3 : k = k' := Fin.ext (by omega)
  rw [e1, e2, e3]

/-- The low columns meet no piece. -/
theorem low_disjoint : Disjoint lowSet ((Finset.univ : Finset (Fin 2 × Fin 16 × Fin 11)).biUnion pieceOf) := by
  rw [Finset.disjoint_biUnion_right]
  intro t _
  rw [Finset.disjoint_left]
  intro i hi hi'
  rw [pieceOf, mem_pieceSet] at hi'
  rw [mem_lowSet] at hi
  omega

/-- Every index is in the low columns or in a piece: its chunk number is at most 21 since 100000 − 16384 < 22 · 3840. -/
theorem low_cover : lowSet ∪ (Finset.univ : Finset (Fin 2 × Fin 16 × Fin 11)).biUnion pieceOf = Finset.univ := by
  ext i
  simp only [Finset.mem_union, Finset.mem_biUnion, Finset.mem_univ, true_and, iff_true]
  have h0 := row_lt i
  have h1 := col_lt i
  by_cases h : (i 1).val < 16384
  · exact Or.inl (mem_lowSet.mpr h)
  · refine Or.inr ⟨(⟨((i 1).val - 16384) / 3840 % 2, by omega⟩, ⟨(i 0).val / 8, by omega⟩, ⟨((i 1).val - 16384) / 3840 / 2, by omega⟩), ?_⟩
    rw [pieceOf, mem_pieceSet]
    dsimp only
    omega

/-! ## An array held whole is its low columns and its pieces -/

/-- The pieces of a family indexed by triples, as the three nested families. -/
theorem bigSep_triples (Φ : Fin 2 → Fin 16 → Fin 11 → sProp 𝕄) :
    (bigSep Finset.univ fun t : Fin 2 × Fin 16 × Fin 11 => Φ t.1 t.2.1 t.2.2)
      = bigSep Finset.univ fun c : Fin 2 => bigSep Finset.univ fun s : Fin 16 => bigSep Finset.univ fun k : Fin 11 => Φ c s k := by
  rw [bigSep_univ_prod]
  refine bigSep_congr fun c _ => ?_
  rw [bigSep_univ_prod]

/-- The source array whole is its low columns and its pieces. -/
theorem aPts_split (d : Dev nD) (f : Buf (Elt F) (aLoc d)) :
    (aLoc d ↦{fullShare} f : sProp 𝕄)
      = iprop((aLoc d ↦[lowSet]{fullShare} f) ∗ bigSep Finset.univ fun t : Fin 2 × Fin 16 × Fin 11 => aLoc d ↦[pieceOf t]{fullShare} f) := by
  rw [← pointsTo_biUnion Finset.univ (ℓ := aLoc d) pieceOf pieces_disjoint]
  have hu : (aLoc d ↦[lowSet ∪ (Finset.univ : Finset (Fin 2 × Fin 16 × Fin 11)).biUnion pieceOf]{fullShare} f : sProp 𝕄)
      ⊣⊢ iprop((aLoc d ↦[lowSet]{fullShare} f) ∗ aLoc d ↦[(Finset.univ : Finset (Fin 2 × Fin 16 × Fin 11)).biUnion pieceOf]{fullShare} f) :=
    pointsTo_union low_disjoint
  rw [← BI.equiv_iff.mp ⟨hu.1, hu.2⟩, low_cover]

/-- The call's result whole is its low columns and its pieces. -/
theorem oPts_split (d : Dev nD) (f : Buf (Elt F) (oLoc d)) :
    (oLoc d ↦{fullShare} f : sProp 𝕄)
      = iprop((oLoc d ↦[lowSet]{fullShare} f) ∗ bigSep Finset.univ fun t : Fin 2 × Fin 16 × Fin 11 => oLoc d ↦[pieceOf t]{fullShare} f) := by
  rw [← pointsTo_biUnion Finset.univ (ℓ := oLoc d) pieceOf pieces_disjoint]
  have hu : (oLoc d ↦[lowSet ∪ (Finset.univ : Finset (Fin 2 × Fin 16 × Fin 11)).biUnion pieceOf]{fullShare} f : sProp 𝕄)
      ⊣⊢ iprop((oLoc d ↦[lowSet]{fullShare} f) ∗ oLoc d ↦[(Finset.univ : Finset (Fin 2 × Fin 16 × Fin 11)).biUnion pieceOf]{fullShare} f) :=
    pointsTo_union low_disjoint
  rw [← BI.equiv_iff.mp ⟨hu.1, hu.2⟩, low_cover]

/-! ## What the call hands over and takes back, piece by piece -/

/-- What the two SparseCores are handed: every piece of the source and of the result, at given contents of the result's. -/
theorem cores_eq (d : Dev nD) (g : Buf (Elt F) (oLoc d)) :
    (bigSep Finset.univ fun c : Fin 2 => bigSep Finset.univ fun s : Fin 16 => bigSep Finset.univ fun k : Fin 11 =>
        iprop((aLoc d ↦[pieceSet c s k]{fullShare} m (aLoc d)) ∗ (oLoc d ↦[pieceSet c s k]{fullShare} g)))
      = (iprop((bigSep Finset.univ fun t : Fin 2 × Fin 16 × Fin 11 => aLoc d ↦[pieceOf t]{fullShare} m (aLoc d))
          ∗ bigSep Finset.univ fun t : Fin 2 × Fin 16 × Fin 11 => oLoc d ↦[pieceOf t]{fullShare} g) : sProp 𝕄) := by
  rw [← bigSep_sep']
  exact (bigSep_triples (F := F) fun c s k =>
    iprop((aLoc d ↦[pieceSet c s k]{fullShare} m (aLoc d)) ∗ (oLoc d ↦[pieceSet c s k]{fullShare} g))).symm

theorem st0_eq (d : Dev nD) :
    (bigSep Finset.univ fun c : Fin ((K (F := F)).nCore 0) => (P m).st 0 d c)
      = (iprop((bigSep Finset.univ fun t : Fin 2 × Fin 16 × Fin 11 => aLoc d ↦[pieceOf t]{fullShare} m (aLoc d))
          ∗ bigSep Finset.univ fun t : Fin 2 × Fin 16 × Fin 11 => oLoc d ↦[pieceOf t]{fullShare} m (oLoc d)) : sProp 𝕄) := by
  rw [← cores_eq m d (m (oLoc d))]
  rfl

theorem dn0_eq (d : Dev nD) :
    (bigSep Finset.univ fun c : Fin ((K (F := F)).nCore 0) => (P m).dn 0 d c)
      = (iprop((bigSep Finset.univ fun t : Fin 2 × Fin 16 × Fin 11 => aLoc d ↦[pieceOf t]{fullShare} m (aLoc d))
          ∗ bigSep Finset.univ fun t : Fin 2 × Fin 16 × Fin 11 => oLoc d ↦[pieceOf t]{fullShare} asO d (m (aLoc d))) : sProp 𝕄) := by
  rw [← cores_eq m d (asO d (m (aLoc d)))]
  rfl

/-- Before the call: the two arrays whole split into their low columns and what the call hands the SparseCores. -/
theorem st_intro (d : Dev nD) :
    iprop((aLoc d ↦{fullShare} m (aLoc d)) ∗ (oLoc d ↦{fullShare} m (oLoc d)))
      ⊢ (iprop((aLoc d ↦[lowSet]{fullShare} m (aLoc d)) ∗ (oLoc d ↦[lowSet]{fullShare} m (oLoc d))
          ∗ bigSep Finset.univ fun c : Fin ((K (F := F)).nCore 0) => (P m).st 0 d c) : sProp 𝕄) := by
  rw [st0_eq, aPts_split, oPts_split]
  iintro ⟨⟨Ha, Hap⟩, Ho, Hop⟩
  isplitl [Ha]; · iexact Ha
  isplitl [Ho]; · iexact Ho
  isplitl [Hap]; · iexact Hap
  iexact Hop

/-- On the low columns the call's result keeps its launch contents; -/
theorem tail_low (d : Dev nD) :
    (oLoc d ↦[lowSet]{fullShare} m (oLoc d) : sProp 𝕄) = oLoc d ↦[lowSet]{fullShare} tailFn m d :=
  pointsTo_congr fun i hi => by
    have h : (i 1).val < 16384 := mem_lowSet.mp hi
    unfold tailFn; rw [if_pos h]

/-- on a piece, whose columns start at 16384, it holds the source's. -/
theorem tail_piece (d : Dev nD) (t : Fin 2 × Fin 16 × Fin 11) :
    (oLoc d ↦[pieceOf t]{fullShare} asO d (m (aLoc d)) : sProp 𝕄) = oLoc d ↦[pieceOf t]{fullShare} tailFn m d :=
  pointsTo_congr fun i hi => by
    rw [pieceOf, mem_pieceSet] at hi
    have h : ¬ (i 1).val < 16384 := by omega
    unfold tailFn; rw [if_neg h]

/-- After the call: what comes back joins the low columns into the two arrays whole, the result at `tailFn`. -/
theorem dn_elim (d : Dev nD) :
    iprop((aLoc d ↦[lowSet]{fullShare} m (aLoc d)) ∗ (oLoc d ↦[lowSet]{fullShare} m (oLoc d))
          ∗ bigSep Finset.univ fun c : Fin ((K (F := F)).nCore 0) => (P m).dn 0 d c)
      ⊢ (iprop((aLoc d ↦{fullShare} m (aLoc d)) ∗ (oLoc d ↦{fullShare} tailFn m d)) : sProp 𝕄) := by
  rw [dn0_eq, aPts_split, oPts_split, tail_low,
    bigSep_congr (fun t _ => tail_piece m d t)]
  iintro ⟨Ha, Ho, Hap, Hop⟩
  isplitl [Ha Hap]
  · isplitl [Ha]; · iexact Ha
    iexact Hap
  · isplitl [Ho]; · iexact Ho
    iexact Hop

/-! ## One SparseCore's share is its subcores' -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The tasks' shares are the SparseCore's, both ways (the call's operands are dealt subcore by subcore). -/
theorem vecSplit : (K (F := F)).VecSplit' (P m) 0 := by
  intro d c
  show (bigSep Finset.univ fun s : Fin 16 => tileIn m d (Fin.cast nCore_zero c) s) ⊢ |={Set.univ}=> iprop(
      (bigSep Finset.univ fun i : Fin ((K (F := F)).nSub 0) => tileIn m d (Fin.cast nCore_zero c) (Fin.cast nSub_zero i))
      ∗ ((bigSep Finset.univ fun i : Fin ((K (F := F)).nSub 0) => tileOut m d (Fin.cast nCore_zero c) (Fin.cast nSub_zero i))
          -∗ bigSep Finset.univ fun s : Fin 16 => tileOut m d (Fin.cast nCore_zero c) s))
  rw [bigSep_tasks (F := F) (fun s => tileIn m d (Fin.cast nCore_zero c) s),
    bigSep_tasks (F := F) (fun s => tileOut m d (Fin.cast nCore_zero c) s)]
  iintro H; imodintro
  isplitl [H]; · iexact H
  iintro H; iexact H

end Cert.Kernel.Pf

end
-- ==== Proof.RegionW.lean ====
/-
  The TensorCore pipeline of the program: eight grid points, point t fetching rows 2048 t ‥ 2048 (t + 1) of the
  16384 × 128 argument into a staging buffer, the body storing its transpose into the result's staging buffer, the
  write-back putting it at columns 2048 t ‥ 2048 (t + 1) of the 128 × 100000 result. The result's window is cut at the
  array's end in principle (100000 is no multiple of 2048) but none of the eight blocks reaches it.

  Here: the proof data (what each staging buffer holds after the body at each point), what the body finds, the body's
  triple and the library's body obligation.
-/
import proofs.«210814_g12945031431005_cont_9to1_m_1025_36_alg».proof.Proof.CommonW

noncomputable section

namespace Cert.Kernel.Pf

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig (HIx 1) (Elt F) ℕ UU ℕ

-- the memory as the region is entered
variable (M : (ℓ : Loc nD τ sig) → Buf (Elt F) ℓ)

/-! ## The proof data -/

/-- Block `t` of the argument as the fetch reads it. -/
def kblk (c : Dev nD) (t : Fin cfg1.N) : (win1_0.xblock (grid1.coords t)).Idx → Elt F .f32 :=
  (win1_0.blk t).view.read (Elt F) (M ((c : Thread nD τ).loc main_arg0))

/-- What the argument's staging buffer holds at point `t`: the block (the filler is never seen: the blocks tile the array). -/
def kblk8 (c : Dev nD) (t : Fin cfg1.N) : S2048x128.Idx → Elt F .f32 :=
  win1_0.fill (grid1.coords t) (fun _ => Scalar.ofBits .f32 0#32) (kblk M c t)
/-- What the result's staging buffer holds after the body: its transpose. -/
def tblk8 (c : Dev nD) (t : Fin cfg1.N) : S128x2048.Idx → Elt F .f32 :=
  transpose S128x2048 [1, 0] (kblk8 M c t) transposes_S2048x128_p1_0_S128x2048

/-- The wait pairs the TensorCore may have recorded: those at or below the level of the one SparseCore call's end. -/
def recB (c : Dev nD) : Set (SemLoc sig × HIx 1) := {p | (K (F := F)).lev ((c : Thread nD τ), p.1) p.2 ≤ 8}

def dats (_ : Fin 1) (c : Dev nD) : Dat τ (Elt F) (HIx 1) ℕ UU ℕ cfg1 c where
  A w := M ((cfg1.win w).arr.view.loc (c : Thread nD τ))
  after w t := match w with
    | ⟨0, _⟩ => kblk8 M c t
    | ⟨1, _⟩ => tblk8 M c t
  Φ _ := iprop(emp)
  q _ := fullShare
  owed _ := 0
  recorded _ := recB (F := F) c

abbrev 𝒱₀' : Variants := Variants.none

/-- The argument's buffer just fetched holds the block, whatever it held; -/
theorem before_0 (c : Dev nD) (t : Fin cfg1.N) (d) :
    (dats M 0 c).before (0 : Fin 2) t d = kblk8 M c t := by
  unfold Dat.before; rw [if_pos (fetch1_0 t)]
  exact (dats M 0 c).fetched_of_clip_none (0 : Fin 2) t (fun _ => rfl) d _
/-- the result's buffer holds something nothing names (every point writes it back). -/
theorem before_1 (c : Dev nD) (t : Fin cfg1.N) (d) : (dats M 0 c).before (1 : Fin 2) t d = d := by
  unfold Dat.before
  rw [if_neg (by rw [show (cfg1.win (1 : Fin 2)).fetch t = false from by
    rcases fin_N1 t with rfl | rfl | rfl | rfl | rfl | rfl | rfl | rfl <;> decide]; exact Bool.false_ne_true)]
  by_cases h0 : t.val = 0
  · rw [if_pos h0]
  · rw [if_neg h0]; exact if_pos (flush1_1 _)

/-! ## The kernel body's obligation -/

/-- The body on staging buffer `s0` of the argument's window and `s1` of the result's: a whole load, the transpose,
    a dead load of the result's buffer, a whole store — the result's buffer ends holding the transpose of the other's. -/
theorem xpose_body (c : Dev nD) (E : Set ℕ) (i : grid1.Coords) (s0 s1 : Fin 2)
    (X0 : S2048x128.Idx → Elt F .f32) (X1 : S128x2048.Idx → Elt F .f32) (Kp : PUnit → sProp 𝕄) :
    iprop((owns (c : Thread nD τ) (stage1_0 s0) fullShare X0 ∗ owns (c : Thread nD τ) (stage1_1 s1) fullShare X1)
          ∗ (iprop(owns (c : Thread nD τ) (stage1_0 s0) fullShare X0
                  ∗ owns (c : Thread nD τ) (stage1_1 s1) fullShare (transpose S128x2048 [1, 0] X0 transposes_S2048x128_p1_0_S128x2048)) -∗ Kp ⟨⟩))
      ⊢ wp frame (wpE (defs₀ (F := F)) 𝒱₀ c none) E
          (cc1__xpose_body i (stage1_0 s0) (hstage1_0 s0) (Memref.whole main_v0) (Memref.isWhole_whole _) (stage1_1 s1) (hstage1_1 s1)) Kp := by
  have hz : (![0, 0] : Fin 2 → Nat) = fun _ => 0 := funext fun a => by fin_cases a <;> rfl
  fin_cases s0 <;> fin_cases s1
  · -- the argument's buffer `cc1_stg0_0`, the result's `cc1_stg1_0`
    have hr0 : (Memref.whole cc1_stg0_0 : Memref sig .tc _ _ _).view.readAt (Elt F) (Rect.unit (s := S2048x128) ![0, 0] S2048x128.size
        inb_S2048x128_S2048x128_0_0).toLoadRect = id := funext (Memref.readAt_unit_zero (Elt F) cc1_stg0_0 hz _)
    have hw1 : ∀ f w, (((Memref.whole cc1_stg1_0).access (Rect.unit (s := S128x2048) ![0, 0] S128x2048.size inb_S128x2048_S128x2048_0_0)) :
        View sig .tc _ _ _).write (Elt F) f w Finset.univ = w := Memref.write_access_unit_zero_univ (Elt F) cc1_stg1_0 hz _
    simp only [owns_whole_eq, cc1__xpose_body_eq_skeleton]; unfold cc1__xpose_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists _; isplitr; swap; · iexact H1
      ipureintro; rw [hf0]; rfl
  · -- the argument's buffer `cc1_stg0_0`, the result's `cc1_stg1_1`
    have hr0 : (Memref.whole cc1_stg0_0 : Memref sig .tc _ _ _).view.readAt (Elt F) (Rect.unit (s := S2048x128) ![0, 0] S2048x128.size
        inb_S2048x128_S2048x128_0_0).toLoadRect = id := funext (Memref.readAt_unit_zero (Elt F) cc1_stg0_0 hz _)
    have hw1 : ∀ f w, (((Memref.whole cc1_stg1_1).access (Rect.unit (s := S128x2048) ![0, 0] S128x2048.size inb_S128x2048_S128x2048_0_0)) :
        View sig .tc _ _ _).write (Elt F) f w Finset.univ = w := Memref.write_access_unit_zero_univ (Elt F) cc1_stg1_1 hz _
    simp only [owns_whole_eq, cc1__xpose_body_eq_skeleton]; unfold cc1__xpose_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists _; isplitr; swap; · iexact H1
      ipureintro; rw [hf0]; rfl
  · -- the argument's buffer `cc1_stg0_1`, the result's `cc1_stg1_0`
    have hr0 : (Memref.whole cc1_stg0_1 : Memref sig .tc _ _ _).view.readAt (Elt F) (Rect.unit (s := S2048x128) ![0, 0] S2048x128.size
        inb_S2048x128_S2048x128_0_0).toLoadRect = id := funext (Memref.readAt_unit_zero (Elt F) cc1_stg0_1 hz _)
    have hw1 : ∀ f w, (((Memref.whole cc1_stg1_0).access (Rect.unit (s := S128x2048) ![0, 0] S128x2048.size inb_S128x2048_S128x2048_0_0)) :
        View sig .tc _ _ _).write (Elt F) f w Finset.univ = w := Memref.write_access_unit_zero_univ (Elt F) cc1_stg1_0 hz _
    simp only [owns_whole_eq, cc1__xpose_body_eq_skeleton]; unfold cc1__xpose_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists _; isplitr; swap; · iexact H1
      ipureintro; rw [hf0]; rfl
  · -- the argument's buffer `cc1_stg0_1`, the result's `cc1_stg1_1`
    have hr0 : (Memref.whole cc1_stg0_1 : Memref sig .tc _ _ _).view.readAt (Elt F) (Rect.unit (s := S2048x128) ![0, 0] S2048x128.size
        inb_S2048x128_S2048x128_0_0).toLoadRect = id := funext (Memref.readAt_unit_zero (Elt F) cc1_stg0_1 hz _)
    have hw1 : ∀ f w, (((Memref.whole cc1_stg1_1).access (Rect.unit (s := S128x2048) ![0, 0] S128x2048.size inb_S128x2048_S128x2048_0_0)) :
        View sig .tc _ _ _).write (Elt F) f w Finset.univ = w := Memref.write_access_unit_zero_univ (Elt F) cc1_stg1_1 hz _
    simp only [owns_whole_eq, cc1__xpose_body_eq_skeleton]; unfold cc1__xpose_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists _; isplitr; swap; · iexact H1
      ipureintro; rw [hf0]; rfl

/-- The library's body obligation: the argument's buffer arrives holding its block (`before_0`), the result's
    holding anything (`before_1`); the first leaves as it came, the second holding the transpose. -/
theorem body_obligation (c : Dev nD) : BodyObligationLoose (dats M 0 c) (defs₀ (F := F)) 𝒱₀ (none : HIx 1) Set.univ := fun t => by
  rw [bigSep_W1, bigSep_W1]
  simp only
  rw [show (dats M 0 c).Φ t.succ = (dats M 0 c).Φ t.castSucc from rfl,
    show (dats M 0 c).owesAt (none : HIx 1) t.succ = (dats M 0 c).owesAt (none : HIx 1) t.castSucc from rfl]
  iintro ⟨HΦ, Ho, ⟨%d0, H0⟩, ⟨%d1, H1⟩⟩
  rw [before_0 M c t d0, before_1 M c t d1]
  iapply (xpose_body (F := F) c Set.univ (grid1.coords t) (cfg1.slots t 0) (cfg1.slots t 1) (kblk8 M c t) d1 _)
  isplitl [H0 H1]
  · isplitl [H0]
    · iexact H0
    · iexact H1
  iintro ⟨H0, H1⟩
  isplitl [HΦ]; · iexact HΦ
  isplitl [Ho]; · iexact Ho
  isplitl [H0]
  · iexact H0
  · iexists tblk8 M c t
    change _ ⊢ owns (c : Thread nD τ) (stage1_1 (cfg1.slots t 1)) fullShare (win1_1.fill (grid1.coords t) (tblk8 M c t) (win1_1.cut (grid1.coords t) (tblk8 M c t)))
    rw [win1_1.fill_cut]
    exact BI.Entails.refl _

/-! ## The region, around the TensorCore's state -/

/-- The prefetched tables' admissible contents: no table. -/
abbrev adm : (p : Fin 1) → (pcfgs (F := F) p).Adm := fun p => (cfgs p).toPCfg_adm
/-- The levels are the SparseCore launch's. -/
abbrev Lk : GSem nD τ sig → Finset (HIx 1) := (K (F := F)).L
abbrev lvk : GSem nD τ sig → HIx 1 → ℕ := (K (F := F)).lev

/-- The TensorCore owes nothing, its recorded waits at or below the SparseCore call's end. -/
abbrev Rr (c : Dev nD) : sProp 𝕄 := Pipeline.owesWithin c (0 : CellTallies nD τ sig (HIx 1)) (recB (F := F) c)

/-- The TensorCore's arrays as the region finds them. -/
abbrev Vm (c : Dev nD) : (b : Ref sig .tc) → Buf (Elt F) ((c : Thread nD τ).loc b) := fun b => M ((c : Thread nD τ).loc b)

/-- What bypasses the region: the three arrays that are no window's. -/
abbrev Zr (c : Dev nD) : sProp 𝕄 :=
  iprop((((c : Thread nD τ).loc main_arg1) ↦{fullShare} Vm M c main_arg1) ∗ (((c : Thread nD τ).loc main_c) ↦{fullShare} Vm M c main_c)
    ∗ (((c : Thread nD τ).loc main_v0) ↦{fullShare} Vm M c main_v0))

/-- What the region leaves: its two arrays at their final contents, the three others. -/
abbrev Tn (c : Dev nD) : sProp 𝕄 := iprop((dats M 0 c).arrays ((dats M 0 c).arrAt · cfg1.N) ∗ Zr M c)

set_option backward.isDefEq.respectTransparency.types false in
/-- The region: the launch's layout, no semaphore of the kernel's own, the body obligation; entered from the
    TensorCore's arrays whole and its `owes`, left with the two windows' arrays at their final contents. -/
def reg : Pipeline.RegionSeg (pcfgs (F := F)) adm (dats M) (none : HIx 1) defs₀ 𝒱₀ (Lk (F := F)) (lvk (F := F)) 0 where
  win := launch1.win.to₀
  block_pos := launch1.block_pos
  stage_whole := launch1.stage_whole
  K := PEmpty
  osem := fun k => k.elim
  ho := Pipeline.OwnSemFacts.none _
  hbody c := body_obligation M c
  hwaits := Pipeline.hwaits_of_owed_zero _ _ _ _ (Lk (F := F)) (lvk (F := F)) 0 fun _ _ => rfl
  pre c := iprop(unscopedBufs c (Vm M c) ∗ Rr (F := F) c)
  post c := iprop(Tn M c ∗ Pipeline.owesWithin c (0 : CellTallies nD τ sig (HIx 1)) ((dats M 0 c).bound none (Fin.last cfg1.N)))
  X c := iprop(emp)
  Y c := iprop(emp)
  Z c := Zr M c
  hentry c := by
    have hsplit := (Pipeline.arrays_of_unscopedBufs (pcfgs (F := F)) adm (dats M) launch1.win launch1.arr_whole c
      ((dats M 0 c).share_full fun _ => rfl) (Vm M c) fun _ => rfl).trans (sep_mono .rfl (Entails.of_eq (unscopedRest1_eq c (Vm M c))))
    show iprop((unscopedBufs c (Vm M c) ∗ Rr (F := F) c) ∗ _ ∗ _) ⊢ _
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr; · iempintro
    iexact Hz
  hin c := by
    show _ ⊢ (iprop(emp) : sProp 𝕄)
    iintro -; iempintro
  hout c := by
    rw [Pipeline.ownSems0_none, scopedRest1_eq]
    show (iprop(emp) : sProp 𝕄) ⊢ _
    iintro -; isplitr; · iempintro
    isplitr <;> iempintro
  hexit c := by
    iintro ⟨Ha, HO, -, HZ⟩
    imodintro
    isplitr [HO]
    · isplitl [Ha]; · iexact Ha
      iexact HZ
    · iexact HO

end Cert.Kernel.Pf

end
-- ==== Proof.MainW.lean ====
/-
  The run of the whole program: the launch element, @main on the TensorCore — the constant, the SparseCore call, the
  host copy, the pipeline's region —, how the final memory reads the claim, and the launch theorem's application.
-/
import proofs.«210814_g12945031431005_cont_9to1_m_1025_36_alg».proof.Proof.CommonW
import proofs.«210814_g12945031431005_cont_9to1_m_1025_36_alg».proof.Proof.Spec
import proofs.«210814_g12945031431005_cont_9to1_m_1025_36_alg».proof.Proof.LayoutW
import proofs.«210814_g12945031431005_cont_9to1_m_1025_36_alg».proof.Proof.RegionW

noncomputable section

namespace Cert.Kernel.Pf

open Cert.Kernel Cert.Kernel.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch element -/

/-- The handshakes' rounds, the pipeline's staging cells' rounds and duty tokens, no counter yet. -/
def u₀ : UU := (initOf (K (F := F)).hsCells (K (F := F)).hsToks,
  (initOf (Pipeline.cells cfgs cellOf_inj) (Pipeline.launchToks cfgs cellOf_inj), 1))

/-- What @main's proof starts from on device `d`: the pipeline's cells' ghost state and its duty tokens. -/
def G (d : Dev nD) : sProp 𝕄 :=
  iprop((bigSep Finset.univ fun p : Fin 1 => Pipeline.cellsGhost cfgs (EP (F := F)) p d)
    ∗ bigSep Finset.univ fun p : Fin 1 => Pipeline.toksInit cfgs (EP (F := F)) p d)

omit m in
theorem bigSep_emp' {I : Type} (s : Finset I) : (bigSep s fun _ => iprop(emp)) = (iprop(emp) : sProp 𝕄) := bigSep_emp_const s

omit m in
/-- The pipeline's rounds and the counters, owned side by side, owned apart. -/
theorem own_split (a : UP) (b : Counters) :
    (BI.own (ER (F := F) (a, b)) : sProp 𝕄)
      ⊢ iprop(BI.own (EP (F := F) a) ∗ BI.own (((Emb.inr : Emb Counters (UP × Counters)).trans (ER (F := F))) b)) :=
  own_pair_emb (ER (F := F)) a b

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_split (F := F) _ _) $$ HR
  icases H2 with ⟨HP, -⟩
  imod (Pipeline.fund_ghost cfgs (EP (F := F)) cellOf_inj) $$ HP with ⟨Hg, Ht⟩
  imodintro
  isplitl [HH]; · iexact HH
  isplitl [Hg Ht]
  · unfold G; rw [bigSep_sep']
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev k' : DevRef τ sig := Proc.devRef .tc (main_arg0 : Ref sig .tc)
abbrev a' : DevRef τ sig := Proc.devRef .tc (main_arg1 : Ref sig .tc)
abbrev c' : DevRef τ sig := Proc.devRef .tc (main_c : Ref sig .tc)
abbrev o' : DevRef τ sig := Proc.devRef .tc (main_v0 : Ref sig .tc)
abbrev r' : DevRef τ sig := Proc.devRef .tc (main_v1 : Ref sig .tc)
/-- The TensorCore's arrays, all unscoped. -/
abbrev S5 : Finset (DevRef τ sig) := {k', a', c', o', r'}
abbrev opC : HloOp τ sig (Elt F) := StableHlo.nullary main_c (constantI S1 32 16384#32)
abbrev opI : HloOp τ sig (Elt F) := StableHlo.unary main_v0 main_v1 id

omit m in
theorem held_S5 (d : Dev nD) (W : Valuation τ sig (Elt F)) :
    (held (T d) S5 W : sProp 𝕄) = iprop((kLoc d ↦{fullShare} W k') ∗ (aLoc d ↦{fullShare} W a') ∗ (cLoc d ↦{fullShare} W c')
      ∗ (oLoc d ↦{fullShare} W o') ∗ (rLoc d ↦{fullShare} W r')) := by
  unfold held S5
  rw [SparseCore.bigSep_insert' (by decide), SparseCore.bigSep_insert' (by decide), SparseCore.bigSep_insert' (by decide),
    SparseCore.bigSep_insert' (by decide), bigSep_singleton]

omit m in
theorem unscopedBufs_eq (d : Dev nD) (W : (b : Ref sig .tc) → Buf (Elt F) ((d.tc : Thread nD τ).loc b)) :
    (unscopedBufs d W : sProp 𝕄) = iprop((kLoc d ↦{fullShare} W main_arg0) ∗ (aLoc d ↦{fullShare} W main_arg1) ∗ (cLoc d ↦{fullShare} W main_c)
      ∗ (oLoc d ↦{fullShare} W main_v0) ∗ (rLoc d ↦{fullShare} W main_v1)) := by
  unfold unscopedBufs
  rw [show (Finset.univ.filter fun b : Ref sig .tc => ¬ b.isScoped) = {main_arg0, main_arg1, main_c, main_v0, main_v1} by decide,
    SparseCore.bigSep_insert' (by decide), SparseCore.bigSep_insert' (by decide), SparseCore.bigSep_insert' (by decide),
    SparseCore.bigSep_insert' (by decide), bigSep_singleton]

/-- The launch valuation; after the constant; after the SparseCore call (its result at `tailFn`); after the host copy. -/
def V0 (d : Dev nD) : Valuation τ sig (Elt F) := fun b => m (d, b)
def V1 (d : Dev nD) : Valuation τ sig (Elt F) := (opC (F := F)).result (V0 m d)
def V2 (d : Dev nD) : Valuation τ sig (Elt F) := Function.update (V1 m d) o' (tailFn m d)
def V3 (d : Dev nD) : Valuation τ sig (Elt F) := (opI (F := F)).result (V2 m d)
/-- The memory as the pipeline's region finds it. -/
def M3 : (ℓ : Loc nD τ sig) → Buf (Elt F) ℓ := fun ℓ => V3 m ℓ.1 ℓ.2

theorem unscoped_held (d : Dev nD) : (unscopedBufs d (fun b => m ((SparseCore.T d).loc b)) : sProp 𝕄) = held (T d) S5 (V0 m d) := by
  rw [unscopedBufs_eq, held_S5]; rfl

theorem hC : (opC (F := F)).bufs ⊆ S5 := show ({c'} : Finset (DevRef τ sig)) ⊆ S5 by decide
theorem hI : (opI (F := F)).bufs ⊆ S5 := show ({o', r'} : Finset (DevRef τ sig)) ⊆ S5 by decide

theorem rC_k (d : Dev nD) : (opC (F := F)).result (V0 m d) k' = m (kLoc d) := (opC (F := F)).result_of_not_mem (V0 m d) (b := k') (show k' ∉ ({c'} : Finset (DevRef τ sig)) by decide)
theorem rC_a (d : Dev nD) : (opC (F := F)).result (V0 m d) a' = m (aLoc d) := (opC (F := F)).result_of_not_mem (V0 m d) (b := a') (show a' ∉ ({c'} : Finset (DevRef τ sig)) by decide)
theorem rC_o (d : Dev nD) : (opC (F := F)).result (V0 m d) o' = m (oLoc d) := (opC (F := F)).result_of_not_mem (V0 m d) (b := o') (show o' ∉ ({c'} : Finset (DevRef τ sig)) by decide)
theorem V2_k (d : Dev nD) : V2 m d k' = m (kLoc d) := (Function.update_of_ne (show k' ≠ o' by decide) _ _).trans (rC_k m d)
theorem V2_a (d : Dev nD) : V2 m d a' = m (aLoc d) := (Function.update_of_ne (show a' ≠ o' by decide) _ _).trans (rC_a m d)
theorem V2_c (d : Dev nD) : V2 m d c' = (opC (F := F)).result (V0 m d) c' := Function.update_of_ne (show c' ≠ o' by decide) _ _
theorem V2_o (d : Dev nD) : V2 m d o' = tailFn m d := Function.update_self _ _ _
theorem V2_r (d : Dev nD) : V2 m d r' = (opC (F := F)).result (V0 m d) r' := Function.update_of_ne (show r' ≠ o' by decide) _ _

variable [FloatOps F]

/-- What @main leaves the claim: the pipeline's two arrays at their final contents, the three others. -/
def FIN (d : Dev nD) : sProp 𝕄 := Tn (M3 m) d

theorem held_unscoped (d : Dev nD) : (held (T d) S5 ((opI (F := F)).result (V2 m d)) : sProp 𝕄) = unscopedBufs d (Vm (M3 m) d) := by
  rw [held_S5, unscopedBufs_eq]; rfl

/-- The TensorCore's state after the one call, but for what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit m in
/-- After its one call the TensorCore owes nothing. -/
theorem tcSt_eq (d : Dev nD) :
    ((K (F := F)).tcSt EH d 1 : sProp 𝕄)
      = iprop((∃ W, ⌜(K (F := F)).WBelow (T d) W (8 * 1)⌝ ∗ owes (T d) (0 : CellTallies nD τ sig (HIx 1)) W) ∗ tcRest (F := F) d) := by
  unfold SparseCore.Cfg.tcSt tcRest
  rw [(K (F := F)).Otc_end d (le_refl 1)]

omit m in
/-- The region's call as @main spells it is the pipeline program's call, lifted. -/
theorem call_eq :
    (Prog.lift (.customCall (SparseCore.inner (Pipeline.entry 0)) ()) :
        Prog (TpuEff nD τ sig (Elt F) (SparseCore.Sig (ΛP (F := F)) 1) .tc) PUnit)
      = SparseCore.liftProg (Prog.op (.customCall (Pipeline.entry 0) ()) fun _ => .ret ⟨⟩) := rfl

set_option backward.isDefEq.respectTransparency.types false in
set_option maxHeartbeats 1000000 in
omit m in
/-- The pipeline's region on the TensorCore of `d`, inside the SparseCore program: from the arrays whole at `M`, what the
    TensorCore owes and the pipeline's ghost state, to the region's post. -/
theorem region_wp (M : (ℓ : Loc nD τ sig) → Buf (Elt F) ℓ) (d : Dev nD) (Φ : PUnit → sProp 𝕄) :
    iprop(levAts (Lk (F := F)) (lvk (F := F)) ∗ boundary (T d) ∗ (unscopedBufs d (Vm M d) ∗ Rr (F := F) d)
        ∗ Pipeline.cellsGhost cfgs (EP (F := F)) 0 d ∗ Pipeline.toksInit cfgs (EP (F := F)) 0 d
        ∗ (iprop(boundary (T d) ∗ (reg M).post d) -∗ Φ ⟨⟩))
      ⊢ wp frame (wpE ((K (F := F)).defs (D (F := F))) 𝒱 (T d) none) Set.univ
          (Prog.lift (.customCall (SparseCore.inner (Pipeline.entry 0)) ())) Φ := by
  rw [call_eq]
  refine BIBase.Entails.trans ?_ ((K (F := F)).wp_liftProg (D (F := F)) 𝒱 (T d) Set.univ none _ _)
  iintro ⟨#Hlv, Hb, Hpre, Hg, Ht, Hk⟩
  iapply (Pipeline.RegionSeg.wp (pcfgs (F := F)) adm (dats M) (none : HIx 1) cellOf_inj (EP (F := F)) defs₀ 𝒱₀ (Lk (F := F)) (lvk (F := F))
    (reg M) d none (fun _ h => nomatch h) (fun _ => .ret ⟨⟩) Φ)
  isplitl [Hk]
  · iintro H; rw [wp_ret]; imodintro; iapply Hk; iexact H
  isplitl [Hb]; · iexact Hb
  isplitl [Hpre]
  · iapply (show (iprop(unscopedBufs d (Vm M d) ∗ Rr (F := F) d) : sProp 𝕄) ⊢ (reg M).pre d from .rfl)
    iexact Hpre
  isplitr; · iexact Hlv
  isplitl [Hg] <;> iassumption

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes FIN
  rw [unscoped_held]
  simp only [main, wp_bind, wp_pure]
  iintro ⟨#Hctx, Hst, ⟨Hb, Hheld, -, -⟩, HG⟩
  -- the constant
  iapply (wp_hlo_within 𝒱 (SparseCore.T d) none Set.univ (op := opC) (S := S5) hC (V := V0 m d)) $$ [Hb Hheld]
  · isplitl [Hb]; · iexact Hb
    iexact Hheld
  iintro ⟨Hb, Hheld⟩
  rw [wp_ret]
  ihave Hh := (Entails.of_eq (held_S5 (F := F) d _)) $$ Hheld
  icases Hh with ⟨Hk, Ha, Hc, Ho, Hr⟩
  imodintro
  -- the SparseCore call: the two arrays' high columns to the tiles and back
  rw [rC_a m d, rC_o m d]
  ihave Hs := (st_intro m d) $$ [Ha Ho]
  · isplitl [Ha] <;> iassumption
  icases Hs with ⟨Hal, Hol, Hst0⟩
  iapply ((K (F := F)).wp_run (D (F := F)) 𝒱 (EH := EH) (P := P m) κ d 0) $$ [Hst Hst0 Hb Hk Hc Hr Hal Hol HG]
  isplitr; · iexact Hctx
  isplitl [Hst]; · iexact Hst
  isplitl [Hst0]; · iexact Hst0
  iintro ⟨Hst, Hdn⟩
  ihave Hj := (dn_elim m d) $$ [Hal Hol Hdn]
  · isplitl [Hal]; · iexact Hal
    isplitl [Hol] <;> iassumption
  icases Hj with ⟨Ha, Ho⟩
  -- the host copy of the call's result into the program's result
  iapply (wp_hlo_within 𝒱 (SparseCore.T d) none Set.univ (op := opI) (S := S5) hI (V := V2 m d)) $$ [Hb Hk Ha Hc Ho Hr]
  · isplitl [Hb]; · iexact Hb
    rw [held_S5, V2_k, V2_a, V2_c, V2_o, V2_r, rC_k]
    isplitl [Hk]; · iexact Hk
    isplitl [Ha]; · iexact Ha
    isplitl [Hc]; · iexact Hc
    isplitl [Ho]; · iexact Ho
    iexact Hr
  iintro ⟨Hb, Hheld⟩
  rw [wp_ret]
  imodintro
  -- the pipeline's region, from the arrays whole and what the TensorCore owes
  ihave Hub := (Entails.of_eq (held_unscoped m d)) $$ Hheld
  ihave Hst' := (Entails.of_eq (show ((K (F := F)).tcSt EH d ((0 : Fin 1).val + 1) : sProp 𝕄) = _ from tcSt_eq (F := F) d)) $$ Hst
  icases Hst' with ⟨⟨%W, %hW, HO⟩, Hrest⟩
  ihave Hlev := (SparseCore.Cfg.ctx_levAts κ) $$ Hctx
  unfold G
  rw [show (Finset.univ : Finset (Fin 1)) = {0} from rfl, bigSep_singleton, bigSep_singleton]
  icases HG with ⟨Hg, Ht⟩
  iapply (region_wp (F := F) (M3 m) d _) $$ [Hlev Hb Hub HO Hg Ht Hrest]
  isplitl [Hlev]; · iexact Hlev
  isplitl [Hb]; · iexact Hb
  isplitl [Hub HO]
  · isplitl [Hub]; · iexact Hub
    iexists W; isplitr
    · ipureintro; exact fun p hp => hW p hp
    · iexact HO
  isplitl [Hg]; · iexact Hg
  isplitl [Ht]; · iexact Ht
  iintro ⟨-, Hpost⟩
  ihave Hp := (show (reg (M3 m)).post d ⊢ iprop(Tn (M3 m) d ∗ Pipeline.owesWithin d (0 : CellTallies nD τ sig (HIx 1)) ((dats (M3 m) 0 d).bound none (Fin.last cfg1.N))) from .rfl) $$ Hpost
  icases Hp with ⟨HT, ⟨%W', %hW', HO⟩⟩
  imodintro
  isplitl [HO Hrest]
  · iapply (Entails.of_eq (tcSt_eq (F := F) d).symm)
    isplitl [HO]
    · iexists W'; isplitr
      · ipureintro
        intro p hp
        rcases hW' hp with h | ⟨w, s, rfl⟩
        · exact h
        · exact le_of_eq_of_le ((K (F := F)).lev_none _) (Nat.zero_le _)
      · iexact HO
    · iexact Hrest
  · iexact HT

end Cert.Kernel.Pf

end
-- ==== Proof.Tile1W.lean ====
import proofs.«210814_g12945031431005_cont_9to1_m_1025_36_alg».proof.Proof.CommonW

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The kernel's memrefs as the body table passes them. -/
abbrev aV : Memref sig .scVector .hbm S128x100000 .f32 := Memref.whole main_arg1_scv
abbrev oV : Memref sig .scVector .hbm S128x100000 .f32 := Memref.whole main_v0_scv
abbrev sB : Memref sig .scVector .vmem S2x8x3840 .f32 := Memref.whole cc0_scratch0
abbrev sT : Memref sig .scVector .vmem S8x2976 .f32 := Memref.whole cc0_scratch1

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-! ## The rectangles the program slices are the pieces -/

/-- Chunk `r` of the double-buffered run, as the program slices it. -/
abbrev rK (L : grid0.Coords) (r : Fin 10) : Rect S128x100000 :=
  Rect.unit (s := S128x100000) (k0_off1 L (BitVec.ofNat 32 (2 * r.val))) S8x3840.size (k0_off1_inb L r)

theorem set_rK (L : grid0.Coords) (r : Fin 10) : (rK L r).set = pieceSet (cL L) (jL L) ⟨r.val, by omega⟩ := by
  ext i
  have h0 : (L 0).val < 2 := (L 0).isLt
  have h1 : (L 1).val < 16 := (L 1).isLt
  have hi0 : (i 0).val < 128 := (i 0).isLt
  have hi1 : (i 1).val < 100000 := (i 1).isLt
  have hr : r.val < 10 := r.isLt
  simp only [Rect.mem_set_unit, pieceSet, Finset.mem_filter, Finset.mem_univ, true_and, k0_off1_eq L r, Fin.forall_fin_two]
  simp only [Fin.coe_cast, Matrix.cons_val_zero, Matrix.cons_val_one, Matrix.head_cons]
  show (_ ∧ (i 0).val < _ + 8) ∧ (_ ∧ (i 1).val < _ + 3840) ↔ _
  omega

theorem cond1_iff : ∀ L : grid0.Coords, (k0_cond1 L = 1#1 ↔ (L 0).val = 0) := by decide +kernel
theorem cond2_iff : ∀ L : grid0.Coords, (k0_cond2 L = 1#1 ↔ (L 0).val = 1) := by decide +kernel

/-- The 21st chunk (first SparseCore only) and the last 2976 columns (second SparseCore only). -/
abbrev rK2 (L : grid0.Coords) (h : k0_cond1 L = 1#1) : Rect S128x100000 :=
  Rect.unit (s := S128x100000) (k0_off2 L) S8x3840.size (k0_off2_inb L h)
abbrev rK3 (L : grid0.Coords) (h : k0_cond2 L = 1#1) : Rect S128x100000 :=
  Rect.unit (s := S128x100000) (k0_off3 L) S8x2976.size (k0_off3_inb L h)

theorem set_rK2 (L : grid0.Coords) (h : k0_cond1 L = 1#1) : (rK2 L h).set = pieceSet (cL L) (jL L) 10 := by
  ext i
  have h0 : (L 0).val = 0 := (cond1_iff L).mp h
  have h1 : (L 1).val < 16 := (L 1).isLt
  have hi0 : (i 0).val < 128 := (i 0).isLt
  have hi1 : (i 1).val < 100000 := (i 1).isLt
  simp only [Rect.mem_set_unit, pieceSet, Finset.mem_filter, Finset.mem_univ, true_and, k0_off2_eq L, Fin.forall_fin_two]
  simp only [Fin.coe_cast, Matrix.cons_val_zero, Matrix.cons_val_one, Matrix.head_cons]
  show (_ ∧ (i 0).val < _ + 8) ∧ (_ ∧ (i 1).val < _ + 3840) ↔ _ ∧ _ ∧ _ = 2 * 10 + _
  omega

theorem set_rK3 (L : grid0.Coords) (h : k0_cond2 L = 1#1) : (rK3 L h).set = pieceSet (cL L) (jL L) 10 := by
  ext i
  have h0 : (L 0).val = 1 := (cond2_iff L).mp h
  have h1 : (L 1).val < 16 := (L 1).isLt
  have hi0 : (i 0).val < 128 := (i 0).isLt
  have hi1 : (i 1).val < 100000 := (i 1).isLt
  simp only [Rect.mem_set_unit, pieceSet, Finset.mem_filter, Finset.mem_univ, true_and, k0_off3_eq L, Fin.forall_fin_two]
  simp only [Fin.coe_cast, Matrix.cons_val_zero, Matrix.cons_val_one, Matrix.head_cons]
  show (_ ∧ (i 0).val < _ + 8) ∧ (_ ∧ (i 1).val < _ + 2976) ↔ _ ∧ _ ∧ _ = 2 * 10 + _
  omega

/-! ## The pieces as the program's slices hold them -/

section Pts
variable (d : Dev nD) (L : grid0.Coords)

theorem pts_a (r : Fin 10) (f : Buf (Elt F) (aLoc d)) :
    (((aV.slice (rK L r) (fun _ => rfl)).view.loc (V d (cV L) (jV L)) ↦[(aV.slice (rK L r) (fun _ => rfl)).view.set]{fullShare} f : sProp 𝕄))
      = aLoc d ↦[pieceSet (cL L) (jL L) ⟨r.val, by omega⟩]{fullShare} f := by
  rw [show (aV.slice (rK L r) (fun _ => rfl)).view.set = pieceSet (cL L) (jL L) ⟨r.val, by omega⟩ from (View.set_slice_whole _ _).trans (set_rK L r)]
theorem pts_o (r : Fin 10) (f : Buf (Elt F) (oLoc d)) :
    (((oV.slice (rK L r) (fun _ => rfl)).view.loc (V d (cV L) (jV L)) ↦[(oV.slice (rK L r) (fun _ => rfl)).view.set]{fullShare} f : sProp 𝕄))
      = oLoc d ↦[pieceSet (cL L) (jL L) ⟨r.val, by omega⟩]{fullShare} f := by
  rw [show (oV.slice (rK L r) (fun _ => rfl)).view.set = pieceSet (cL L) (jL L) ⟨r.val, by omega⟩ from (View.set_slice_whole _ _).trans (set_rK L r)]
theorem pts_a2 (h : k0_cond1 L = 1#1) (f : Buf (Elt F) (aLoc d)) :
    (((aV.slice (rK2 L h) (fun _ => rfl)).view.loc (V d (cV L) (jV L)) ↦[(aV.slice (rK2 L h) (fun _ => rfl)).view.set]{fullShare} f : sProp 𝕄))
      = aLoc d ↦[pieceSet (cL L) (jL L) 10]{fullShare} f := by
  rw [show (aV.slice (rK2 L h) (fun _ => rfl)).view.set = pieceSet (cL L) (jL L) 10 from (View.set_slice_whole _ _).trans (set_rK2 L h)]
theorem pts_o2 (h : k0_cond1 L = 1#1) (f : Buf (Elt F) (oLoc d)) :
    (((oV.slice (rK2 L h) (fun _ => rfl)).view.loc (V d (cV L) (jV L)) ↦[(oV.slice (rK2 L h) (fun _ => rfl)).view.set]{fullShare} f : sProp 𝕄))
      = oLoc d ↦[pieceSet (cL L) (jL L) 10]{fullShare} f := by
  rw [show (oV.slice (rK2 L h) (fun _ => rfl)).view.set = pieceSet (cL L) (jL L) 10 from (View.set_slice_whole _ _).trans (set_rK2 L h)]
theorem pts_a3 (h : k0_cond2 L = 1#1) (f : Buf (Elt F) (aLoc d)) :
    (((aV.slice (rK3 L h) (fun _ => rfl)).view.loc (V d (cV L) (jV L)) ↦[(aV.slice (rK3 L h) (fun _ => rfl)).view.set]{fullShare} f : sProp 𝕄))
      = aLoc d ↦[pieceSet (cL L) (jL L) 10]{fullShare} f := by
  rw [show (aV.slice (rK3 L h) (fun _ => rfl)).view.set = pieceSet (cL L) (jL L) 10 from (View.set_slice_whole _ _).trans (set_rK3 L h)]
theorem pts_o3 (h : k0_cond2 L = 1#1) (f : Buf (Elt F) (oLoc d)) :
    (((oV.slice (rK3 L h) (fun _ => rfl)).view.loc (V d (cV L) (jV L)) ↦[(oV.slice (rK3 L h) (fun _ => rfl)).view.set]{fullShare} f : sProp 𝕄))
      = oLoc d ↦[pieceSet (cL L) (jL L) 10]{fullShare} f := by
  rw [show (oV.slice (rK3 L h) (fun _ => rfl)).view.set = pieceSet (cL L) (jL L) 10 from (View.set_slice_whole _ _).trans (set_rK3 L h)]

theorem pts_a_0 (f : Buf (Elt F) (aLoc d)) :
    (((aV.slice (Rect.unit (s := S128x100000) (k0_off1 L 0#32) S8x3840.size (k0_off1_inb L 0)) (fun _ => rfl)).view.loc (V d (cV L) (jV L)) ↦[(aV.slice (Rect.unit (s := S128x100000) (k0_off1 L 0#32) S8x3840.size (k0_off1_inb L 0)) (fun _ => rfl)).view.set]{fullShare} f : sProp 𝕄))
      = aLoc d ↦[pieceSet (cL L) (jL L) 0]{fullShare} f := pts_a (F := F) d L 0 f
theorem pts_o_0 (f : Buf (Elt F) (oLoc d)) :
    (((oV.slice (Rect.unit (s := S128x100000) (k0_off1 L 0#32) S8x3840.size (k0_off1_inb L 0)) (fun _ => rfl)).view.loc (V d (cV L) (jV L)) ↦[(oV.slice (Rect.unit (s := S128x100000) (k0_off1 L 0#32) S8x3840.size (k0_off1_inb L 0)) (fun _ => rfl)).view.set]{fullShare} f : sProp 𝕄))
      = oLoc d ↦[pieceSet (cL L) (jL L) 0]{fullShare} f := pts_o (F := F) d L 0 f
theorem pts_a_1 (f : Buf (Elt F) (aLoc d)) :
    (((aV.slice (Rect.unit (s := S128x100000) (k0_off1 L 2#32) S8x3840.size (k0_off1_inb L 1)) (fun _ => rfl)).view.loc (V d (cV L) (jV L)) ↦[(aV.slice (Rect.unit (s := S128x100000) (k0_off1 L 2#32) S8x3840.size (k0_off1_inb L 1)) (fun _ => rfl)).view.set]{fullShare} f : sProp 𝕄))
      = aLoc d ↦[pieceSet (cL L) (jL L) 1]{fullShare} f := pts_a (F := F) d L 1 f
theorem pts_o_1 (f : Buf (Elt F) (oLoc d)) :
    (((oV.slice (Rect.unit (s := S128x100000) (k0_off1 L 2#32) S8x3840.size (k0_off1_inb L 1)) (fun _ => rfl)).view.loc (V d (cV L) (jV L)) ↦[(oV.slice (Rect.unit (s := S128x100000) (k0_off1 L 2#32) S8x3840.size (k0_off1_inb L 1)) (fun _ => rfl)).view.set]{fullShare} f : sProp 𝕄))
      = oLoc d ↦[pieceSet (cL L) (jL L) 1]{fullShare} f := pts_o (F := F) d L 1 f
theorem pts_a_2 (f : Buf (Elt F) (aLoc d)) :
    (((aV.slice (Rect.unit (s := S128x100000) (k0_off1 L 4#32) S8x3840.size (k0_off1_inb L 2)) (fun _ => rfl)).view.loc (V d (cV L) (jV L)) ↦[(aV.slice (Rect.unit (s := S128x100000) (k0_off1 L 4#32) S8x3840.size (k0_off1_inb L 2)) (fun _ => rfl)).view.set]{fullShare} f : sProp 𝕄))
      = aLoc d ↦[pieceSet (cL L) (jL L) 2]{fullShare} f := pts_a (F := F) d L 2 f
theorem pts_o_2 (f : Buf (Elt F) (oLoc d)) :
    (((oV.slice (Rect.unit (s := S128x100000) (k0_off1 L 4#32) S8x3840.size (k0_off1_inb L 2)) (fun _ => rfl)).view.loc (V d (cV L) (jV L)) ↦[(oV.slice (Rect.unit (s := S128x100000) (k0_off1 L 4#32) S8x3840.size (k0_off1_inb L 2)) (fun _ => rfl)).view.set]{fullShare} f : sProp 𝕄))
      = oLoc d ↦[pieceSet (cL L) (jL L) 2]{fullShare} f := pts_o (F := F) d L 2 f
theorem pts_a_3 (f : Buf (Elt F) (aLoc d)) :
    (((aV.slice (Rect.unit (s := S128x100000) (k0_off1 L 6#32) S8x3840.size (k0_off1_inb L 3)) (fun _ => rfl)).view.loc (V d (cV L) (jV L)) ↦[(aV.slice (Rect.unit (s := S128x100000) (k0_off1 L 6#32) S8x3840.size (k0_off1_inb L 3)) (fun _ => rfl)).view.set]{fullShare} f : sProp 𝕄))
      = aLoc d ↦[pieceSet (cL L) (jL L) 3]{fullShare} f := pts_a (F := F) d L 3 f
theorem pts_o_3 (f : Buf (Elt F) (oLoc d)) :
    (((oV.slice (Rect.unit (s := S128x100000) (k0_off1 L 6#32) S8x3840.size (k0_off1_inb L 3)) (fun _ => rfl)).view.loc (V d (cV L) (jV L)) ↦[(oV.slice (Rect.unit (s := S128x100000) (k0_off1 L 6#32) S8x3840.size (k0_off1_inb L 3)) (fun _ => rfl)).view.set]{fullShare} f : sProp 𝕄))
      = oLoc d ↦[pieceSet (cL L) (jL L) 3]{fullShare} f := pts_o (F := F) d L 3 f
theorem pts_a_4 (f : Buf (Elt F) (aLoc d)) :
    (((aV.slice (Rect.unit (s := S128x100000) (k0_off1 L 8#32) S8x3840.size (k0_off1_inb L 4)) (fun _ => rfl)).view.loc (V d (cV L) (jV L)) ↦[(aV.slice (Rect.unit (s := S128x100000) (k0_off1 L 8#32) S8x3840.size (k0_off1_inb L 4)) (fun _ => rfl)).view.set]{fullShare} f : sProp 𝕄))
      = aLoc d ↦[pieceSet (cL L) (jL L) 4]{fullShare} f := pts_a (F := F) d L 4 f
theorem pts_o_4 (f : Buf (Elt F) (oLoc d)) :
    (((oV.slice (Rect.unit (s := S128x100000) (k0_off1 L 8#32) S8x3840.size (k0_off1_inb L 4)) (fun _ => rfl)).view.loc (V d (cV L) (jV L)) ↦[(oV.slice (Rect.unit (s := S128x100000) (k0_off1 L 8#32) S8x3840.size (k0_off1_inb L 4)) (fun _ => rfl)).view.set]{fullShare} f : sProp 𝕄))
      = oLoc d ↦[pieceSet (cL L) (jL L) 4]{fullShare} f := pts_o (F := F) d L 4 f
theorem pts_a_5 (f : Buf (Elt F) (aLoc d)) :
    (((aV.slice (Rect.unit (s := S128x100000) (k0_off1 L 10#32) S8x3840.size (k0_off1_inb L 5)) (fun _ => rfl)).view.loc (V d (cV L) (jV L)) ↦[(aV.slice (Rect.unit (s := S128x100000) (k0_off1 L 10#32) S8x3840.size (k0_off1_inb L 5)) (fun _ => rfl)).view.set]{fullShare} f : sProp 𝕄))
      = aLoc d ↦[pieceSet (cL L) (jL L) 5]{fullShare} f := pts_a (F := F) d L 5 f
theorem pts_o_5 (f : Buf (Elt F) (oLoc d)) :
    (((oV.slice (Rect.unit (s := S128x100000) (k0_off1 L 10#32) S8x3840.size (k0_off1_inb L 5)) (fun _ => rfl)).view.loc (V d (cV L) (jV L)) ↦[(oV.slice (Rect.unit (s := S128x100000) (k0_off1 L 10#32) S8x3840.size (k0_off1_inb L 5)) (fun _ => rfl)).view.set]{fullShare} f : sProp 𝕄))
      = oLoc d ↦[pieceSet (cL L) (jL L) 5]{fullShare} f := pts_o (F := F) d L 5 f
theorem pts_a_6 (f : Buf (Elt F) (aLoc d)) :
    (((aV.slice (Rect.unit (s := S128x100000) (k0_off1 L 12#32) S8x3840.size (k0_off1_inb L 6)) (fun _ => rfl)).view.loc (V d (cV L) (jV L)) ↦[(aV.slice (Rect.unit (s := S128x100000) (k0_off1 L 12#32) S8x3840.size (k0_off1_inb L 6)) (fun _ => rfl)).view.set]{fullShare} f : sProp 𝕄))
      = aLoc d ↦[pieceSet (cL L) (jL L) 6]{fullShare} f := pts_a (F := F) d L 6 f
theorem pts_o_6 (f : Buf (Elt F) (oLoc d)) :
    (((oV.slice (Rect.unit (s := S128x100000) (k0_off1 L 12#32) S8x3840.size (k0_off1_inb L 6)) (fun _ => rfl)).view.loc (V d (cV L) (jV L)) ↦[(oV.slice (Rect.unit (s := S128x100000) (k0_off1 L 12#32) S8x3840.size (k0_off1_inb L 6)) (fun _ => rfl)).view.set]{fullShare} f : sProp 𝕄))
      = oLoc d ↦[pieceSet (cL L) (jL L) 6]{fullShare} f := pts_o (F := F) d L 6 f
theorem pts_a_7 (f : Buf (Elt F) (aLoc d)) :
    (((aV.slice (Rect.unit (s := S128x100000) (k0_off1 L 14#32) S8x3840.size (k0_off1_inb L 7)) (fun _ => rfl)).view.loc (V d (cV L) (jV L)) ↦[(aV.slice (Rect.unit (s := S128x100000) (k0_off1 L 14#32) S8x3840.size (k0_off1_inb L 7)) (fun _ => rfl)).view.set]{fullShare} f : sProp 𝕄))
      = aLoc d ↦[pieceSet (cL L) (jL L) 7]{fullShare} f := pts_a (F := F) d L 7 f
theorem pts_o_7 (f : Buf (Elt F) (oLoc d)) :
    (((oV.slice (Rect.unit (s := S128x100000) (k0_off1 L 14#32) S8x3840.size (k0_off1_inb L 7)) (fun _ => rfl)).view.loc (V d (cV L) (jV L)) ↦[(oV.slice (Rect.unit (s := S128x100000) (k0_off1 L 14#32) S8x3840.size (k0_off1_inb L 7)) (fun _ => rfl)).view.set]{fullShare} f : sProp 𝕄))
      = oLoc d ↦[pieceSet (cL L) (jL L) 7]{fullShare} f := pts_o (F := F) d L 7 f
theorem pts_a_8 (f : Buf (Elt F) (aLoc d)) :
    (((aV.slice (Rect.unit (s := S128x100000) (k0_off1 L 16#32) S8x3840.size (k0_off1_inb L 8)) (fun _ => rfl)).view.loc (V d (cV L) (jV L)) ↦[(aV.slice (Rect.unit (s := S128x100000) (k0_off1 L 16#32) S8x3840.size (k0_off1_inb L 8)) (fun _ => rfl)).view.set]{fullShare} f : sProp 𝕄))
      = aLoc d ↦[pieceSet (cL L) (jL L) 8]{fullShare} f := pts_a (F := F) d L 8 f
theorem pts_o_8 (f : Buf (Elt F) (oLoc d)) :
    (((oV.slice (Rect.unit (s := S128x100000) (k0_off1 L 16#32) S8x3840.size (k0_off1_inb L 8)) (fun _ => rfl)).view.loc (V d (cV L) (jV L)) ↦[(oV.slice (Rect.unit (s := S128x100000) (k0_off1 L 16#32) S8x3840.size (k0_off1_inb L 8)) (fun _ => rfl)).view.set]{fullShare} f : sProp 𝕄))
      = oLoc d ↦[pieceSet (cL L) (jL L) 8]{fullShare} f := pts_o (F := F) d L 8 f
theorem pts_a_9 (f : Buf (Elt F) (aLoc d)) :
    (((aV.slice (Rect.unit (s := S128x100000) (k0_off1 L 18#32) S8x3840.size (k0_off1_inb L 9)) (fun _ => rfl)).view.loc (V d (cV L) (jV L)) ↦[(aV.slice (Rect.unit (s := S128x100000) (k0_off1 L 18#32) S8x3840.size (k0_off1_inb L 9)) (fun _ => rfl)).view.set]{fullShare} f : sProp 𝕄))
      = aLoc d ↦[pieceSet (cL L) (jL L) 9]{fullShare} f := pts_a (F := F) d L 9 f
theorem pts_o_9 (f : Buf (Elt F) (oLoc d)) :
    (((oV.slice (Rect.unit (s := S128x100000) (k0_off1 L 18#32) S8x3840.size (k0_off1_inb L 9)) (fun _ => rfl)).view.loc (V d (cV L) (jV L)) ↦[(oV.slice (Rect.unit (s := S128x100000) (k0_off1 L 18#32) S8x3840.size (k0_off1_inb L 9)) (fun _ => rfl)).view.set]{fullShare} f : sProp 𝕄))
      = oLoc d ↦[pieceSet (cL L) (jL L) 9]{fullShare} f := pts_o (F := F) d L 9 f

end Pts

end Cert.Kernel.Pf

end
-- ==== Proof.Tile2W.lean ====
import proofs.«210814_g12945031431005_cont_9to1_m_1025_36_alg».proof.Proof.Tile1W

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The subcore's own semaphore cells and scratch buffers -/

section Own
variable (d : Dev nD) (L : grid0.Coords)

/-- DMA semaphore `k` of the pool, and its cell on the subcore. -/
abbrev dS (k : Nat) (h : k < sig.nDmaSem := by decide) : DmaSem sig := ⟨k, h⟩
abbrev cellK (k : DmaSem sig) : GSem nD τ sig := (V d (cV L) (jV L), SemLoc.dma k)

theorem cell_mem (k : DmaSem sig) (hk : (SemLoc.dma k : SemLoc sig).isScoped .scVector = true) : cellK d L k ∈ ownCells (V d (cV L) (jV L)) :=
  (mem_ownCells (g := cellK d L k)).mpr ⟨rfl, hk⟩
theorem cell_ne {a b : DmaSem sig} (h : a ≠ b) : cellK d L a ≠ cellK d L b :=
  fun e => h (SemLoc.dma.inj (Prod.mk.inj e).2)

/-- The six cells the program uses, each at zero, and the rest. -/
theorem ownSems0_V :
    (ownSems0 (V d (cV L) (jV L)) : sProp 𝕄)
      = iprop(semVal (cellK d L (dS 0)) 0 ∗ semVal (cellK d L (dS 1)) 0 ∗ semVal (cellK d L (dS 2)) 0
          ∗ semVal (cellK d L (dS 3)) 0 ∗ semVal (cellK d L (dS 4)) 0 ∗ semVal (cellK d L (dS 5)) 0
          ∗ bigSep (((((((ownCells (V d (cV L) (jV L))).erase (cellK d L (dS 0))).erase (cellK d L (dS 1))).erase (cellK d L (dS 2))).erase (cellK d L (dS 3))).erase (cellK d L (dS 4))).erase (cellK d L (dS 5))) fun g => semVal g 0) := by
  unfold SparseCore.Cfg.ownSems0
  rw [SparseCore.bigSep_erase' (cell_mem d L (dS 0) (by decide)),
    SparseCore.bigSep_erase' (Finset.mem_erase.mpr ⟨cell_ne d L (a := dS 1) (b := dS 0) (by decide), cell_mem d L (dS 1) (by decide)⟩),
    SparseCore.bigSep_erase' (Finset.mem_erase.mpr ⟨cell_ne d L (a := dS 2) (b := dS 1) (by decide), Finset.mem_erase.mpr ⟨cell_ne d L (a := dS 2) (b := dS 0) (by decide), cell_mem d L (dS 2) (by decide)⟩⟩),
    SparseCore.bigSep_erase' (Finset.mem_erase.mpr ⟨cell_ne d L (a := dS 3) (b := dS 2) (by decide), Finset.mem_erase.mpr ⟨cell_ne d L (a := dS 3) (b := dS 1) (by decide), Finset.mem_erase.mpr ⟨cell_ne d L (a := dS 3) (b := dS 0) (by decide), cell_mem d L (dS 3) (by decide)⟩⟩⟩),
    SparseCore.bigSep_erase' (Finset.mem_erase.mpr ⟨cell_ne d L (a := dS 4) (b := dS 3) (by decide), Finset.mem_erase.mpr ⟨cell_ne d L (a := dS 4) (b := dS 2) (by decide), Finset.mem_erase.mpr ⟨cell_ne d L (a := dS 4) (b := dS 1) (by decide), Finset.mem_erase.mpr ⟨cell_ne d L (a := dS 4) (b := dS 0) (by decide), cell_mem d L (dS 4) (by decide)⟩⟩⟩⟩),
    SparseCore.bigSep_erase' (Finset.mem_erase.mpr ⟨cell_ne d L (a := dS 5) (b := dS 4) (by decide), Finset.mem_erase.mpr ⟨cell_ne d L (a := dS 5) (b := dS 3) (by decide), Finset.mem_erase.mpr ⟨cell_ne d L (a := dS 5) (b := dS 2) (by decide), Finset.mem_erase.mpr ⟨cell_ne d L (a := dS 5) (b := dS 1) (by decide), Finset.mem_erase.mpr ⟨cell_ne d L (a := dS 5) (b := dS 0) (by decide), cell_mem d L (dS 5) (by decide)⟩⟩⟩⟩⟩)]

/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The two slots of the first scratch -/

abbrev slot0 : Memref sig .scVector .vmem S8x3840 .f32 :=
  (sB.slice (Rect.unit (s := S2x8x3840) ![0, 0, 0] S1x8x3840.size inb_S2x8x3840_S1x8x3840_0_0_0) (fun _ => rfl)).squeeze S8x3840 squeezes_S1x8x3840_S8x3840
abbrev slot1 : Memref sig .scVector .vmem S8x3840 .f32 :=
  (sB.slice (Rect.unit (s := S2x8x3840) ![1, 0, 0] S1x8x3840.size inb_S2x8x3840_S1x8x3840_1_0_0) (fun _ => rfl)).squeeze S8x3840 squeezes_S1x8x3840_S8x3840

theorem set_slot0 : (slot0).view.set = (Rect.unit (s := S2x8x3840) ![0, 0, 0] S1x8x3840.size inb_S2x8x3840_S1x8x3840_0_0_0).set := by
  show ((sB.view.slice _).reshape _ _).set = _
  rw [View.set_reshape]; exact View.set_slice_whole _ _
theorem set_slot1 : (slot1).view.set = (Rect.unit (s := S2x8x3840) ![1, 0, 0] S1x8x3840.size inb_S2x8x3840_S1x8x3840_1_0_0).set := by
  show ((sB.view.slice _).reshape _ _).set = _
  rw [View.set_reshape]; exact View.set_slice_whole _ _

theorem slot_disj : Disjoint (slot0).view.set (slot1).view.set := by
  rw [set_slot0, set_slot1]
  exact Rect.unit_disjoint 0 (Or.inl (by decide))

theorem slot_union : (slot0).view.set ∪ (slot1).view.set = Finset.univ := by
  rw [set_slot0, set_slot1]
  ext i
  simp only [Finset.mem_union, Rect.mem_set_unit, Finset.mem_univ, iff_true]
  have h0 : (i 0).val < 2 := (i 0).isLt
  have h1 : (i 1).val < 8 := (i 1).isLt
  have h2 : (i 2).val < 3840 := (i 2).isLt
  by_cases h : (i 0).val = 0
  · left; intro a
    match a with
    | 0 => exact ⟨by show 0 ≤ (i 0).val; omega, by show (i 0).val < 0 + 1; omega⟩
    | 1 => exact ⟨by show 0 ≤ (i 1).val; omega, by show (i 1).val < 0 + 8; omega⟩
    | 2 => exact ⟨by show 0 ≤ (i 2).val; omega, by show (i 2).val < 0 + 3840; omega⟩
  · right; intro a
    match a with
    | 0 => exact ⟨by show 1 ≤ (i 0).val; omega, by show (i 0).val < 1 + 1; omega⟩
    | 1 => exact ⟨by show 0 ≤ (i 1).val; omega, by show (i 1).val < 0 + 8; omega⟩
    | 2 => exact ⟨by show 0 ≤ (i 2).val; omega, by show (i 2).val < 0 + 3840; omega⟩

/-- The first scratch, whole, is its two slots. -/
theorem pts_sB_split (f : Buf (Elt F) ((V d (cV L) (jV L)).loc cc0_scratch0)) :
    ((V d (cV L) (jV L)).loc cc0_scratch0 ↦{fullShare} f : sProp 𝕄)
      ⊣⊢ iprop(((slot0).view.loc (V d (cV L) (jV L)) ↦[(slot0).view.set]{fullShare} f) ∗ ((slot1).view.loc (V d (cV L) (jV L)) ↦[(slot1).view.set]{fullShare} f)) := by
  have h := pointsTo_union (Ix := HIx 1) (Name := ℕ) (U := UU) (Lvl := ℕ) (ℓ := (V d (cV L) (jV L)).loc cc0_scratch0) (q := fullShare) (f := f) (slot_disj)
  rw [slot_union] at h
  exact h

theorem pts_sB_join (f g : Buf (Elt F) ((V d (cV L) (jV L)).loc cc0_scratch0)) :
    iprop(((slot0).view.loc (V d (cV L) (jV L)) ↦[(slot0).view.set]{fullShare} f) ∗ ((slot1).view.loc (V d (cV L) (jV L)) ↦[(slot1).view.set]{fullShare} g))
      ⊢ (iprop(∃ h, (V d (cV L) (jV L)).loc cc0_scratch0 ↦{fullShare} h) : sProp 𝕄) := by
  have h := pointsTo_join (Ix := HIx 1) (Name := ℕ) (U := UU) (Lvl := ℕ) (ℓ := (V d (cV L) (jV L)).loc cc0_scratch0) (q := fullShare) (f := f) (g := g) (slot_disj)
  rw [slot_union] at h
  iintro ⟨H0, H1⟩
  iexists _
  iapply h
  isplitl [H0] <;> iassumption

theorem pts_sT (f : Buf (Elt F) ((V d (cV L) (jV L)).loc cc0_scratch1)) :
    ((sT).view.loc (V d (cV L) (jV L)) ↦[(sT).view.set]{fullShare} f : sProp 𝕄)
      = (V d (cV L) (jV L)).loc cc0_scratch1 ↦{fullShare} f := by
  simp only [Memref.view_whole, View.set_whole]

end Own

/-- The eleven pieces one by one. -/
theorem bigSep_F11 {M : Type} [URA M] (Φ : Fin 11 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [(0 : Fin 11), 1, 2, 3, 4, 5, 6, 7, 8, 9, 10] (by decide) (by decide) Φ

end Cert.Kernel.Pf

end
-- ==== Proof.Tile3W.lean ====
import proofs.«210814_g12945031431005_cont_9to1_m_1025_36_alg».proof.Proof.Tile2W

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## What a piece holds after its two transfers -/

theorem read_writes_whole {sig' : RefSig} {κ : Kind} {sp : Space} {s : Shape} {e : EltTy} {Val : EltTy → Type}
    (v : View sig' κ sp s e) (f : v.ty.Contents Val) (w : s.Idx → Val e) (Lr : List (View.Piece Val s e)) :
    v.read Val (v.writes Val f (⟨Rect.whole s, w⟩ :: Lr)) = w := by
  funext x
  have h := View.read_writes_cons_emb v f (Rect.whole s) w Lr x
  rwa [Rect.emb_whole_apply] at h

section Piece
variable (d : Dev nD)

/-- A piece of the result written whole with what a staging view read back, the staging view last written whole with
    the same piece of the source: the piece of the result holds the piece of the source. -/
theorem o_piece_eq {κ' : Kind} {sp' : Space} {sz : Fin 2 → Nat} (off : Fin 2 → Nat) (inb : ∀ a, off a + sz a ≤ S128x100000.size a)
    (sv : View sig κ' sp' ⟨2, sz⟩ .f32) (fs : sv.ty.Contents (Elt F)) (Lr : List (View.Piece (Elt F) ⟨2, sz⟩ .f32))
    (fo : Buf (Elt F) (oLoc d)) (fa : Buf (Elt F) (aLoc d)) :
    ∀ i ∈ (oV.slice (Rect.unit (s := S128x100000) off sz inb) (fun _ => rfl)).view.set,
      (oV.slice (Rect.unit (s := S128x100000) off sz inb) (fun _ => rfl)).view.writes (Elt F) fo
        [⟨Rect.whole _, ReadAs.same.apply (sv.read (Elt F) (sv.writes (Elt F) fs
          (⟨Rect.whole _, ReadAs.same.apply ((aV.slice (Rect.unit (s := S128x100000) off sz inb) (fun _ => rfl)).view.read (Elt F) fa)⟩ :: Lr)))⟩] i
        = asO d fa i := by
  intro i hi
  obtain ⟨x, -, rfl⟩ := Finset.mem_map.mp hi
  rw [ReadAs.apply_same, read_writes_whole, ReadAs.apply_same, View.writes_singleton]
  have e : (oV.slice (Rect.unit (s := S128x100000) off sz inb) (fun _ => rfl)).view.emb x
      = ((oV.slice (Rect.unit (s := S128x100000) off sz inb) (fun _ => rfl)).view.slice (Rect.whole _)).emb x := by
    simp only [View.emb_slice, Function.Embedding.trans_apply, Rect.emb_whole_apply]
  rw [e, View.write_emb_of_mem _ _ (Finset.mem_univ _), View.read_apply]
  unfold asO
  simp only [View.emb_slice, Function.Embedding.trans_apply, Rect.emb_whole_apply, Memref.view_slice, Memref.view_whole, View.emb_whole, Function.Embedding.refl_apply, cast_cast, cast_eq]
  rfl

end Piece

section Done
variable (d : Dev nD) (L : grid0.Coords)

/-- The same, as the assertion that holds the piece of the result. -/
theorem o_piece_pts {κ' : Kind} {sp' : Space} (off sz : Fin 2 → Nat) (inb : ∀ a, off a + sz a ≤ S128x100000.size a)
    (sv : View sig κ' sp' ⟨2, sz⟩ .f32) (fs : sv.ty.Contents (Elt F)) (Lr : List (View.Piece (Elt F) ⟨2, sz⟩ .f32))
    (fo : Buf (Elt F) (oLoc d)) (fa : Buf (Elt F) (aLoc d)) :
    ((oV.slice (Rect.unit (s := S128x100000) off sz inb) (fun _ => rfl)).view.loc (V d (cV L) (jV L))
        ↦[(oV.slice (Rect.unit (s := S128x100000) off sz inb) (fun _ => rfl)).view.set]{fullShare}
          (oV.slice (Rect.unit (s := S128x100000) off sz inb) (fun _ => rfl)).view.writes (Elt F) fo
            [⟨Rect.whole _, ReadAs.same.apply (sv.read (Elt F) (sv.writes (Elt F) fs
              (⟨Rect.whole _, ReadAs.same.apply ((aV.slice (Rect.unit (s := S128x100000) off sz inb) (fun _ => rfl)).view.read (Elt F) fa)⟩ :: Lr)))⟩] : sProp 𝕄)
      = (oV.slice (Rect.unit (s := S128x100000) off sz inb) (fun _ => rfl)).view.loc (V d (cV L) (jV L))
        ↦[(oV.slice (Rect.unit (s := S128x100000) off sz inb) (fun _ => rfl)).view.set]{fullShare} asO d fa :=
  pointsTo_congr (o_piece_eq (F := F) d off inb sv fs Lr fo fa)

/-- A wait at the kernels' index recorded beyond waits that were admissible stays admissible. -/
theorem waits_ok {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact h p hp

end Done

end Cert.Kernel.Pf

end
-- ==== Proof.TileW.lean ====
import proofs.«210814_g12945031431005_cont_9to1_m_1025_36_alg».proof.Proof.Tile3W

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

/-- The task of vector subcore `(L 0, L 1)` of device `d`: its eleven pieces of the source end up in the result. -/
theorem tile_body (d : Dev nD) (L : grid0.Coords) (hF : (K (F := F)).Facts) (O : CellTallies nD τ sig (HIx 1)) (W : Waits sig (HIx 1)) (hO : ∀ g, O g none = 0) :
    iprop(levAts (K (F := F)).L (K (F := F)).lev ∗ emp ∗ tileIn m d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_copy_body L aV (Memref.isWhole_whole _) oV (Memref.isWhole_whole _) sB (Memref.isWhole_whole _) sT (Memref.isWhole_whole _)
            cc0_scratch2 cc0_scratch3 cc0_scratch4)
          fun _ => iprop(tileOut m d (cL L) (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  -- The subcore's scratch buffers and semaphore cells come out of its scoped resources, the eleven pieces out of the
  -- task's payload; each piece is restated under the rectangle the program slices, the first scratch as its two slots.
  simp only [cc0__sc_copy_body_eq_skeleton]; unfold cc0__sc_copy_body_skel
  rw [(K (F := F)).scopedBufs_V hF d (cV L) (jV L), SparseCore.Cfg.scopedSems0_V (Val := Elt F) d (cV L) (jV L), ownSems0_V, ownBufs_V]
  unfold tileIn
  rw [bigSep_F11]
  iintro ⟨#Hlv, -, ⟨⟨Ha0, Ho0⟩, ⟨Ha1, Ho1⟩, ⟨Ha2, Ho2⟩, ⟨Ha3, Ho3⟩, ⟨Ha4, Ho4⟩, ⟨Ha5, Ho5⟩, ⟨Ha6, Ho6⟩, ⟨Ha7, Ho7⟩, ⟨Ha8, Ho8⟩, ⟨Ha9, Ho9⟩, ⟨Ha10, Ho10⟩⟩, ⟨⟨%fB, HsB⟩, ⟨%fT, HsT⟩, Hbufs⟩, ⟨Hq0, Hq1, Hq2, Hq3, Hq4, Hq5, Hsems⟩, HO⟩
  ihave Hmw := ((K (F := F)).mayWaits_none (thr := V d (cV L) (jV L)) hO) $$ Hlv
  ihave HsB' := (pts_sB_split (F := F) d L fB).1 $$ HsB
  icases HsB' with ⟨Hs0, Hs1⟩
  ihave HsT' := (Entails.of_eq (pts_sT (F := F) d L fT).symm) $$ HsT
  ihave Ha0' := (Entails.of_eq (pts_a_0 (F := F) d L _).symm) $$ Ha0
  ihave Ho0' := (Entails.of_eq (pts_o_0 (F := F) d L _).symm) $$ Ho0
  ihave Ha1' := (Entails.of_eq (pts_a_1 (F := F) d L _).symm) $$ Ha1
  ihave Ho1' := (Entails.of_eq (pts_o_1 (F := F) d L _).symm) $$ Ho1
  ihave Ha2' := (Entails.of_eq (pts_a_2 (F := F) d L _).symm) $$ Ha2
  ihave Ho2' := (Entails.of_eq (pts_o_2 (F := F) d L _).symm) $$ Ho2
  ihave Ha3' := (Entails.of_eq (pts_a_3 (F := F) d L _).symm) $$ Ha3
  ihave Ho3' := (Entails.of_eq (pts_o_3 (F := F) d L _).symm) $$ Ho3
  ihave Ha4' := (Entails.of_eq (pts_a_4 (F := F) d L _).symm) $$ Ha4
  ihave Ho4' := (Entails.of_eq (pts_o_4 (F := F) d L _).symm) $$ Ho4
  ihave Ha5' := (Entails.of_eq (pts_a_5 (F := F) d L _).symm) $$ Ha5
  ihave Ho5' := (Entails.of_eq (pts_o_5 (F := F) d L _).symm) $$ Ho5
  ihave Ha6' := (Entails.of_eq (pts_a_6 (F := F) d L _).symm) $$ Ha6
  ihave Ho6' := (Entails.of_eq (pts_o_6 (F := F) d L _).symm) $$ Ho6
  ihave Ha7' := (Entails.of_eq (pts_a_7 (F := F) d L _).symm) $$ Ha7
  ihave Ho7' := (Entails.of_eq (pts_o_7 (F := F) d L _).symm) $$ Ho7
  ihave Ha8' := (Entails.of_eq (pts_a_8 (F := F) d L _).symm) $$ Ha8
  ihave Ho8' := (Entails.of_eq (pts_o_8 (F := F) d L _).symm) $$ Ho8
  ihave Ha9' := (Entails.of_eq (pts_a_9 (F := F) d L _).symm) $$ Ha9
  ihave Ho9' := (Entails.of_eq (pts_o_9 (F := F) d L _).symm) $$ Ho9
  -- The double-buffered run of ten chunks, up to the branch on the SparseCore.
  set_option maxHeartbeats 4000000 in set_option sl_exec.stopBefore "k0_cond1" in sl_exec
  -- The 21st chunk on the first SparseCore, the last 2976 columns on the second; then each piece of the result holds
  -- the source's piece, the scratch slots join, the cells are back at zero and every wait recorded is at the kernels' index.
  have hL2 : (L 0).val < 2 := (L 0).isLt
  rcases (show (L 0).val = 0 ∨ (L 0).val = 1 by omega) with h0 | h0
  · have k0_h1 : k0_cond1 L = 1#1 := (cond1_iff L).mpr h0
    have k0_h2 : ¬ k0_cond2 L = 1#1 := fun h => by have := (cond2_iff L).mp h; omega
    ihave Ha10' := (Entails.of_eq (pts_a2 (F := F) d L k0_h1 _).symm) $$ Ha10
    ihave Ho10' := (Entails.of_eq (pts_o2 (F := F) d L k0_h1 _).symm) $$ Ho10
    set_option maxHeartbeats 4000000 in sl_exec
    sl_step
    unfold tileOut
    rw [bigSep_F11]
    isplitl [Ha0' Ho0' Ha1' Ho1' Ha2' Ho2' Ha3' Ho3' Ha4' Ho4' Ha5' Ho5' Ha6' Ho6' Ha7' Ho7' Ha8' Ho8' Ha9' Ho9' Ha10' Ho10']
    · isplitl [Ha0' Ho0']
      · isplitl [Ha0']
        · iapply (Entails.of_eq (pts_a_0 (F := F) d L _)); iexact Ha0'
        · iapply (Entails.of_eq (pts_o_0 (F := F) d L _))
          iapply (Entails.of_eq (o_piece_pts (F := F) d L (k0_off1 L 0#32) S8x3840.size (k0_off1_inb L 0) _ _ _ _ _))
          iexact Ho0'
      · isplitl [Ha1' Ho1']
        · isplitl [Ha1']
          · iapply (Entails.of_eq (pts_a_1 (F := F) d L _)); iexact Ha1'
          · iapply (Entails.of_eq (pts_o_1 (F := F) d L _))
            iapply (Entails.of_eq (o_piece_pts (F := F) d L (k0_off1 L 2#32) S8x3840.size (k0_off1_inb L 1) _ _ _ _ _))
            iexact Ho1'
        · isplitl [Ha2' Ho2']
          · isplitl [Ha2']
            · iapply (Entails.of_eq (pts_a_2 (F := F) d L _)); iexact Ha2'
            · iapply (Entails.of_eq (pts_o_2 (F := F) d L _))
              iapply (Entails.of_eq (o_piece_pts (F := F) d L (k0_off1 L 4#32) S8x3840.size (k0_off1_inb L 2) _ _ _ _ _))
              iexact Ho2'
          · isplitl [Ha3' Ho3']
            · isplitl [Ha3']
              · iapply (Entails.of_eq (pts_a_3 (F := F) d L _)); iexact Ha3'
              · iapply (Entails.of_eq (pts_o_3 (F := F) d L _))
                iapply (Entails.of_eq (o_piece_pts (F := F) d L (k0_off1 L 6#32) S8x3840.size (k0_off1_inb L 3) _ _ _ _ _))
                iexact Ho3'
            · isplitl [Ha4' Ho4']
              · isplitl [Ha4']
                · iapply (Entails.of_eq (pts_a_4 (F := F) d L _)); iexact Ha4'
                · iapply (Entails.of_eq (pts_o_4 (F := F) d L _))
                  iapply (Entails.of_eq (o_piece_pts (F := F) d L (k0_off1 L 8#32) S8x3840.size (k0_off1_inb L 4) _ _ _ _ _))
                  iexact Ho4'
              · isplitl [Ha5' Ho5']
                · isplitl [Ha5']
                  · iapply (Entails.of_eq (pts_a_5 (F := F) d L _)); iexact Ha5'
                  · iapply (Entails.of_eq (pts_o_5 (F := F) d L _))
                    iapply (Entails.of_eq (o_piece_pts (F := F) d L (k0_off1 L 10#32) S8x3840.size (k0_off1_inb L 5) _ _ _ _ _))
                    iexact Ho5'
                · isplitl [Ha6' Ho6']
                  · isplitl [Ha6']
                    · iapply (Entails.of_eq (pts_a_6 (F := F) d L _)); iexact Ha6'
                    · iapply (Entails.of_eq (pts_o_6 (F := F) d L _))
                      iapply (Entails.of_eq (o_piece_pts (F := F) d L (k0_off1 L 12#32) S8x3840.size (k0_off1_inb L 6) _ _ _ _ _))
                      iexact Ho6'
                  · isplitl [Ha7' Ho7']
                    · isplitl [Ha7']
                      · iapply (Entails.of_eq (pts_a_7 (F := F) d L _)); iexact Ha7'
                      · iapply (Entails.of_eq (pts_o_7 (F := F) d L _))
                        iapply (Entails.of_eq (o_piece_pts (F := F) d L (k0_off1 L 14#32) S8x3840.size (k0_off1_inb L 7) _ _ _ _ _))
                        iexact Ho7'
                    · isplitl [Ha8' Ho8']
                      · isplitl [Ha8']
                        · iapply (Entails.of_eq (pts_a_8 (F := F) d L _)); iexact Ha8'
                        · iapply (Entails.of_eq (pts_o_8 (F := F) d L _))
                          iapply (Entails.of_eq (o_piece_pts (F := F) d L (k0_off1 L 16#32) S8x3840.size (k0_off1_inb L 8) _ _ _ _ _))
                          iexact Ho8'
                      · isplitl [Ha9' Ho9']
                        · isplitl [Ha9']
                          · iapply (Entails.of_eq (pts_a_9 (F := F) d L _)); iexact Ha9'
                          · iapply (Entails.of_eq (pts_o_9 (F := F) d L _))
                            iapply (Entails.of_eq (o_piece_pts (F := F) d L (k0_off1 L 18#32) S8x3840.size (k0_off1_inb L 9) _ _ _ _ _))
                            iexact Ho9'
                        · isplitl [Ha10']
                          · iapply (Entails.of_eq (pts_a2 (F := F) d L k0_h1 _)); iexact Ha10'
                          · iapply (Entails.of_eq (pts_o2 (F := F) d L k0_h1 _))
                            iapply (Entails.of_eq (o_piece_pts (F := F) d L (k0_off2 L) S8x3840.size (k0_off2_inb L k0_h1) _ _ _ _ _))
                            iexact Ho10'
    isplitl [Hs0 Hs1 HsT' Hbufs]
    · isplitl [Hs0 Hs1]
      · iapply (pts_sB_join (F := F) d L _ _)
        isplitl [Hs0] <;> iassumption
      isplitl [HsT']
      · iexists _; iapply (Entails.of_eq (pts_sT (F := F) d L _)); iexact HsT'
      · iexact Hbufs
    isplitl [Hq0 Hq1 Hq2 Hq3 Hq4 Hq5 Hsems]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      iexact Hsems
    iexists _; isplitr
    on_goal 2 => iexact HO
    ipureintro
    repeat (refine waits_ok _ ?_)
    exact fun p hp => .inl hp
  · have k0_h1 : ¬ k0_cond1 L = 1#1 := fun h => by have := (cond1_iff L).mp h; omega
    have k0_h2 : k0_cond2 L = 1#1 := (cond2_iff L).mpr h0
    ihave Ha10' := (Entails.of_eq (pts_a3 (F := F) d L k0_h2 _).symm) $$ Ha10
    ihave Ho10' := (Entails.of_eq (pts_o3 (F := F) d L k0_h2 _).symm) $$ Ho10
    set_option maxHeartbeats 4000000 in sl_exec
    sl_step
    unfold tileOut
    rw [bigSep_F11]
    isplitl [Ha0' Ho0' Ha1' Ho1' Ha2' Ho2' Ha3' Ho3' Ha4' Ho4' Ha5' Ho5' Ha6' Ho6' Ha7' Ho7' Ha8' Ho8' Ha9' Ho9' Ha10' Ho10']
    · isplitl [Ha0' Ho0']
      · isplitl [Ha0']
        · iapply (Entails.of_eq (pts_a_0 (F := F) d L _)); iexact Ha0'
        · iapply (Entails.of_eq (pts_o_0 (F := F) d L _))
          iapply (Entails.of_eq (o_piece_pts (F := F) d L (k0_off1 L 0#32) S8x3840.size (k0_off1_inb L 0) _ _ _ _ _))
          iexact Ho0'
      · isplitl [Ha1' Ho1']
        · isplitl [Ha1']
          · iapply (Entails.of_eq (pts_a_1 (F := F) d L _)); iexact Ha1'
          · iapply (Entails.of_eq (pts_o_1 (F := F) d L _))
            iapply (Entails.of_eq (o_piece_pts (F := F) d L (k0_off1 L 2#32) S8x3840.size (k0_off1_inb L 1) _ _ _ _ _))
            iexact Ho1'
        · isplitl [Ha2' Ho2']
          · isplitl [Ha2']
            · iapply (Entails.of_eq (pts_a_2 (F := F) d L _)); iexact Ha2'
            · iapply (Entails.of_eq (pts_o_2 (F := F) d L _))
              iapply (Entails.of_eq (o_piece_pts (F := F) d L (k0_off1 L 4#32) S8x3840.size (k0_off1_inb L 2) _ _ _ _ _))
              iexact Ho2'
          · isplitl [Ha3' Ho3']
            · isplitl [Ha3']
              · iapply (Entails.of_eq (pts_a_3 (F := F) d L _)); iexact Ha3'
              · iapply (Entails.of_eq (pts_o_3 (F := F) d L _))
                iapply (Entails.of_eq (o_piece_pts (F := F) d L (k0_off1 L 6#32) S8x3840.size (k0_off1_inb L 3) _ _ _ _ _))
                iexact Ho3'
            · isplitl [Ha4' Ho4']
              · isplitl [Ha4']
                · iapply (Entails.of_eq (pts_a_4 (F := F) d L _)); iexact Ha4'
                · iapply (Entails.of_eq (pts_o_4 (F := F) d L _))
                  iapply (Entails.of_eq (o_piece_pts (F := F) d L (k0_off1 L 8#32) S8x3840.size (k0_off1_inb L 4) _ _ _ _ _))
                  iexact Ho4'
              · isplitl [Ha5' Ho5']
                · isplitl [Ha5']
                  · iapply (Entails.of_eq (pts_a_5 (F := F) d L _)); iexact Ha5'
                  · iapply (Entails.of_eq (pts_o_5 (F := F) d L _))
                    iapply (Entails.of_eq (o_piece_pts (F := F) d L (k0_off1 L 10#32) S8x3840.size (k0_off1_inb L 5) _ _ _ _ _))
                    iexact Ho5'
                · isplitl [Ha6' Ho6']
                  · isplitl [Ha6']
                    · iapply (Entails.of_eq (pts_a_6 (F := F) d L _)); iexact Ha6'
                    · iapply (Entails.of_eq (pts_o_6 (F := F) d L _))
                      iapply (Entails.of_eq (o_piece_pts (F := F) d L (k0_off1 L 12#32) S8x3840.size (k0_off1_inb L 6) _ _ _ _ _))
                      iexact Ho6'
                  · isplitl [Ha7' Ho7']
                    · isplitl [Ha7']
                      · iapply (Entails.of_eq (pts_a_7 (F := F) d L _)); iexact Ha7'
                      · iapply (Entails.of_eq (pts_o_7 (F := F) d L _))
                        iapply (Entails.of_eq (o_piece_pts (F := F) d L (k0_off1 L 14#32) S8x3840.size (k0_off1_inb L 7) _ _ _ _ _))
                        iexact Ho7'
                    · isplitl [Ha8' Ho8']
                      · isplitl [Ha8']
                        · iapply (Entails.of_eq (pts_a_8 (F := F) d L _)); iexact Ha8'
                        · iapply (Entails.of_eq (pts_o_8 (F := F) d L _))
                          iapply (Entails.of_eq (o_piece_pts (F := F) d L (k0_off1 L 16#32) S8x3840.size (k0_off1_inb L 8) _ _ _ _ _))
                          iexact Ho8'
                      · isplitl [Ha9' Ho9']
                        · isplitl [Ha9']
                          · iapply (Entails.of_eq (pts_a_9 (F := F) d L _)); iexact Ha9'
                          · iapply (Entails.of_eq (pts_o_9 (F := F) d L _))
                            iapply (Entails.of_eq (o_piece_pts (F := F) d L (k0_off1 L 18#32) S8x3840.size (k0_off1_inb L 9) _ _ _ _ _))
                            iexact Ho9'
                        · isplitl [Ha10']
                          · iapply (Entails.of_eq (pts_a3 (F := F) d L k0_h2 _)); iexact Ha10'
                          · iapply (Entails.of_eq (pts_o3 (F := F) d L k0_h2 _))
                            iapply (Entails.of_eq (o_piece_pts (F := F) d L (k0_off3 L) S8x2976.size (k0_off3_inb L k0_h2) _ _ _ _ _))
                            iexact Ho10'
    isplitl [Hs0 Hs1 HsT' Hbufs]
    · isplitl [Hs0 Hs1]
      · iapply (pts_sB_join (F := F) d L _ _)
        isplitl [Hs0] <;> iassumption
      isplitl [HsT']
      · iexists _; iapply (Entails.of_eq (pts_sT (F := F) d L _)); iexact HsT'
      · iexact Hbufs
    isplitl [Hq0 Hq1 Hq2 Hq3 Hq4 Hq5 Hsems]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      iexact Hsems
    iexists _; isplitr
    on_goal 2 => iexact HO
    ipureintro
    repeat (refine waits_ok _ ?_)
    exact fun p hp => .inl hp

end Cert.Kernel.Pf

end
-- ==== Proof.RegionValueW.lean ====
/-
  The two arrays of the TensorCore pipeline after its eight points: the argument (16384 × 128) as it was found, and the
  result (128 × 100000) with columns 0‥16384 replaced by the argument's transpose — point t writes the transpose of
  rows 2048 t ‥ 2048 (t + 1) of the argument at columns 2048 t ‥ 2048 (t + 1) — and the columns from 16384 on as found.
-/
import proofs.«210814_g12945031431005_cont_9to1_m_1025_36_alg».proof.Proof.RegionW
import proofs.«210814_g12945031431005_cont_9to1_m_1025_36_alg».proof.Proof.Spec
import Idealize.ShloMosaic.Lib.Pipeline.Value

noncomputable section

namespace Cert.Kernel.Pf

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

variable (M : (ℓ : Loc nD τ sig) → Buf (Elt F) ℓ)

/-- The argument's array is only read: it ends as it was found. -/
theorem final_k (c : Dev nD) : (dats M 0 c).arrAt (0 : Fin 2) cfg1.N = M ((c : Thread nD τ).loc main_arg0) :=
  (dats (F := F) M 0 c).arrAt_in (0 : Fin 2) rfl _

/-- The result as one function of the whole array: the transposed argument on the columns below 16384, the
    entry contents from there on. -/
def regG (c : Dev nD) : Buf (Elt F) ((c : Thread nD τ).loc main_v1) :=
  fun i => if h : (i 1).val < 16384 then M ((c : Thread nD τ).loc main_arg0) (Cert.Spliced.tIdx i h) else M ((c : Thread nD τ).loc main_v1) i

/-- At point `t` the argument's block index is (t, 0), the result's (0, t), and the result's block is not cut:
    128 rows, 2048 columns. -/
theorem reg_index (t : Fin cfg1.N) : win1_0.index t 0 = t.val ∧ win1_0.index t 1 = 0 ∧ win1_1.index t 0 = 0 ∧ win1_1.index t 1 = t.val
    ∧ win1_1.xsize (grid1.coords t) 0 = 128 ∧ win1_1.xsize (grid1.coords t) 1 = 2048 := by
  rcases fin_N1 t with rfl | rfl | rfl | rfl | rfl | rfl | rfl | rfl <;> decide +kernel

/-- An index of the result is in point `t`'s block iff its column is among 2048 t ‥ 2048 t + 2048 (every row is). -/
theorem reg_mem_blk (t : Fin cfg1.N) (i : S128x100000.Idx) :
    i ∈ (win1_1.blk t).view.set ↔ 2048 * t.val ≤ (i 1).val ∧ (i 1).val < 2048 * t.val + 2048 := by
  show i ∈ ((View.whole main_v1).slice (win1_1.rect t)).set ↔ _
  rw [View.set_slice_whole, Rect.mem_set_unit]
  obtain ⟨-, -, e0, e1, x0, x1⟩ := reg_index t
  have h0 : (i 0).val < 128 := (i 0).isLt
  constructor
  · intro h
    have h1 := h 1
    change win1_1.index t 1 * 2048 ≤ (i 1).val ∧ (i 1).val < win1_1.index t 1 * 2048 + win1_1.xsize (grid1.coords t) 1 at h1
    rw [e1, x1] at h1
    omega
  · intro h a
    match a with
    | ⟨0, _⟩ =>
      change win1_1.index t 0 * 128 ≤ (i 0).val ∧ (i 0).val < win1_1.index t 0 * 128 + win1_1.xsize (grid1.coords t) 0
      rw [e0, x0]; omega
    | ⟨1, _⟩ =>
      change win1_1.index t 1 * 2048 ≤ (i 1).val ∧ (i 1).val < win1_1.index t 1 * 2048 + win1_1.xsize (grid1.coords t) 1
      rw [e1, x1]; omega

/-- What point `t` writes back is block `t` of `regG`: entry (r, q) of the written block is entry (q, r) of the
    argument's block — the transpose; the argument's window is not cut, so its staging buffer holds the block itself —,
    that is entry (2048 t + q, r) of the argument; and it lands at (r, 2048 t + q), a column below 16384. -/
theorem reg_cut_tblk8 (c : Dev nD) (t : Fin cfg1.N) :
    win1_1.cut (grid1.coords t) (tblk8 M c t) = (win1_1.blk t).view.read (Elt F) (regG M c) := by
  funext j
  obtain ⟨a0, a1, e0, e1, x0, x1⟩ := reg_index t
  have ht : t.val < 8 := t.isLt
  have hj0 : (j 0).val < 128 := by
    have h : (j 0).val < win1_1.xsize (grid1.coords t) 0 := (j 0).isLt
    rw [x0] at h; exact h
  have hj1 : (j 1).val < 2048 := by
    have h : (j 1).val < win1_1.xsize (grid1.coords t) 1 := (j 1).isLt
    rw [x1] at h; exact h
  rw [View.read_apply]
  -- the transposed index in the argument's block
  let k : S2048x128.Idx := fun a => match a with
    | ⟨0, _⟩ => ⟨(j 1).val, hj1⟩
    | ⟨1, _⟩ => ⟨(j 0).val, hj0⟩
  have hL : win1_1.cut (grid1.coords t) (tblk8 M c t) j = kblk8 M c t k :=
    transpose_apply [1, 0] (kblk8 M c t) transposes_S2048x128_p1_0_S128x2048 (win1_1.xinj (grid1.coords t) j) k
      (fun b => match b with
        | ⟨0, _⟩ => rfl
        | ⟨1, _⟩ => rfl)
  rw [hL]
  -- every index of the argument's block is moved
  have hm : win1_0.moved (grid1.coords t) k = true := (win1_0.moved_iff _ k).mpr fun a => (k a).isLt
  unfold kblk8 Window.fill
  rw [dif_pos hm]
  unfold kblk
  rw [View.read_apply]
  -- where the written element lands
  have hcol : (((win1_1.blk t).view.emb j) 1).val = 2048 * t.val + (j 1).val := by
    show ((win1_1.rect t).emb j 1 : Nat) = _
    rw [win1_1.rect_emb_val t j 1, e1]
    show t.val * 2048 + (j 1).val = _
    omega
  have hrow : (((win1_1.blk t).view.emb j) 0).val = (j 0).val := by
    show ((win1_1.rect t).emb j 0 : Nat) = _
    rw [win1_1.rect_emb_val t j 0, e0]
    omega
  have hlt : (((win1_1.blk t).view.emb j) 1).val < 16384 := by rw [hcol]; omega
  show M ((c : Thread nD τ).loc main_arg0) _ = regG M c _
  unfold regG
  rw [dif_pos hlt]
  congr 1
  funext a
  apply Fin.ext
  match a with
  | ⟨0, _⟩ =>
    show ((win1_0.rect t).emb _ 0 : Nat) = (((win1_1.blk t).view.emb j) 1).val
    rw [hcol, win1_0.rect_emb_val, a0]
    show t.val * 2048 + (j 1).val = _
    omega
  | ⟨1, _⟩ =>
    show ((win1_0.rect t).emb _ 1 : Nat) = (((win1_1.blk t).view.emb j) 0).val
    rw [hrow, win1_0.rect_emb_val, a1]
    show 0 * 128 + (j 0).val = _
    omega

/-- The result's array after the eight write-backs: a column below 16384 lies in block (column / 2048) and reads the
    transposed argument there; a column from 16384 on lies in no block and keeps the entry contents. -/
theorem final_r (c : Dev nD) (i : S128x100000.Idx) :
    (dats M 0 c).arrAt (1 : Fin 2) cfg1.N i
      = if h : (i 1).val < 16384 then M ((c : Thread nD τ).loc main_arg0) (Cert.Spliced.tIdx i h) else M ((c : Thread nD τ).loc main_v1) i := by
  have hG : ∀ t, (cfg1.win 1).flush t = true → (dats M 0 c).flushed 1 t = ((cfg1.win 1).blk t).view.read (Elt F) (regG M c) :=
    fun t _ => reg_cut_tblk8 M c t
  rw [(dats M 0 c).arrAt_eq_piecewise (1 : Fin 2) (regG M c) hG i]
  split
  · rfl
  · rename_i hno
    by_cases h : (i 1).val < 16384
    · exfalso
      apply hno
      refine ⟨⟨(i 1).val / 2048, ?_⟩, flush1_1 _, (reg_mem_blk _ i).mpr ?_⟩
      · show (i 1).val / 2048 < 8
        omega
      · show 2048 * ((i 1).val / 2048) ≤ (i 1).val ∧ (i 1).val < 2048 * ((i 1).val / 2048) + 2048
        omega
    · rw [dif_neg h]; rfl

end Cert.Kernel.Pf

end
-- ==== Proof.KernelValueW.lean ====
/-
  The program's result as a function of its two arguments: an array that reads the transposed argument on the
  columns 0‥16384 and, elsewhere, what the SparseCore call left — the source's columns — is the spliced array.
-/
import proofs.«210814_g12945031431005_cont_9to1_m_1025_36_alg».proof.Proof.CommonW
import proofs.«210814_g12945031431005_cont_9to1_m_1025_36_alg».proof.Proof.Spec
import proofs.«210814_g12945031431005_cont_9to1_m_1025_36_alg».proof.Proof.LayoutW

noncomputable section

namespace Cert.Kernel.Pf

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable (m : (ℓ : Loc nD τ sig) → Buf (Elt F) ℓ)

/-- Contents that read the transposed argument below column 16384 and the call's result from there on are the spliced array. -/
theorem final_value (d : Dev nD) (g : Buf (Elt F) (rLoc d))
    (hlow : ∀ (i : S128x100000.Idx) (h : (i 1).val < 16384), g i = m (kLoc d) (Cert.Spliced.tIdx i h))
    (hhigh : ∀ i : S128x100000.Idx, ¬ (i 1).val < 16384 → g i = asR d (tailFn m d) i) :
    g = Cert.Spliced.spliced (m (kLoc d)) (m (aLoc d)) := by
  funext i
  unfold Cert.Spliced.spliced
  by_cases h : (i 1).val < 16384
  · rw [dif_pos h]; exact hlow i h
  · rw [dif_neg h, hhigh i h]
    unfold asR tailFn asO
    rw [if_neg h]

end Cert.Kernel.Pf

end
-- ==== Proof.RunW.lean ====
/-
  The launch theorem applied: each vector subcore's task from its proof at a symbolic tile, the tasks' shares from
  the SparseCore's, @main on the TensorCore, and how the final memory reads the claim — the program's result is the
  spliced array, the constant is the constant, the two arguments are unchanged.
-/
import proofs.«210814_g12945031431005_cont_9to1_m_1025_36_alg».proof.Proof.MainW
import proofs.«210814_g12945031431005_cont_9to1_m_1025_36_alg».proof.Proof.TileW
import proofs.«210814_g12945031431005_cont_9to1_m_1025_36_alg».proof.Proof.RegionValueW
import proofs.«210814_g12945031431005_cont_9to1_m_1025_36_alg».proof.Proof.KernelValueW

noncomputable section

namespace Cert.Kernel.Pf

open Cert.Kernel Cert.Kernel.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the region's entry memory holds -/

theorem M3_k (d : Dev nD) : M3 m (kLoc d) = m (kLoc d) :=
  ((opI (F := F)).result_of_not_mem (V2 m d) (b := k') (show k' ∉ ({r'} : Finset (DevRef τ sig)) by decide)).trans (V2_k m d)
theorem M3_a (d : Dev nD) : M3 m (aLoc d) = m (aLoc d) :=
  ((opI (F := F)).result_of_not_mem (V2 m d) (b := a') (show a' ∉ ({r'} : Finset (DevRef τ sig)) by decide)).trans (V2_a m d)
theorem M3_c (d : Dev nD) : M3 m (cLoc d) = constantI S1 32 16384#32 :=
  (((opI (F := F)).result_of_not_mem (V2 m d) (b := c') (show c' ∉ ({r'} : Finset (DevRef τ sig)) by decide)).trans (V2_c m d)).trans
    (StableHlo.nullary_result' _ _ _)
theorem M3_r (d : Dev nD) : M3 m (rLoc d) = asR d (tailFn m d) :=
  show (opI (F := F)).result (V2 m d) r' = _ from
    (StableHlo.unary_result' (x := main_v0) (y := main_v1) id _ _ (V2 m d)).trans (congrArg id (V2_o m d))

/-! ## How the final memory reads the claim -/

/-- What the TensorCore's final assertion says of the memory: the pipeline's arrays at the computed contents, the
    source array and the constant at what the region found. -/
def fq (d : Dev nD) (s' : Phys nD τ sig (Elt F)) : Prop :=
  (∀ w : Fin cfg1.W, s'.mem.mem ((cfg1.win w).arr.view.loc (d : Thread nD τ)) = (dats (M3 m) 0 d).arrAt w cfg1.N)
    ∧ s'.mem.mem (aLoc d) = M3 m (aLoc d) ∧ s'.mem.mem (cLoc d) = M3 m (cLoc d)

theorem hfin (d : Dev nD) (s' : Phys nD τ sig (Elt F)) : iprop(FIN m d ∗ SI s') ⊢ (⌜fq m d s'⌝ : sProp 𝕄) := by
  unfold FIN
  iintro ⟨⟨Ha, H1, Hc, -⟩, HSI⟩
  ihave Hr := (Pipeline.arrays_read (pcfgs (F := F)) adm (dats (M3 m)) launch1.arr_whole d ((dats (M3 m) 0 d).share_full fun _ => rfl) _ s') $$ [Ha HSI]
  · isplitl [Ha] <;> iassumption
  icases Hr with ⟨%ha, HSI⟩
  icombine HSI H1 gives %h1
  icombine HSI Hc gives %hc
  ipureintro
  exact ⟨ha, Buf.eq_of_forall_mem_univ h1, Buf.eq_of_forall_mem_univ hc⟩

/-- The run's post: the result is the spliced array, the constant the constant, the arguments unchanged. -/
def QC : PUnit × MemSt nD τ sig (Elt F) → Prop := fun r => ∀ c : Dev nD,
  r.2.mem (rLoc c) = Cert.Spliced.spliced (m (kLoc c)) (m (aLoc c)) ∧ r.2.mem (cLoc c) = constantI S1 32 16384#32
    ∧ r.2.mem (kLoc c) = m (kLoc c) ∧ r.2.mem (aLoc c) = m (aLoc c)

theorem hQ (s' : Phys nD τ sig (Elt F)) (h : ∀ d, fq m d s') : QC m (⟨⟩, s'.mem) := by
  intro c
  obtain ⟨ha, h1, hc⟩ := h c
  refine ⟨?_, hc.trans (M3_c m c), ((ha (0 : Fin 2)).trans (final_k (M3 m) c)).trans (M3_k m c), h1.trans (M3_a m c)⟩
  refine (ha (1 : Fin 2)).trans (final_value m c _ (fun i h => ?_) (fun i h => ?_))
  · rw [final_r (M3 m) c i, dif_pos h]; exact congrFun (M3_k m c) _
  · rw [final_r (M3 m) c i, dif_neg h]; exact congrFun (M3_r m c) i

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_copy_body (coordsV c s)
          aV (Memref.isWhole_whole _) oV (Memref.isWhole_whole _) sB (Memref.isWhole_whole _) sT (Memref.isWhole_whole _)
          cc0_scratch2 cc0_scratch3 cc0_scratch4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-! ## The program's run -/

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (hQ m)

end Cert.Kernel.Pf

end
-- ==== Proof.RefValue.lean ====
/-
  The reference program's result as a function of its two arguments: updating a 128 × 100000 array at offset (0, 0)
  by the transpose of a 16384 × 128 array replaces exactly the columns 0‥16384, entry (r, c) reading entry (c, r).
-/
import proofs.«210814_g12945031431005_cont_9to1_m_1025_36_alg».proof.Proof.Gen.ReferenceIdeal.Read
import proofs.«210814_g12945031431005_cont_9to1_m_1025_36_alg».proof.Proof.Spec

noncomputable section

namespace Cert.ReferenceIdeal.RefValue

open Cert.ReferenceIdeal Idealize.ShloMosaic

variable {F : FTy → Type} [FloatOps F]

/-- The reference's result — the update of `x1` at offset (0, 0) by the transpose of `x0` — is the spliced array. -/
theorem ref_value (x0 : (⟨S16384x128, .f32⟩ : BufTy).Contents (Elt F)) (x1 : (⟨S128x100000, .f32⟩ : BufTy).Contents (Elt F)) :
    Cert.ReferenceIdeal.Read.val_main_v1 (F := F) x0 x1 = Cert.Spliced.spliced x0 x1 := by
  unfold Read.val_main_v1
  -- both start indices are the constant 0, so the clamped start is (0, 0)
  have hadj : ∀ a : Fin S128x100000.rank,
      (min (max ((((![Read.val_main_c_0 (F := F), Read.val_main_c_1 (F := F)] : Fin 2 → (⟨S_, .i32⟩ : BufTy).Contents (Elt F))) a (Shape.Idx.first Gen.h_S_)).toInt) 0)
        ((S128x100000.size a - S128x16384.size (a.cast Gen.updateFits_S128x100000_S128x16384.1.symm) : Nat) : Int)).toNat = (fun _ => 0 : Fin S128x100000.rank → Nat) a := by
    intro a
    fin_cases a
    · show (min (max (BitVec.toInt 0#32) 0) _).toNat = 0
      have : BitVec.toInt 0#32 = 0 := by decide
      rw [this]; omega
    · show (min (max (BitVec.toInt 0#32) 0) _).toNat = 0
      have : BitVec.toInt 0#32 = 0 := by decide
      rw [this]; omega
  rw [Host.dynamicUpdateSlice_eq_updateSlice _ _ _ _ (fun _ => 0) hadj ⟨rfl, by decide⟩]
  funext i
  unfold updateSlice Cert.Spliced.spliced
  by_cases h : (i 1).val < 16384
  · rw [dif_pos h, dif_pos]
    · rw [Read.val_main_v0_apply]
      congr 1
    · intro a
      fin_cases a
      · exact ⟨Nat.zero_le _, by have := (i 0).isLt; simpa using this⟩
      · exact ⟨Nat.zero_le _, by simpa using h⟩
  · rw [dif_neg h, dif_neg]
    intro hin
    exact h (by simpa using (hin 1).2)

end Cert.ReferenceIdeal.RefValue

end
-- ==== Proof.lean ====
/-
  The claims of the certificate for the copy-then-transpose program against its reference.

  Both idealized programs end with one array: columns 0‥16384 the transpose of the first argument, the other columns
  the second argument's (the kernel by a SparseCore copy of the high columns and a TensorCore pipeline writing the
  low ones, the reference by one update at offset (0, 0)), and the constant 16384; neither writes an argument. No
  float is computed on, so nothing is asked of the inputs. The kernel's run is proved once for any float instance and
  read at the word level for the printed kernel's frame and at the extended reals for the idealized one's frame and
  for the comparison; the reference's run is its host operations composed.
-/
import proofs.«210814_g12945031431005_cont_9to1_m_1025_36_alg».proof.Defs
import proofs.«210814_g12945031431005_cont_9to1_m_1025_36_alg».proof.Proof.Gen.Kernel
import proofs.«210814_g12945031431005_cont_9to1_m_1025_36_alg».proof.Proof.Gen.Kernel.Skeleton
import proofs.«210814_g12945031431005_cont_9to1_m_1025_36_alg».proof.Proof.Gen.Kernel.Launch
import proofs.«210814_g12945031431005_cont_9to1_m_1025_36_alg».proof.Proof.Gen.Kernel.Points
import proofs.«210814_g12945031431005_cont_9to1_m_1025_36_alg».proof.Proof.Gen.KernelIdeal
import proofs.«210814_g12945031431005_cont_9to1_m_1025_36_alg».proof.Proof.Gen.KernelIdeal.Skeleton
import proofs.«210814_g12945031431005_cont_9to1_m_1025_36_alg».proof.Proof.Gen.KernelIdeal.Launch
import proofs.«210814_g12945031431005_cont_9to1_m_1025_36_alg».proof.Proof.Gen.KernelIdeal.Points
import proofs.«210814_g12945031431005_cont_9to1_m_1025_36_alg».proof.Proof.Gen.ReferenceIdeal
import proofs.«210814_g12945031431005_cont_9to1_m_1025_36_alg».proof.Proof.Gen.Pre_finite_inputs
import proofs.«210814_g12945031431005_cont_9to1_m_1025_36_alg».proof.Proof.Gen.ReferenceIdeal.Run
import proofs.«210814_g12945031431005_cont_9to1_m_1025_36_alg».proof.Proof.Gen.ReferenceIdeal.Read
import proofs.«210814_g12945031431005_cont_9to1_m_1025_36_alg».proof.Proof.Run
import proofs.«210814_g12945031431005_cont_9to1_m_1025_36_alg».proof.Proof.RunW
import proofs.«210814_g12945031431005_cont_9to1_m_1025_36_alg».proof.Proof.RefValue
import Idealize.ShloMosaic.Adequacy
import Idealize.ShloMosaic.Init

noncomputable section

namespace Cert.Proof

open Idealize.ShloMosaic Idealize.SL.Sem

/-- The printed kernel runs and leaves its arguments: its run at the word level, the values dropped. -/
theorem frame_k : Cert.frame_Kernel := fun m ρ _ =>
  (θ_run Cert.Kernel.defs _ _).mono (fun _ h c => ⟨(h c).2.2.1, (h c).2.2.2⟩) (Cert.Kernel.Pf.run_main (F := Bits) m ρ)

/-- The idealized kernel likewise, at the extended reals. -/
theorem frame_ki : Cert.frame_KernelIdeal := fun m ρ _ =>
  (θ_run Cert.KernelIdeal.defs _ _).mono (fun _ h c => ⟨(h c).2.2.1, (h c).2.2.2⟩) (Cert.KernelIdeal.Pf.run_main (F := Ideal) m ρ)

/-- The reference runs and leaves its arguments: its host operations composed, the results dropped. -/
theorem frame_ri : Cert.frame_ReferenceIdeal := fun m ρ _ =>
  (θ_run Cert.ReferenceIdeal.defs _ _).mono (fun _ h c => ⟨(h c).2.2.1, (h c).2.2.2⟩) (Cert.ReferenceIdeal.Value.run (F := Ideal) m ρ)

/-- From memories agreeing on the arguments both programs end with the spliced array and the constant. -/
theorem algebraic : Cert.algebraic_KernelIdeal_ReferenceIdeal := by
  intro m ρ m' ρ' _ hagree
  refine ⟨fun c => Cert.Spliced.spliced (m (Cert.KernelIdeal.Pf.kLoc c)) (m (Cert.KernelIdeal.Pf.aLoc c)),
    fun c => constantI Cert.KernelIdeal.S1 32 16384#32, ?_, ?_⟩
  · exact (θ_run Cert.KernelIdeal.defs _ _).mono (fun _ h c => ⟨(h c).1, (h c).2.1, (h c).2.2.1, (h c).2.2.2⟩)
      (Cert.KernelIdeal.Pf.run_main (F := Ideal) m ρ)
  · refine (θ_run Cert.ReferenceIdeal.defs _ _).mono (fun _ h c => ⟨?_, (h c).2.1, (h c).2.2.1, (h c).2.2.2⟩)
      (Cert.ReferenceIdeal.Value.run (F := Ideal) m' ρ')
    refine (h c).1.trans ?_
    refine ((Cert.ReferenceIdeal.Read.val_main_v1_eq (F := Ideal) _ _).trans
      (Cert.ReferenceIdeal.RefValue.ref_value (F := Ideal) _ _)).trans ?_
    rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
